-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v71)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v71) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_v79) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x2 : Shape := ⟨2, ![50000, 2]⟩
abbrev S50000x1 : Shape := ⟨2, ![50000, 1]⟩
abbrev S_ : Shape := ⟨0, ![]⟩
abbrev S4x128 : Shape := ⟨2, ![4, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S800000 : Shape := ⟨1, ![800000]⟩

class Facts : Prop where
  bcast_S_S50000x2 : S_.BroadcastsInDim S50000x2 (![] : Fin 0 → Fin S50000x2.rank)
  reducesTo_S50000x2_S_d0_1 : S50000x2.ReducesTo [0, 1] S_
  h_S_ : 0 < S_.numel
  bcast_S_S50000x1 : S_.BroadcastsInDim S50000x1 (![] : Fin 0 → Fin S50000x1.rank)
  reducesTo_S50000x1_S_d0_1 : S50000x1.ReducesTo [0, 1] S_
  reducesTo_S_S_d : S_.ReducesTo [] S_
  bcast_S_S4x128 : S_.BroadcastsInDim S4x128 (![] : Fin 0 → Fin S4x128.rank)
  reducesTo_S4x128_S_d0_1 : S4x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_v47 : IVec S_ 1) (main_v50 : IVec S1 1) : IVec S_ 1 :=
  let main_c_19 : IVec S_ 1 := constantI S_ 1 1#1
  let main_v51 : IVec S_ 1 := (fun x v => Host.reduce IntOp.andi x v reducesTo_S1_S_d0 h_S_) main_v50 main_c_19
  let main_v52 : IVec S_ 1 := andi main_v47 main_v51
  main_v52

def fn_part2 {F : FTy → Type} [FloatOps F] (main_arg8 : FVec F S128 .f32) (main_arg9 : FVec F S128x1 .f32) (main_arg10 : FVec F S1 .f32) (main_v32 : IVec S_ 1) (main_v33 : FVec F S128x128 .f32) : IVec S_ 1 :=
  let main_cst_12 : FVec F S_ .f32 := constant S_ .f32 0x7F800000#32
  let main_v34 : FVec F S128x128 .f32 := broadcastInDim S128x128 ![] bcast_S_S128x128 main_cst_12
  let main_v35 : IVec S128x128 1 := cmpf .olt main_v33 main_v34
  let main_c_13 : IVec S_ 1 := constantI S_ 1 1#1
  let main_v36 : IVec S_ 1 := (fun x v => Host.reduce IntOp.andi x v reducesTo_S128x128_S_d0_1 h_S_) main_v35 main_c_13
  let main_v37 : IVec S_ 1 := andi main_v32 main_v36
  let main_v38 : FVec F S128 .f32 := Host.absf main_arg8
  let main_cst_14 : FVec F S_ .f32 := constant S_ .f32 0x7F800000#32
  let main_v39 : FVec F S128 .f32 := broadcastInDim S128 ![] bcast_S_S128 main_cst_14
  let main_v40 : IVec S128 1 := cmpf .olt main_v38 main_v39
  let main_c_15 : IVec S_ 1 := constantI S_ 1 1#1
  let main_v41 : IVec S_ 1 := (fun x v => Host.reduce IntOp.andi x v reducesTo_S128_S_d0 h_S_) main_v40 main_c_15
  let main_v42 : IVec S_ 1 := andi main_v37 main_v41
  let main_v43 : FVec F S128x1 .f32 := Host.absf main_arg9
  let main_cst_16 : FVec F S_ .f32 := constant S_ .f32 0x7F800000#32
  let main_v44 : FVec F S128x1 .f32 := broadcastInDim S128x1 ![] bcast_S_S128x1 main_cst_16
  let main_v45 : IVec S128x1 1 := cmpf .olt main_v43 main_v44
  let main_c_17 : IVec S_ 1 := constantI S_ 1 1#1
  let main_v46 : IVec S_ 1 := (fun x v => Host.reduce IntOp.andi x v reducesTo_S128x1_S_d0_1 h_S_) main_v45 main_c_17
  let main_v47 : IVec S_ 1 := andi main_v42 main_v46
  let main_v48 : FVec F S1 .f32 := Host.absf main_arg10
  let main_cst_18 : FVec F S_ .f32 := constant S_ .f32 0x7F800000#32
  let main_v49 : FVec F S1 .f32 := broadcastInDim S1 ![] bcast_S_S1 main_cst_18
  let main_v50 : IVec S1 1 := cmpf .olt main_v48 main_v49
  fn_part3 (F := F) main_v47 main_v50

def fn_part1 {F : FTy → Type} [FloatOps F] (main_arg4 : FVec F S128 .f32) (main_arg5 : FVec F S128x128 .f32) (main_arg6 : FVec F S128 .f32) (main_arg7 : FVec F S128x128 .f32) (main_arg8 : FVec F S128 .f32) (main_arg9 : FVec F S128x1 .f32) (main_arg10 : FVec F S1 .f32) (main_v12 : IVec S_ 1) (main_v15 : IVec S4x128 1) (main_c_5 : IVec S_ 1) : IVec S_ 1 :=
  let main_v16 : IVec S_ 1 := (fun x v => Host.reduce IntOp.andi x v reducesTo_S4x128_S_d0_1 h_S_) main_v15 main_c_5
  let main_v17 : IVec S_ 1 := andi main_v12 main_v16
  let main_v18 : FVec F S128 .f32 := Host.absf main_arg4
  let main_cst_6 : FVec F S_ .f32 := constant S_ .f32 0x7F800000#32
  let main_v19 : FVec F S128 .f32 := broadcastInDim S128 ![] bcast_S_S128 main_cst_6
  let main_v20 : IVec S128 1 := cmpf .olt main_v18 main_v19
  let main_c_7 : IVec S_ 1 := constantI S_ 1 1#1
  let main_v21 : IVec S_ 1 := (fun x v => Host.reduce IntOp.andi x v reducesTo_S128_S_d0 h_S_) main_v20 main_c_7
  let main_v22 : IVec S_ 1 := andi main_v17 main_v21
  let main_v23 : FVec F S128x128 .f32 := Host.absf main_arg5
  let main_cst_8 : FVec F S_ .f32 := constant S_ .f32 0x7F800000#32
  let main_v24 : FVec F S128x128 .f32 := broadcastInDim S128x128 ![] bcast_S_S128x128 main_cst_8
  let main_v25 : IVec S128x128 1 := cmpf .olt main_v23 main_v24
  let main_c_9 : IVec S_ 1 := constantI S_ 1 1#1
  let main_v26 : IVec S_ 1 := (fun x v => Host.reduce IntOp.andi x v reducesTo_S128x128_S_d0_1 h_S_) main_v25 main_c_9
  let main_v27 : IVec S_ 1 := andi main_v22 main_v26
  let main_v28 : FVec F S128 .f32 := Host.absf main_arg6
  let main_cst_10 : FVec F S_ .f32 := constant S_ .f32 0x7F800000#32
  let main_v29 : FVec F S128 .f32 := broadcastInDim S128 ![] bcast_S_S128 main_cst_10
  let main_v30 : IVec S128 1 := cmpf .olt main_v28 main_v29
  let main_c_11 : IVec S_ 1 := constantI S_ 1 1#1
  let main_v31 : IVec S_ 1 := (fun x v => Host.reduce IntOp.andi x v reducesTo_S128_S_d0 h_S_) main_v30 main_c_11
  let main_v32 : IVec S_ 1 := andi main_v27 main_v31
  let main_v33 : FVec F S128x128 .f32 := Host.absf main_arg7
  fn_part2 (F := F) main_arg8 main_arg9 main_arg10 main_v32 main_v33

def fn {F : FTy → Type} [FloatOps F] (main_arg0 : FVec F S50000x2 .f32) (main_arg1 : FVec F S50000x1 .f32) (main_arg2 : FVec F S_ .f32) (main_arg3 : FVec F S4x128 .f32) (main_arg4 : FVec F S128 .f32) (main_arg5 : FVec F S128x128 .f32) (main_arg6 : FVec F S128 .f32) (main_arg7 : FVec F S128x128 .f32) (main_arg8 : FVec F S128 .f32) (main_arg9 : FVec F S128x1 .f32) (main_arg10 : FVec F S1 .f32) (main_arg11 : IVec S800000 32) (main_arg12 : IVec S800000 32) : IVec S_ 1 :=
  let main_v0 : FVec F S50000x2 .f32 := Host.absf main_arg0
  let main_cst : FVec F S_ .f32 := constant S_ .f32 0x7F800000#32
  let main_v1 : FVec F S50000x2 .f32 := broadcastInDim S50000x2 ![] bcast_S_S50000x2 main_cst
  let main_v2 : IVec S50000x2 1 := cmpf .olt main_v0 main_v1
  let main_c : IVec S_ 1 := constantI S_ 1 1#1
  let main_v3 : IVec S_ 1 := (fun x v => Host.reduce IntOp.andi x v reducesTo_S50000x2_S_d0_1 h_S_) main_v2 main_c
  let main_v4 : FVec F S50000x1 .f32 := Host.absf main_arg1
  let main_cst_0 : FVec F S_ .f32 := constant S_ .f32 0x7F800000#32
  let main_v5 : FVec F S50000x1 .f32 := broadcastInDim S50000x1 ![] bcast_S_S50000x1 main_cst_0
  let main_v6 : IVec S50000x1 1 := cmpf .olt main_v4 main_v5
  let main_c_1 : IVec S_ 1 := constantI S_ 1 1#1
  let main_v7 : IVec S_ 1 := (fun x v => Host.reduce IntOp.andi x v reducesTo_S50000x1_S_d0_1 h_S_) main_v6 main_c_1
  let main_v8 : IVec S_ 1 := andi main_v3 main_v7
  let main_v9 : FVec F S_ .f32 := Host.absf main_arg2
  let main_cst_2 : FVec F S_ .f32 := constant S_ .f32 0x7F800000#32
  let main_v10 : IVec S_ 1 := cmpf .olt main_v9 main_cst_2
  let main_c_3 : IVec S_ 1 := constantI S_ 1 1#1
  let main_v11 : IVec S_ 1 := (fun x v => Host.reduce IntOp.andi x v reducesTo_S_S_d h_S_) main_v10 main_c_3
  let main_v12 : IVec S_ 1 := andi main_v8 main_v11
  let main_v13 : FVec F S4x128 .f32 := Host.absf main_arg3
  let main_cst_4 : FVec F S_ .f32 := constant S_ .f32 0x7F800000#32
  let main_v14 : FVec F S4x128 .f32 := broadcastInDim S4x128 ![] bcast_S_S4x128 main_cst_4
  let main_v15 : IVec S4x128 1 := cmpf .olt main_v13 main_v14
  let main_c_5 : IVec S_ 1 := constantI S_ 1 1#1
  fn_part1 (F := F) main_arg4 main_arg5 main_arg6 main_arg7 main_arg8 main_arg9 main_arg10 main_v12 main_v15 main_c_5
-- ==== Kernel.lean ====
abbrev S50000x2 : Shape := ⟨2, ![50000, 2]⟩
abbrev S50000x1 : Shape := ⟨2, ![50000, 1]⟩
abbrev S_ : Shape := ⟨0, ![]⟩
abbrev S4x128 : Shape := ⟨2, ![4, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S800000 : Shape := ⟨1, ![800000]⟩
abbrev S50000x3 : Shape := ⟨2, ![50000, 3]⟩
abbrev S800000x1 : Shape := ⟨2, ![800000, 1]⟩
abbrev S800000x3 : Shape := ⟨2, ![800000, 3]⟩
abbrev S800000x2 : Shape := ⟨2, ![800000, 2]⟩
abbrev S1x800000 : Shape := ⟨2, ![1, 800000]⟩
abbrev S4x800000 : Shape := ⟨2, ![4, 800000]⟩
abbrev S4x802816 : Shape := ⟨2, ![4, 802816]⟩
abbrev S128x4 : Shape := ⟨2, ![128, 4]⟩
abbrev S1x128 : Shape := ⟨2, ![1, 128]⟩
abbrev S1x1 : Shape := ⟨2, ![1, 1]⟩
abbrev S98x1x8192 : Shape := ⟨3, ![98, 1, 8192]⟩
abbrev S4x8192 : Shape := ⟨2, ![4, 8192]⟩
abbrev S1x1x8192 : Shape := ⟨3, ![1, 1, 8192]⟩
abbrev S1x8192 : Shape := ⟨2, ![1, 8192]⟩
abbrev S128x8192 : Shape := ⟨2, ![128, 8192]⟩
abbrev S802816 : Shape := ⟨1, ![802816]⟩

abbrev nBuf : Space → Nat
  | .hbm => 94
  | .vmem => 12
  | .smem => 0
  | _ => 0

abbrev bufTy : (tb : Table) → Fin (tcTables nBuf tb) → BufTy
  | .hbm, ⟨0, _⟩ => ⟨S50000x2, .f32⟩
  | .hbm, ⟨1, _⟩ => ⟨S50000x1, .f32⟩
  | .hbm, ⟨2, _⟩ => ⟨S_, .f32⟩
  | .hbm, ⟨3, _⟩ => ⟨S4x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x1, .f32⟩
  | .hbm, ⟨10, _⟩ => ⟨S1, .f32⟩
  | .hbm, ⟨11, _⟩ => ⟨S800000, .i32⟩
  | .hbm, ⟨12, _⟩ => ⟨S800000, .i32⟩
  | .hbm, ⟨13, _⟩ => ⟨S50000x1, .f32⟩
  | .hbm, ⟨14, _⟩ => ⟨S50000x1, .f32⟩
  | .hbm, ⟨15, _⟩ => ⟨S50000x2, .f32⟩
  | .hbm, ⟨16, _⟩ => ⟨S50000x2, .f32⟩
  | .hbm, ⟨17, _⟩ => ⟨S50000x2, .f32⟩
  | .hbm, ⟨18, _⟩ => ⟨S50000x3, .f32⟩
  | .hbm, ⟨19, _⟩ => ⟨S_, .i32⟩
  | .hbm, ⟨20, _⟩ => ⟨S800000, .i32⟩
  | .hbm, ⟨21, _⟩ => ⟨S800000, .i1⟩
  | .hbm, ⟨22, _⟩ => ⟨S_, .i32⟩
  | .hbm, ⟨23, _⟩ => ⟨S800000, .i32⟩
  | .hbm, ⟨24, _⟩ => ⟨S800000, .i32⟩
  | .hbm, ⟨25, _⟩ => ⟨S800000, .i32⟩
  | .hbm, ⟨26, _⟩ => ⟨S800000x1, .i32⟩
  | .hbm, ⟨27, _⟩ => ⟨S800000x3, .f32⟩
  | .hbm, ⟨28, _⟩ => ⟨S_, .i32⟩
  | .hbm, ⟨29, _⟩ => ⟨S800000, .i32⟩
  | .hbm, ⟨30, _⟩ => ⟨S800000, .i1⟩
  | .hbm, ⟨31, _⟩ => ⟨S_, .i32⟩
  | .hbm, ⟨32, _⟩ => ⟨S800000, .i32⟩
  | .hbm, ⟨33, _⟩ => ⟨S800000, .i32⟩
  | .hbm, ⟨34, _⟩ => ⟨S800000, .i32⟩
  | .hbm, ⟨35, _⟩ => ⟨S800000x1, .i32⟩
  | .hbm, ⟨36, _⟩ => ⟨S800000x3, .f32⟩
  | .hbm, ⟨37, _⟩ => ⟨S800000x2, .f32⟩
  | .hbm, ⟨38, _⟩ => ⟨S800000x1, .f32⟩
  | .hbm, ⟨39, _⟩ => ⟨S800000x2, .f32⟩
  | .hbm, ⟨40, _⟩ => ⟨S800000x1, .f32⟩
  | .hbm, ⟨41, _⟩ => ⟨S800000x2, .f32⟩
  | .hbm, ⟨42, _⟩ => ⟨S800000x1, .f32⟩
  | .hbm, ⟨43, _⟩ => ⟨S800000x1, .f32⟩
  | .hbm, ⟨44, _⟩ => ⟨S800000x1, .f32⟩
  | .hbm, ⟨45, _⟩ => ⟨S800000x1, .f32⟩
  | .hbm, ⟨46, _⟩ => ⟨S800000x1, .f32⟩
  | .hbm, ⟨47, _⟩ => ⟨S800000x1, .f32⟩
  | .hbm, ⟨48, _⟩ => ⟨S800000x1, .f32⟩
  | .hbm, ⟨49, _⟩ => ⟨S800000x1, .f32⟩
  | .hbm, ⟨50, _⟩ => ⟨S800000x1, .f32⟩
  | .hbm, ⟨51, _⟩ => ⟨S800000x1, .f32⟩
  | .hbm, ⟨52, _⟩ => ⟨S800000x1, .f32⟩
  | .hbm, ⟨53, _⟩ => ⟨S800000x1, .f32⟩
  | .hbm, ⟨54, _⟩ => ⟨S800000x1, .f32⟩
  | .hbm, ⟨55, _⟩ => ⟨S800000x1, .f32⟩
  | .hbm, ⟨56, _⟩ => ⟨S800000x1, .f32⟩
  | .hbm, ⟨57, _⟩ => ⟨S800000x1, .f32⟩
  | .hbm, ⟨58, _⟩ => ⟨S1x800000, .f32⟩
  | .hbm, ⟨59, _⟩ => ⟨S1x800000, .f32⟩
  | .hbm, ⟨60, _⟩ => ⟨S1x800000, .f32⟩
  | .hbm, ⟨61, _⟩ => ⟨S1x800000, .f32⟩
  | .hbm, ⟨62, _⟩ => ⟨S4x800000, .f32⟩
  | .hbm, ⟨63, _⟩ => ⟨S_, .i32⟩
  | .hbm, ⟨64, _⟩ => ⟨S_, .f32⟩
  | .hbm, ⟨65, _⟩ => ⟨S4x802816, .f32⟩
  | .hbm, ⟨66, _⟩ => ⟨S128x4, .f32⟩
  | .hbm, ⟨67, _⟩ => ⟨S128x128, .f32⟩
  | .hbm, ⟨68, _⟩ => ⟨S128x128, .bf16⟩
  | .hbm, ⟨69, _⟩ => ⟨S128x128, .f32⟩
  | .hbm, ⟨70, _⟩ => ⟨S128x128, .bf16⟩
  | .hbm, ⟨71, _⟩ => ⟨S1x128, .f32⟩
  | .hbm, ⟨72, _⟩ => ⟨S1x128, .bf16⟩
  | .hbm, ⟨73, _⟩ => ⟨S128x1, .f32⟩
  | .hbm, ⟨74, _⟩ => ⟨S128x1, .f32⟩
  | .hbm, ⟨75, _⟩ => ⟨S128x1, .f32⟩
  | .hbm, ⟨76, _⟩ => ⟨S1x1, .f32⟩
  | .hbm, ⟨77, _⟩ => ⟨S98x1x8192, .f32⟩
  | .hbm, ⟨78, _⟩ => ⟨S802816, .f32⟩
  | .hbm, ⟨79, _⟩ => ⟨S800000, .f32⟩
  | .hbm, ⟨80, _⟩ => ⟨S800000x1, .f32⟩
  | .hbm, ⟨81, _⟩ => ⟨S_, .f32⟩
  | .hbm, ⟨82, _⟩ => ⟨S800000x1, .f32⟩
  | .hbm, ⟨83, _⟩ => ⟨S800000x2, .f32⟩
  | .hbm, ⟨84, _⟩ => ⟨S_, .f32⟩
  | .hbm, ⟨85, _⟩ => ⟨S50000x2, .f32⟩
  | .hbm, ⟨86, _⟩ => ⟨S800000x1, .i32⟩
  | .hbm, ⟨87, _⟩ => ⟨S50000x2, .f32⟩
  | .hbm, ⟨88, _⟩ => ⟨S50000x1, .f32⟩
  | .hbm, ⟨89, _⟩ => ⟨S50000x1, .f32⟩
  | .hbm, ⟨90, _⟩ => ⟨S_, .f32⟩
  | .hbm, ⟨91, _⟩ => ⟨S50000x1, .f32⟩
  | .hbm, ⟨92, _⟩ => ⟨S50000x1, .f32⟩
  | .hbm, ⟨93, _⟩ => ⟨S50000x1, .f32⟩
  | .local _ .vmem, ⟨0, _⟩ => ⟨S4x8192, .f32⟩
  | .local _ .vmem, ⟨1, _⟩ => ⟨S4x8192, .f32⟩
  | .local _ .vmem, ⟨2, _⟩ => ⟨S128x4, .f32⟩
  | .local _ .vmem, ⟨3, _⟩ => ⟨S128x1, .f32⟩
  | .local _ .vmem, ⟨4, _⟩ => ⟨S128x128, .bf16⟩
  | .local _ .vmem, ⟨5, _⟩ => ⟨S128x1, .f32⟩
  | .local _ .vmem, ⟨6, _⟩ => ⟨S128x128, .bf16⟩
  | .local _ .vmem, ⟨7, _⟩ => ⟨S128x1, .f32⟩
  | .local _ .vmem, ⟨8, _⟩ => ⟨S1x128, .bf16⟩
  | .local _ .vmem, ⟨9, _⟩ => ⟨S1x1, .f32⟩
  | .local _ .vmem, ⟨10, _⟩ => ⟨S1x1x8192, .f32⟩
  | .local _ .vmem, ⟨11, _⟩ => ⟨S1x1x8192, .f32⟩
  | _, _ => ⟨S50000x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_c : Ref sig .tc := ⟨.hbm, 19, rfl⟩
abbrev main_v6 : Ref sig .tc := ⟨.hbm, 20, rfl⟩
abbrev main_v7 : Ref sig .tc := ⟨.hbm, 21, rfl⟩
abbrev main_c_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_c_1 : Ref sig .tc := ⟨.hbm, 28, rfl⟩
abbrev main_v13 : Ref sig .tc := ⟨.hbm, 29, rfl⟩
abbrev main_v14 : Ref sig .tc := ⟨.hbm, 30, rfl⟩
abbrev main_c_2 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_c_3 : Ref sig .tc := ⟨.hbm, 63, rfl⟩
abbrev main_call0_v0 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_cst : Ref sig .tc := ⟨.hbm, 81, rfl⟩
abbrev main_v62 : Ref sig .tc := ⟨.hbm, 82, rfl⟩
abbrev main_v63 : Ref sig .tc := ⟨.hbm, 83, rfl⟩
abbrev main_cst_4 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_cst_5 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![98], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1x1x8192 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  concatenates_S50000x1_S50000x1_S50000x2_d1 : Shape.Concatenates [S50000x1, S50000x1] S50000x2 1
  bcast_S_S50000x2 : S_.BroadcastsInDim S50000x2 (![] : Fin 0 → Fin S50000x2.rank)
  concatenates_S50000x2_S50000x1_S50000x3_d1 : Shape.Concatenates [S50000x2, S50000x1] S50000x3 1
  bcast_S_S800000 : S_.BroadcastsInDim S800000 (![] : Fin 0 → Fin S800000.rank)
  bcast_S800000_S800000x1_0 : S800000.BroadcastsInDim S800000x1 (![0] : Fin 1 → Fin S800000x1.rank)
  slices_S800000x3_S800000x2_0_0 : S800000x3.Slices ![0, 0] S800000x2
  slices_S800000x3_S800000x1_0_2 : S800000x3.Slices ![0, 2] S800000x1
  slices_S800000x2_S800000x1_0_0 : S800000x2.Slices ![0, 0] S800000x1
  slices_S800000x2_S800000x1_0_1 : S800000x2.Slices ![0, 1] S800000x1
  transposes_S800000x1_S1x800000_1_0 : S800000x1.Transposes [1, 0] S1x800000
  concatenates_S1x800000_S1x800000_S1x800000_S1x800000_S4x800000_d0 : Shape.Concatenates [S1x800000, S1x800000, S1x800000, S1x800000] S4x800000 0
  pads_S4x800000_S4x802816_000_028160 : S4x800000.Pads (![0, 0] : Fin 2 → Nat) ![0, 2816] ![0, 0] S4x802816
  h_S_ : 0 < S_.numel
  transposes_S4x128_S128x4_1_0 : S4x128.Transposes [1, 0] S128x4
  transposes_S128x128_S128x128_1_0 : S128x128.Transposes [1, 0] S128x128
  bitsLt_bf16_f32 : FTy.bits .bf16 < FTy.bits .f32
  transposes_S128x1_S1x128_1_0 : S128x1.Transposes [1, 0] S1x128
  shapeCasts_S128_S128x1 : S128.ShapeCasts S128x1
  shapeCasts_S1_S1x1 : S1.ShapeCasts S1x1
  inb_S4x8192_S4x8192_0_0 : ∀ a, (![0, 0] : Fin 2 → Nat) a + S4x8192.size a ≤ S4x8192.size a
  h_S4x8192 : 0 < S4x8192.numel
  shapeCasts_S4x8192_S4x8192 : S4x8192.ShapeCasts S4x8192
  slices_S4x8192_o0_0_S1x8192 : S4x8192.Slices ![0, 0] S1x8192
  slices_S4x8192_o1_0_S1x8192 : S4x8192.Slices ![1, 0] S1x8192
  slices_S4x8192_o2_0_S1x8192 : S4x8192.Slices ![2, 0] S1x8192
  slices_S4x8192_o3_0_S1x8192 : S4x8192.Slices ![3, 0] S1x8192
  inb_S128x4_S128x4_0_0 : ∀ a, (![0, 0] : Fin 2 → Nat) a + S128x4.size a ≤ S128x4.size a
  h_S128x4 : 0 < S128x4.numel
  shapeCasts_S128x4_S128x4 : S128x4.ShapeCasts S128x4
  slices_S128x4_o0_0_S128x1 : S128x4.Slices ![0, 0] S128x1
  broadcasts_S128x1_S128x8192 : S128x1.Broadcasts S128x8192
  broadcasts_S1x8192_S128x8192 : S1x8192.Broadcasts S128x8192
  slices_S128x4_o0_1_S128x1 : S128x4.Slices ![0, 1] S128x1
  slices_S128x4_o0_2_S128x1 : S128x4.Slices ![0, 2] S128x1
  slices_S128x4_o0_3_S128x1 : S128x4.Slices ![0, 3] S128x1
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1x8192 : S1x1.Broadcasts S1x8192
  inb_S1x1x8192_S1x1x8192_0_0_0 : ∀ a, (![0, 0, 0] : Fin 3 → Nat) a + S1x1x8192.size a ≤ S1x1x8192.size a
  h_S1x1x8192 : 0 < S1x1x8192.numel
  shapeCasts_S1x1x8192_S1x8192 : S1x1x8192.ShapeCasts S1x8192
  shapeCasts_S1x8192_S1x1x8192 : S1x8192.ShapeCasts S1x1x8192
  shapeCasts_S98x1x8192_S802816 : S98x1x8192.ShapeCasts S802816
  slices_S802816_S800000_0 : S802816.Slices ![0] S800000
  shapeCasts_S800000_S800000x1 : S800000.ShapeCasts S800000x1
  bcast_S_S800000x1 : S_.BroadcastsInDim S800000x1 (![] : Fin 0 → Fin S800000x1.rank)
  concatenates_S800000x1_S800000x1_S800000x2_d1 : Shape.Concatenates [S800000x1, S800000x1] S800000x2 1
  slices_S50000x2_S50000x1_0_0 : S50000x2.Slices ![0, 0] S50000x1
  slices_S50000x2_S50000x1_0_1 : S50000x2.Slices ![0, 1] S50000x1
  bcast_S_S50000x1 : S_.BroadcastsInDim S50000x1 (![] : Fin 0 → Fin S50000x1.rank)
  gather_S50000x3_S800000x1_S800000x3_1_0_n_n_0_1_13_wf : GatherDims.WF S50000x3 S800000x1 S800000x3 [1] [0] [] [0] [] 1 ![1, 3]
  dot_S128x128_S128x8192_S128x8192_1_0_0_1_n_n_wf : DotDims.WF S128x128 S128x8192 S128x8192 [1] [0] [0] [1] [] []
  dot_S1x128_S128x8192_S1x8192_1_0_0_1_n_n_wf : DotDims.WF S1x128 S128x8192 S1x8192 [1] [0] [0] [1] [] []
  scatter_S50000x2_S800000x1_S800000x2_1_0_0_1_wf : ScatterDims.WF S50000x2 S800000x1 S800000x2 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x8192.size a ≤ S4x802816.size a
  hwx0_0 : ∀ i : grid0.Coords, EltTy.bits .f32 = 32 ∨ (Rect.block (s := S4x802816) S4x8192.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x4.size a ≤ S128x4.size a
  hwx0_1 : ∀ i : grid0.Coords, EltTy.bits .f32 = 32 ∨ (Rect.block (s := S128x4) S128x4.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x1.size a ≤ S128x1.size a
  hwx0_2 : ∀ i : grid0.Coords, EltTy.bits .f32 = 32 ∨ (Rect.block (s := S128x1) S128x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x1.size a ≤ S128x1.size a
  hwx0_4 : ∀ i : grid0.Coords, EltTy.bits .f32 = 32 ∨ (Rect.block (s := S128x1) S128x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .bf16 = 32 ∨ (Rect.block (s := S128x128) S128x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x1.size a ≤ S128x1.size a
  hwx0_6 : ∀ i : grid0.Coords, EltTy.bits .f32 = 32 ∨ (Rect.block (s := S128x1) S128x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .bf16 = 32 ∨ (Rect.block (s := S1x128) S1x128.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1.size a ≤ S1x1.size a
  hwx0_8 : ∀ i : grid0.Coords, EltTy.bits .f32 = 32 ∨ (Rect.block (s := S1x1) S1x1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x1x8192.size a ≤ S98x1x8192.size a
  hwx0_9 : ∀ i : grid0.Coords, EltTy.bits .f32 = 32 ∨ (Rect.block (s := S98x1x8192) S1x1x8192.size (cc0_transform_9 i) (hinb0_9 i)).WholeWords (EltTy.packing .f32)

variable [Facts₀]

def gather_S50000x3_S800000x1_S800000x3_1_0_n_n_0_1_13 : GatherDims S50000x3 S800000x1 S800000x3 where
  offsetDims := [1]
  collapsedSliceDims := [0]
  operandBatchingDims := []
  startIndicesBatchingDims := []
  startIndexMap := [0]
  indexVectorDim := 1
  sliceSizes := ![1, 3]
  wf := gather_S50000x3_S800000x1_S800000x3_1_0_n_n_0_1_13_wf
def dot_S128x128_S128x8192_S128x8192_1_0_0_1_n_n : DotDims S128x128 S128x8192 S128x8192 where
  lhsContracting := [1]
  rhsContracting := [0]
  lhsNonContracting := [0]
  rhsNonContracting := [1]
  lhsBatch := []
  rhsBatch := []
  wf := dot_S128x128_S128x8192_S128x8192_1_0_0_1_n_n_wf
def dot_S1x128_S128x8192_S1x8192_1_0_0_1_n_n : DotDims S1x128 S128x8192 S1x8192 where
  lhsContracting := [1]
  rhsContracting := [0]
  lhsNonContracting := [0]
  rhsNonContracting := [1]
  lhsBatch := []
  rhsBatch := []
  wf := dot_S1x128_S128x8192_S1x8192_1_0_0_1_n_n_wf
def scatter_S50000x2_S800000x1_S800000x2_1_0_0_1 : ScatterDims S50000x2 S800000x1 S800000x2 where
  updateWindowDims := [1]
  insertedWindowDims := [0]
  scatterDimsToOperandDims := [0]
  indexVectorDim := 1
  wf := scatter_S50000x2_S800000x1_S800000x2_1_0_0_1_wf

abbrev win0_0 : Pipeline.Window sig grid0 :=
  Pipeline.Window.ofSpec (Memref.whole main_v46) S4x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v47) S128x4.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v54) S128x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v49) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v55) S128x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v51) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v56) S128x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v53) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v57) S1x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v58) S1x1x8192.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S50000x2 : Shape := ⟨2, ![50000, 2]⟩
abbrev S50000x1 : Shape := ⟨2, ![50000, 1]⟩
abbrev S_ : Shape := ⟨0, ![]⟩
abbrev S4x128 : Shape := ⟨2, ![4, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S800000 : Shape := ⟨1, ![800000]⟩
abbrev S800000x1 : Shape := ⟨2, ![800000, 1]⟩
abbrev S800000x2 : Shape := ⟨2, ![800000, 2]⟩
abbrev S800000x4 : Shape := ⟨2, ![800000, 4]⟩
abbrev S800000x128 : Shape := ⟨2, ![800000, 128]⟩
abbrev S1x128 : Shape := ⟨2, ![1, 128]⟩
abbrev S1x1 : Shape := ⟨2, ![1, 1]⟩

abbrev nBuf : Space → Nat
  | .hbm => 111
  | .vmem => 0
  | .smem => 0
  | _ => 0

abbrev bufTy : (tb : Table) → Fin (tcTables nBuf tb) → BufTy
  | .hbm, ⟨0, _⟩ => ⟨S50000x2, .f32⟩
  | .hbm, ⟨1, _⟩ => ⟨S50000x1, .f32⟩
  | .hbm, ⟨2, _⟩ => ⟨S_, .f32⟩
  | .hbm, ⟨3, _⟩ => ⟨S4x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x1, .f32⟩
  | .hbm, ⟨10, _⟩ => ⟨S1, .f32⟩
  | .hbm, ⟨11, _⟩ => ⟨S800000, .i32⟩
  | .hbm, ⟨12, _⟩ => ⟨S800000, .i32⟩
  | .hbm, ⟨13, _⟩ => ⟨S50000x1, .f32⟩
  | .hbm, ⟨14, _⟩ => ⟨S50000x1, .f32⟩
  | .hbm, ⟨15, _⟩ => ⟨S50000x2, .f32⟩
  | .hbm, ⟨16, _⟩ => ⟨S50000x2, .f32⟩
  | .hbm, ⟨17, _⟩ => ⟨S50000x2, .f32⟩
  | .hbm, ⟨18, _⟩ => ⟨S_, .i32⟩
  | .hbm, ⟨19, _⟩ => ⟨S800000, .i32⟩
  | .hbm, ⟨20, _⟩ => ⟨S800000, .i1⟩
  | .hbm, ⟨21, _⟩ => ⟨S_, .i32⟩
  | .hbm, ⟨22, _⟩ => ⟨S800000, .i32⟩
  | .hbm, ⟨23, _⟩ => ⟨S800000, .i32⟩
  | .hbm, ⟨24, _⟩ => ⟨S800000, .i32⟩
  | .hbm, ⟨25, _⟩ => ⟨S800000x1, .i32⟩
  | .hbm, ⟨26, _⟩ => ⟨S800000x2, .f32⟩
  | .hbm, ⟨27, _⟩ => ⟨S_, .i32⟩
  | .hbm, ⟨28, _⟩ => ⟨S800000, .i32⟩
  | .hbm, ⟨29, _⟩ => ⟨S800000, .i1⟩
  | .hbm, ⟨30, _⟩ => ⟨S_, .i32⟩
  | .hbm, ⟨31, _⟩ => ⟨S800000, .i32⟩
  | .hbm, ⟨32, _⟩ => ⟨S800000, .i32⟩
  | .hbm, ⟨33, _⟩ => ⟨S800000, .i32⟩
  | .hbm, ⟨34, _⟩ => ⟨S800000x1, .i32⟩
  | .hbm, ⟨35, _⟩ => ⟨S800000x2, .f32⟩
  | .hbm, ⟨36, _⟩ => ⟨S_, .i32⟩
  | .hbm, ⟨37, _⟩ => ⟨S800000, .i32⟩
  | .hbm, ⟨38, _⟩ => ⟨S800000, .i1⟩
  | .hbm, ⟨39, _⟩ => ⟨S_, .i32⟩
  | .hbm, ⟨40, _⟩ => ⟨S800000, .i32⟩
  | .hbm, ⟨41, _⟩ => ⟨S800000, .i32⟩
  | .hbm, ⟨42, _⟩ => ⟨S800000, .i32⟩
  | .hbm, ⟨43, _⟩ => ⟨S800000x1, .i32⟩
  | .hbm, ⟨44, _⟩ => ⟨S800000x1, .f32⟩
  | .hbm, ⟨45, _⟩ => ⟨S_, .i32⟩
  | .hbm, ⟨46, _⟩ => ⟨S800000, .i32⟩
  | .hbm, ⟨47, _⟩ => ⟨S800000, .i1⟩
  | .hbm, ⟨48, _⟩ => ⟨S_, .i32⟩
  | .hbm, ⟨49, _⟩ => ⟨S800000, .i32⟩
  | .hbm, ⟨50, _⟩ => ⟨S800000, .i32⟩
  | .hbm, ⟨51, _⟩ => ⟨S800000, .i32⟩
  | .hbm, ⟨52, _⟩ => ⟨S800000x1, .i32⟩
  | .hbm, ⟨53, _⟩ => ⟨S800000x1, .f32⟩
  | .hbm, ⟨54, _⟩ => ⟨S800000x2, .f32⟩
  | .hbm, ⟨55, _⟩ => ⟨S800000x1, .f32⟩
  | .hbm, ⟨56, _⟩ => ⟨S800000x1, .f32⟩
  | .hbm, ⟨57, _⟩ => ⟨S800000x1, .f32⟩
  | .hbm, ⟨58, _⟩ => ⟨S800000x1, .f32⟩
  | .hbm, ⟨59, _⟩ => ⟨S800000x1, .f32⟩
  | .hbm, ⟨60, _⟩ => ⟨S800000x1, .f32⟩
  | .hbm, ⟨61, _⟩ => ⟨S800000x1, .f32⟩
  | .hbm, ⟨62, _⟩ => ⟨S800000x1, .f32⟩
  | .hbm, ⟨63, _⟩ => ⟨S800000x1, .f32⟩
  | .hbm, ⟨64, _⟩ => ⟨S800000x1, .f32⟩
  | .hbm, ⟨65, _⟩ => ⟨S800000x1, .f32⟩
  | .hbm, ⟨66, _⟩ => ⟨S800000x1, .f32⟩
  | .hbm, ⟨67, _⟩ => ⟨S800000x1, .f32⟩
  | .hbm, ⟨68, _⟩ => ⟨S800000x1, .f32⟩
  | .hbm, ⟨69, _⟩ => ⟨S800000x1, .f32⟩
  | .hbm, ⟨70, _⟩ => ⟨S800000x1, .f32⟩
  | .hbm, ⟨71, _⟩ => ⟨S800000x4, .f32⟩
  | .hbm, ⟨72, _⟩ => ⟨S800000x128, .f32⟩
  | .hbm, ⟨73, _⟩ => ⟨S1x128, .f32⟩
  | .hbm, ⟨74, _⟩ => ⟨S800000x128, .f32⟩
  | .hbm, ⟨75, _⟩ => ⟨S800000x128, .f32⟩
  | .hbm, ⟨76, _⟩ => ⟨S_, .f32⟩
  | .hbm, ⟨77, _⟩ => ⟨S800000x128, .f32⟩
  | .hbm, ⟨78, _⟩ => ⟨S800000x128, .f32⟩
  | .hbm, ⟨79, _⟩ => ⟨S800000x128, .f32⟩
  | .hbm, ⟨80, _⟩ => ⟨S1x128, .f32⟩
  | .hbm, ⟨81, _⟩ => ⟨S800000x128, .f32⟩
  | .hbm, ⟨82, _⟩ => ⟨S800000x128, .f32⟩
  | .hbm, ⟨83, _⟩ => ⟨S_, .f32⟩
  | .hbm, ⟨84, _⟩ => ⟨S800000x128, .f32⟩
  | .hbm, ⟨85, _⟩ => ⟨S800000x128, .f32⟩
  | .hbm, ⟨86, _⟩ => ⟨S800000x128, .f32⟩
  | .hbm, ⟨87, _⟩ => ⟨S1x128, .f32⟩
  | .hbm, ⟨88, _⟩ => ⟨S800000x128, .f32⟩
  | .hbm, ⟨89, _⟩ => ⟨S800000x128, .f32⟩
  | .hbm, ⟨90, _⟩ => ⟨S_, .f32⟩
  | .hbm, ⟨91, _⟩ => ⟨S800000x128, .f32⟩
  | .hbm, ⟨92, _⟩ => ⟨S800000x128, .f32⟩
  | .hbm, ⟨93, _⟩ => ⟨S800000x1, .f32⟩
  | .hbm, ⟨94, _⟩ => ⟨S1x1, .f32⟩
  | .hbm, ⟨95, _⟩ => ⟨S800000x1, .f32⟩
  | .hbm, ⟨96, _⟩ => ⟨S800000x1, .f32⟩
  | .hbm, ⟨97, _⟩ => ⟨S_, .f32⟩
  | .hbm, ⟨98, _⟩ => ⟨S50000x1, .f32⟩
  | .hbm, ⟨99, _⟩ => ⟨S800000x1, .i32⟩
  | .hbm, ⟨100, _⟩ => ⟨S50000x1, .f32⟩
  | .hbm, ⟨101, _⟩ => ⟨S_, .f32⟩
  | .hbm, ⟨102, _⟩ => ⟨S800000x1, .f32⟩
  | .hbm, ⟨103, _⟩ => ⟨S_, .f32⟩
  | .hbm, ⟨104, _⟩ => ⟨S50000x1, .f32⟩
  | .hbm, ⟨105, _⟩ => ⟨S800000x1, .i32⟩
  | .hbm, ⟨106, _⟩ => ⟨S50000x1, .f32⟩
  | .hbm, ⟨107, _⟩ => ⟨S_, .f32⟩
  | .hbm, ⟨108, _⟩ => ⟨S50000x1, .f32⟩
  | .hbm, ⟨109, _⟩ => ⟨S50000x1, .f32⟩
  | .hbm, ⟨110, _⟩ => ⟨S50000x1, .f32⟩
  | _, _ => ⟨S50000x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_c : Ref sig .tc := ⟨.hbm, 18, rfl⟩
abbrev main_v5 : Ref sig .tc := ⟨.hbm, 19, rfl⟩
abbrev main_v6 : Ref sig .tc := ⟨.hbm, 20, rfl⟩
abbrev main_c_0 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_c_1 : Ref sig .tc := ⟨.hbm, 27, rfl⟩
abbrev main_v12 : Ref sig .tc := ⟨.hbm, 28, rfl⟩
abbrev main_v13 : Ref sig .tc := ⟨.hbm, 29, rfl⟩
abbrev main_c_2 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_c_3 : Ref sig .tc := ⟨.hbm, 36, rfl⟩
abbrev main_v19 : Ref sig .tc := ⟨.hbm, 37, rfl⟩
abbrev main_v20 : Ref sig .tc := ⟨.hbm, 38, rfl⟩
abbrev main_c_4 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_c_5 : Ref sig .tc := ⟨.hbm, 45, rfl⟩
abbrev main_v26 : Ref sig .tc := ⟨.hbm, 46, rfl⟩
abbrev main_v27 : Ref sig .tc := ⟨.hbm, 47, rfl⟩
abbrev main_c_6 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_call0_cst : Ref sig .tc := ⟨.hbm, 76, rfl⟩
abbrev main_call0_v0 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_call1_cst : Ref sig .tc := ⟨.hbm, 83, rfl⟩
abbrev main_call1_v0 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_call2_cst : Ref sig .tc := ⟨.hbm, 90, rfl⟩
abbrev main_call2_v0 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_cst : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_cst_7 : Ref sig .tc := ⟨.hbm, 101, rfl⟩
abbrev main_v73 : Ref sig .tc := ⟨.hbm, 102, rfl⟩
abbrev main_cst_8 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_cst_9 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩

abbrev nD : Nat := 1
abbrev τ : Topo := Topo.v7x

variable {F : FTy → Type} [FloatOps F]

class Facts₀ : Prop where
  concatenates_S50000x1_S50000x1_S50000x2_d1 : Shape.Concatenates [S50000x1, S50000x1] S50000x2 1
  bcast_S_S50000x2 : S_.BroadcastsInDim S50000x2 (![] : Fin 0 → Fin S50000x2.rank)
  bcast_S_S800000 : S_.BroadcastsInDim S800000 (![] : Fin 0 → Fin S800000.rank)
  bcast_S800000_S800000x1_0 : S800000.BroadcastsInDim S800000x1 (![0] : Fin 1 → Fin S800000x1.rank)
  slices_S800000x2_S800000x1_0_0 : S800000x2.Slices ![0, 0] S800000x1
  slices_S800000x2_S800000x1_0_1 : S800000x2.Slices ![0, 1] S800000x1
  concatenates_S800000x1_S800000x1_S800000x1_S800000x1_S800000x4_d1 : Shape.Concatenates [S800000x1, S800000x1, S800000x1, S800000x1] S800000x4 1
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  bcast_S_S50000x1 : S_.BroadcastsInDim S50000x1 (![] : Fin 0 → Fin S50000x1.rank)
  bcast_S_S800000x1 : S_.BroadcastsInDim S800000x1 (![] : Fin 0 → Fin S800000x1.rank)
  gather_S50000x2_S800000x1_S800000x2_1_0_n_n_0_1_12_wf : GatherDims.WF S50000x2 S800000x1 S800000x2 [1] [0] [] [0] [] 1 ![1, 2]
  gather_S50000x1_S800000x1_S800000x1_1_0_n_n_0_1_11_wf : GatherDims.WF S50000x1 S800000x1 S800000x1 [1] [0] [] [0] [] 1 ![1, 1]
  dot_S800000x4_S4x128_S800000x128_1_0_0_1_n_n_wf : DotDims.WF S800000x4 S4x128 S800000x128 [1] [0] [0] [1] [] []
  dot_S800000x128_S128x128_S800000x128_1_0_0_1_n_n_wf : DotDims.WF S800000x128 S128x128 S800000x128 [1] [0] [0] [1] [] []
  dot_S800000x128_S128x1_S800000x1_1_0_0_1_n_n_wf : DotDims.WF S800000x128 S128x1 S800000x1 [1] [0] [0] [1] [] []
  scatter_S50000x1_S800000x1_S800000x1_1_0_0_1_wf : ScatterDims.WF S50000x1 S800000x1 S800000x1 [1] [0] [0] 1

variable [Facts₀]

def gather_S50000x2_S800000x1_S800000x2_1_0_n_n_0_1_12 : GatherDims S50000x2 S800000x1 S800000x2 where
  offsetDims := [1]
  collapsedSliceDims := [0]
  operandBatchingDims := []
  startIndicesBatchingDims := []
  startIndexMap := [0]
  indexVectorDim := 1
  sliceSizes := ![1, 2]
  wf := gather_S50000x2_S800000x1_S800000x2_1_0_n_n_0_1_12_wf
def gather_S50000x1_S800000x1_S800000x1_1_0_n_n_0_1_11 : GatherDims S50000x1 S800000x1 S800000x1 where
  offsetDims := [1]
  collapsedSliceDims := [0]
  operandBatchingDims := []
  startIndicesBatchingDims := []
  startIndexMap := [0]
  indexVectorDim := 1
  sliceSizes := ![1, 1]
  wf := gather_S50000x1_S800000x1_S800000x1_1_0_n_n_0_1_11_wf
def dot_S800000x4_S4x128_S800000x128_1_0_0_1_n_n : DotDims S800000x4 S4x128 S800000x128 where
  lhsContracting := [1]
  rhsContracting := [0]
  lhsNonContracting := [0]
  rhsNonContracting := [1]
  lhsBatch := []
  rhsBatch := []
  wf := dot_S800000x4_S4x128_S800000x128_1_0_0_1_n_n_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf
def dot_S800000x128_S128x1_S800000x1_1_0_0_1_n_n : DotDims S800000x128 S128x1 S800000x1 where
  lhsContracting := [1]
  rhsContracting := [0]
  lhsNonContracting := [0]
  rhsNonContracting := [1]
  lhsBatch := []
  rhsBatch := []
  wf := dot_S800000x128_S128x1_S800000x1_1_0_0_1_n_n_wf
def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf

class Facts : Prop extends Facts₀ where

variable [Facts]
-- ==== Proof.KernelLaunched.lean ====
/-
  The launch of the edge network's one region, with the host lines around it: the host lines before the region
  (the node velocities, the gathered endpoint rows, the rotated edge features laid out feature-major and padded to
  98 tiles of 8192 edges, the transposed weights and the bias columns), the region over its 98 tiles, and the host
  lines after it (the scatter-mean). Every tile's body loads its nine input blocks whole, computes, and stores its
  one output row whole; so the output row of tile t is one pure function of the nine input blocks at t
  (rowOf), the arrays handed to the region are the host prefix's results (V), and every weakly fair execution
  terminates with each array of the region at what the tiles wrote back and every other buffer at what the host
  lines after the region leave (run_main). The argument arrays are written by no host line and by no tile: they
  end as they were launched (frame).
-/
import proofs.«181314_j28269474742524_2_alg».proof.Proof.Gen.Kernel.Launch
import proofs.«181314_j28269474742524_2_alg».proof.Proof.Gen.Kernel.Skeleton
import proofs.«181314_j28269474742524_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Launched

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines around the region -/

/-- The buffers' contents when the region is entered: after the three stretches of host lines before it. -/
abbrev V0 (c : Dev nD) : Valuation τ sig (Elt F) :=
  StableHlo.after (List.flatten [hostOps0, hostOps0_1, hostOps0_2]) (fun b => m (c, b))
/-- The same, read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is the host lines before the region, the region, the host lines after it: it reduces to the region
    continued by the later lines, the buffers at the contents the earlier lines leave. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2] [hostOps1]
    (by simp only [List.Forall]; exact ⟨hostOps0_sub, hostOps0_1_sub, hostOps0_2_sub⟩)
    (by simp only [List.Forall]; exact ⟨hostOps0_fresh, hostOps0_1_fresh, hostOps0_2_fresh⟩) main_chain

/-- The lines after the region touch only the region's arrays and buffers the region does not stage. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And each writes only its own result buffer, which is no array of the region. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl | rfl | rfl | rfl | rfl | rfl | rfl | rfl
    all_goals intro w; fin_cases w <;> simp only [StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- No host line before the region writes argument 0. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- Nor does a line after it, and it is no array of the region: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No host line before the region writes argument 1. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- Nor does a line after it, and it is no array of the region: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No host line before the region writes argument 2. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- Nor does a line after it, and it is no array of the region: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- No host line before the region writes argument 3. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append,
      List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- Nor does a line after it, and it is no array of the region: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- No host line before the region writes argument 4. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, List.flatten_cons, List.flatten_nil, List.append_nil, List.cons_append,
      List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- Nor does a line after it, and it is no array of the region: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-- No host line before the region writes argument 5. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, List.flatten_cons, List.flatten_nil, List.append_nil, List.cons_append,
      List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- Nor does a line after it, and it is no array of the region: it ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

/-- No host line before the region writes argument 6. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, List.flatten_cons, List.flatten_nil, List.append_nil, List.cons_append,
      List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- Nor does a line after it, and it is no array of the region: it ends as launched. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c

/-- No host line before the region writes argument 7. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, List.flatten_cons, List.flatten_nil, List.append_nil, List.cons_append,
      List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- Nor does a line after it, and it is no array of the region: it ends as launched. -/
theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append,
        List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c

/-- No host line before the region writes argument 8. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, List.flatten_cons, List.flatten_nil, List.append_nil, List.cons_append,
      List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- Nor does a line after it, and it is no array of the region: it ends as launched. -/
theorem W_main_arg8 (dats : (p : Fin _) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append,
        List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg8 (by exact (by decide : ∀ w, Pipeline.arrRef spec0 w ≠ main_arg8))]
  exact V_main_arg8 m c

/-- No host line before the region writes argument 9. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps0_1, hostOps0_2, List.flatten_cons, List.flatten_nil, List.append_nil, List.cons_append,
      List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- Nor does a line after it, and it is no array of the region: it ends as launched. -/
theorem W_main_arg9 (dats : (p : Fin _) → (c : Dev nD) → Dat τ (Elt F) Unit ℕ (UR sig nD τ) ℕ (cfgs p) c) (c : Dev nD) :
    Pipeline.afterTail₀ cfgs dats 0 (V0 m) [hostOps1] c main_arg9 = m ((c : Thread nD τ).loc main_arg9) := by
  unfold Pipeline.afterTail₀
  rw [StableHlo.after_of_forall_not_mem (b := Proc.devRef .tc main_arg9) _ _ (List.forall_iff_forall_mem.mp (by
      simp only [hostOps1, List.flatten_cons, List.flatten_nil, List.append_nil, List.cons_append,
        List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg9 (by exact (by decide : ∀ w, Pipeline.arrRef spec0 w ≠ main_arg9))]
  exact V_main_arg9 m c

/-- No host line before the region writes argument 10. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, hostOps0_1, hostOps0_2, List.flatten_cons, List.flatten_nil, List.append_nil, List.cons_append,
      List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- Nor does a line after it, and it is no array of the region: it ends as launched. -/
theorem W_main_arg10 (dats : (p : Fin _) → (c : Dev nD) → Dat τ (Elt F) Unit ℕ (UR sig nD τ) ℕ (cfgs p) c) (c : Dev nD) :
    Pipeline.afterTail₀ cfgs dats 0 (V0 m) [hostOps1] c main_arg10 = m ((c : Thread nD τ).loc main_arg10) := by
  unfold Pipeline.afterTail₀
  rw [StableHlo.after_of_forall_not_mem (b := Proc.devRef .tc main_arg10) _ _ (List.forall_iff_forall_mem.mp (by
      simp only [hostOps1, List.flatten_cons, List.flatten_nil, List.append_nil, List.cons_append,
        List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg10 (by exact (by decide : ∀ w, Pipeline.arrRef spec0 w ≠ main_arg10))]
  exact V_main_arg10 m c

/-- No host line before the region writes argument 11. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, hostOps0_1, hostOps0_2, List.flatten_cons, List.flatten_nil, List.append_nil, List.cons_append,
      List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- Nor does a line after it, and it is no array of the region: it ends as launched. -/
theorem W_main_arg11 (dats : (p : Fin _) → (c : Dev nD) → Dat τ (Elt F) Unit ℕ (UR sig nD τ) ℕ (cfgs p) c) (c : Dev nD) :
    Pipeline.afterTail₀ cfgs dats 0 (V0 m) [hostOps1] c main_arg11 = m ((c : Thread nD τ).loc main_arg11) := by
  unfold Pipeline.afterTail₀
  rw [StableHlo.after_of_forall_not_mem (b := Proc.devRef .tc main_arg11) _ _ (List.forall_iff_forall_mem.mp (by
      simp only [hostOps1, List.flatten_cons, List.flatten_nil, List.append_nil, List.cons_append,
        List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg11 (by exact (by decide : ∀ w, Pipeline.arrRef spec0 w ≠ main_arg11))]
  exact V_main_arg11 m c

/-- No host line before the region writes argument 12. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, hostOps0_1, hostOps0_2, List.flatten_cons, List.flatten_nil, List.append_nil, List.cons_append,
      List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- Nor does a line after it, and it is no array of the region: it ends as launched. -/
theorem W_main_arg12 (dats : (p : Fin _) → (c : Dev nD) → Dat τ (Elt F) Unit ℕ (UR sig nD τ) ℕ (cfgs p) c) (c : Dev nD) :
    Pipeline.afterTail₀ cfgs dats 0 (V0 m) [hostOps1] c main_arg12 = m ((c : Thread nD τ).loc main_arg12) := by
  unfold Pipeline.afterTail₀
  rw [StableHlo.after_of_forall_not_mem (b := Proc.devRef .tc main_arg12) _ _ (List.forall_iff_forall_mem.mp (by
      simp only [hostOps1, List.flatten_cons, List.flatten_nil, List.append_nil, List.cons_append,
        List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg12 (by exact (by decide : ∀ w, Pipeline.arrRef spec0 w ≠ main_arg12))]
  exact V_main_arg12 m c

/-! ## The windows' blocks -/

/-- Window w's block at tile t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every tile, fetched there or not. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every tile, fetched there or not. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every tile, fetched there or not. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every tile, fetched there or not. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every tile, fetched there or not. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every tile, fetched there or not. -/
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6's current staging buffer holds its block at every tile, fetched there or not. -/
theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- Input window 7's current staging buffer holds its block at every tile, fetched there or not. -/
theorem before7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-- Input window 8's current staging buffer holds its block at every tile, fetched there or not. -/
theorem before8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-! ## The frame's post from the run's -/

/-- From a run whose post has every array of the region at what the tiles wrote back and every other unscoped buffer
    at what the later host lines leave, the thirteen argument arrays end as launched. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)
      ∧       r.2.mem ((c.tc : Thread nD τ).loc main_arg8) = m ((c.tc : Thread nD τ).loc main_arg8)
      ∧       r.2.mem ((c.tc : Thread nD τ).loc main_arg9) = m ((c.tc : Thread nD τ).loc main_arg9)
      ∧       r.2.mem ((c.tc : Thread nD τ).loc main_arg10) = m ((c.tc : Thread nD τ).loc main_arg10)
      ∧       r.2.mem ((c.tc : Thread nD τ).loc main_arg11) = m ((c.tc : Thread nD τ).loc main_arg11)
      ∧       r.2.mem ((c.tc : Thread nD τ).loc main_arg12) = m ((c.tc : Thread nD τ).loc main_arg12)) :=
  (θ_run defs _ _).mono (fun _ h c => ⟨((h c).2 main_arg0 (Pipeline.mem_restRefs_of main_arg0 (by decide) (by decide))).trans (W_main_arg0 m dats c),
    ((h c).2 main_arg1 (Pipeline.mem_restRefs_of main_arg1 (by decide) (by decide))).trans (W_main_arg1 m dats c),
    ((h c).2 main_arg2 (Pipeline.mem_restRefs_of main_arg2 (by decide) (by decide))).trans (W_main_arg2 m dats c),
    ((h c).2 main_arg3 (Pipeline.mem_restRefs_of main_arg3 (by decide) (by decide))).trans (W_main_arg3 m dats c),
    ((h c).2 main_arg4 (Pipeline.mem_restRefs_of main_arg4 (by decide) (by decide))).trans (W_main_arg4 m dats c),
    ((h c).2 main_arg5 (Pipeline.mem_restRefs_of main_arg5 (by decide) (by decide))).trans (W_main_arg5 m dats c),
    ((h c).2 main_arg6 (Pipeline.mem_restRefs_of main_arg6 (by decide) (by decide))).trans (W_main_arg6 m dats c),
    ((h c).2 main_arg7 (Pipeline.mem_restRefs_of main_arg7 (by decide) (by decide))).trans (W_main_arg7 m dats c),
    ((h c).2 main_arg8 (Pipeline.mem_restRefs_of main_arg8 (by decide) (by decide))).trans (W_main_arg8 m dats c),
    ((h c).2 main_arg9 (Pipeline.mem_restRefs_of main_arg9 (by decide) (by decide))).trans (W_main_arg9 m dats c),
    ((h c).2 main_arg10 (Pipeline.mem_restRefs_of main_arg10 (by decide) (by decide))).trans (W_main_arg10 m dats c),
    ((h c).2 main_arg11 (Pipeline.mem_restRefs_of main_arg11 (by decide) (by decide))).trans (W_main_arg11 m dats c),
    ((h c).2 main_arg12 (Pipeline.mem_restRefs_of main_arg12 (by decide) (by decide))).trans (W_main_arg12 m dats c)⟩) h

/-! ## The body's accesses: every load and the one store take the whole buffer -/

abbrev rF : Rect S4x8192 := Rect.unit (s := S4x8192) ![0, 0] S4x8192.size inb_S4x8192_S4x8192_0_0
abbrev rW0 : Rect S128x4 := Rect.unit (s := S128x4) ![0, 0] S128x4.size inb_S128x4_S128x4_0_0
abbrev rB : Rect S128x1 := Rect.unit (s := S128x1) ![0, 0] S128x1.size inb_S128x1_S128x1_0_0
abbrev rW : Rect S128x128 := Rect.unit (s := S128x128) ![0, 0] S128x128.size inb_S128x128_S128x128_0_0
abbrev rW3 : Rect S1x128 := Rect.unit (s := S1x128) ![0, 0] S1x128.size inb_S1x128_S1x128_0_0
abbrev rB3 : Rect S1x1 := Rect.unit (s := S1x1) ![0, 0] S1x1.size inb_S1x1_S1x1_0_0
abbrev rO : Rect S1x1x8192 := Rect.unit (s := S1x1x8192) ![0, 0, 0] S1x1x8192.size inb_S1x1x8192_S1x1x8192_0_0_0

/-- The output row a tile leaves, from its nine input blocks: the four layers over the loaded blocks, stored whole. -/
def rowOf (x0 : Vec F S4x8192 .f32) (x1 : Vec F S128x4 .f32) (x2 : Vec F S128x1 .f32) (x3 : Vec F S128x128 .bf16) (x4 : Vec F S128x1 .f32)
    (x5 : Vec F S128x128 .bf16) (x6 : Vec F S128x1 .f32) (x7 : Vec F S1x128 .bf16) (x8 : Vec F S1x1 .f32) : Vec F S1x1x8192 .f32 :=
  View.canon [⟨rO, k0_pay1 (k0_pay2 (View.ld x0 rF) (View.ld x1 rW0) (View.ld x2 rB) (View.ld x3 rW) (View.ld x4 rB))
    (View.ld x5 rW) (View.ld x6 rB) (View.ld x7 rW3) (View.ld x8 rB3)⟩]

/-- The one store covers the output buffer. -/
theorem cover_row (p0 : Vec F S1x1x8192 .f32) (y : S1x1x8192.Idx) :
    ∃ pc ∈ ([⟨rO, p0⟩] : List (View.Piece (Elt F) S1x1x8192 .f32)), y ∈ pc.1.set :=
  View.cover_of_tiled [⟨rO, p0⟩] S1x1x8192.size (by rfl) y

/-! ## The body's triple -/

set_option maxHeartbeats 4000000 in
/-- The body on whole staging buffers, the inputs' at contents x0 … x8 and the output's at anything, runs to its
    end holding the inputs' as they were and the output's at rowOf of them. -/
theorem sound_kernel (c : Dev nD) (E : Set ℕ) (i : grid0.Coords)
    (arg1 : Memref sig .tc .vmem S4x8192 .f32) (harg1 : arg1.IsWhole)
    (arg2 : Memref sig .tc .vmem S128x4 .f32) (harg2 : arg2.IsWhole)
    (arg3 : Memref sig .tc .vmem S128x1 .f32) (harg3 : arg3.IsWhole)
    (arg4 : Memref sig .tc .vmem S128x128 .bf16) (harg4 : arg4.IsWhole)
    (arg5 : Memref sig .tc .vmem S128x1 .f32) (harg5 : arg5.IsWhole)
    (arg6 : Memref sig .tc .vmem S128x128 .bf16) (harg6 : arg6.IsWhole)
    (arg7 : Memref sig .tc .vmem S128x1 .f32) (harg7 : arg7.IsWhole)
    (arg8 : Memref sig .tc .vmem S1x128 .bf16) (harg8 : arg8.IsWhole)
    (arg9 : Memref sig .tc .vmem S1x1 .f32) (harg9 : arg9.IsWhole)
    (arg10 : Memref sig .tc .vmem S1x1x8192 .f32) (harg10 : arg10.IsWhole)
    (x0 : Vec F S4x8192 .f32)
    (x1 : Vec F S128x4 .f32)
    (x2 : Vec F S128x1 .f32)
    (x3 : Vec F S128x128 .bf16)
    (x4 : Vec F S128x1 .f32)
    (x5 : Vec F S128x128 .bf16)
    (x6 : Vec F S128x1 .f32)
    (x7 : Vec F S1x128 .bf16)
    (x8 : Vec F S1x1 .f32)
    (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (rowOf x0 x1 x2 x3 x4 x5 x6 x7 x8)) -∗ K ⟨⟩))
      ⊢ wp frame (wpE (defs₀ (F := F)) Variants.none c none) E (cc0__edge_mlp_kernel i arg1 harg1 arg2 harg2 arg3 harg3 arg4 harg4 arg5 harg5 arg6 harg6 arg7 harg7 arg8 harg8 arg9 harg9 arg10 harg10) K := by
  simp only [cc0__edge_mlp_kernel_eq_skeleton]; unfold cc0__edge_mlp_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0
  subst hf1
  subst hf2
  subst hf3
  subst hf4
  subst hf5
  subst hf6
  subst hf7
  subst hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover_row _)

/-! ## The region's proof data -/

/-- On core c: the arrays as the region finds them; after the body at tile t each input's buffer at its block and the
    output's at rowOf of the input blocks; nothing else held, nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => rowOf (iblk m c 0 t) (iblk m c 1 t) (iblk m c 2 t) (iblk m c 3 t) (iblk m c 4 t) (iblk m c 5 t) (iblk m c 6 t) (iblk m c 7 t) (iblk m c 8 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = rowOf (iblk m c 0 t) (iblk m c 1 t) (iblk m c 2 t) (iblk m c 3 t) (iblk m c 4 t) (iblk m c 5 t) (iblk m c 6 t) (iblk m c 7 t) (iblk m c 8 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d
theorem before6 (c : Dev nD) (t : Fin cfg0.N) (d) : (dats m 0 c).before 6 t d = iblk m c 6 t :=
  before6_of m (dats m 0 c) (A_eq m c 6) (after6 m c) t d
theorem before7 (c : Dev nD) (t : Fin cfg0.N) (d) : (dats m 0 c).before 7 t d = iblk m c 7 t :=
  before7_of m (dats m 0 c) (A_eq m c 7) (after7 m c) t d
theorem before8 (c : Dev nD) (t : Fin cfg0.N) (d) : (dats m 0 c).before 8 t d = iblk m c 8 t :=
  before8_of m (dats m 0 c) (A_eq m c 8) (after8 m c) t d

/-! ## The body obligation, at a generic tile -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

set_option maxHeartbeats 2000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c Set.univ (grid0.coords t) _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program terminates, and every final state has every array of the region at what
    the tiles wrote back and every other unscoped buffer as the host lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The program runs to its end, faults nowhere, and leaves its thirteen argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)
      ∧       r.2.mem ((c.tc : Thread nD τ).loc main_arg8) = m ((c.tc : Thread nD τ).loc main_arg8)
      ∧       r.2.mem ((c.tc : Thread nD τ).loc main_arg9) = m ((c.tc : Thread nD τ).loc main_arg9)
      ∧       r.2.mem ((c.tc : Thread nD τ).loc main_arg10) = m ((c.tc : Thread nD τ).loc main_arg10)
      ∧       r.2.mem ((c.tc : Thread nD τ).loc main_arg11) = m ((c.tc : Thread nD τ).loc main_arg11)
      ∧       r.2.mem ((c.tc : Thread nD τ).loc main_arg12) = m ((c.tc : Thread nD τ).loc main_arg12)) :=
  frame_of m ρ (dats m) (run_main m ρ)

end Cert.Kernel.Launched

end
-- ==== Proof.KernelIdealLaunched.lean ====
/-
  The launch of the edge network's one region, with the host lines around it: the host lines before the region
  (the node velocities, the gathered endpoint rows, the rotated edge features laid out feature-major and padded to
  98 tiles of 8192 edges, the transposed weights and the bias columns), the region over its 98 tiles, and the host
  lines after it (the scatter-mean). Every tile's body loads its nine input blocks whole, computes, and stores its
  one output row whole; so the output row of tile t is one pure function of the nine input blocks at t
  (rowOf), the arrays handed to the region are the host prefix's results (V), and every weakly fair execution
  terminates with each array of the region at what the tiles wrote back and every other buffer at what the host
  lines after the region leave (run_main). The argument arrays are written by no host line and by no tile: they
  end as they were launched (frame).
-/
import proofs.«181314_j28269474742524_2_alg».proof.Proof.Gen.KernelIdeal.Launch
import proofs.«181314_j28269474742524_2_alg».proof.Proof.Gen.KernelIdeal.Skeleton
import proofs.«181314_j28269474742524_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Launched

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines around the region -/

/-- The buffers' contents when the region is entered: after the three stretches of host lines before it. -/
abbrev V0 (c : Dev nD) : Valuation τ sig (Elt F) :=
  StableHlo.after (List.flatten [hostOps0, hostOps0_1, hostOps0_2]) (fun b => m (c, b))
/-- The same, read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is the host lines before the region, the region, the host lines after it: it reduces to the region
    continued by the later lines, the buffers at the contents the earlier lines leave. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2] [hostOps1]
    (by simp only [List.Forall]; exact ⟨hostOps0_sub, hostOps0_1_sub, hostOps0_2_sub⟩)
    (by simp only [List.Forall]; exact ⟨hostOps0_fresh, hostOps0_1_fresh, hostOps0_2_fresh⟩) main_chain

/-- The lines after the region touch only the region's arrays and buffers the region does not stage. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And each writes only its own result buffer, which is no array of the region. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl | rfl | rfl | rfl | rfl | rfl | rfl | rfl
    all_goals intro w; fin_cases w <;> simp only [StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- No host line before the region writes argument 0. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- Nor does a line after it, and it is no array of the region: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No host line before the region writes argument 1. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- Nor does a line after it, and it is no array of the region: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No host line before the region writes argument 2. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- Nor does a line after it, and it is no array of the region: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- No host line before the region writes argument 3. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append,
      List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- Nor does a line after it, and it is no array of the region: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- No host line before the region writes argument 4. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, List.flatten_cons, List.flatten_nil, List.append_nil, List.cons_append,
      List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- Nor does a line after it, and it is no array of the region: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-- No host line before the region writes argument 5. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, List.flatten_cons, List.flatten_nil, List.append_nil, List.cons_append,
      List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- Nor does a line after it, and it is no array of the region: it ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

/-- No host line before the region writes argument 6. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, List.flatten_cons, List.flatten_nil, List.append_nil, List.cons_append,
      List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- Nor does a line after it, and it is no array of the region: it ends as launched. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c

/-- No host line before the region writes argument 7. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, List.flatten_cons, List.flatten_nil, List.append_nil, List.cons_append,
      List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- Nor does a line after it, and it is no array of the region: it ends as launched. -/
theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append,
        List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c

/-- No host line before the region writes argument 8. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, List.flatten_cons, List.flatten_nil, List.append_nil, List.cons_append,
      List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- Nor does a line after it, and it is no array of the region: it ends as launched. -/
theorem W_main_arg8 (dats : (p : Fin _) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append,
        List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg8 (by exact (by decide : ∀ w, Pipeline.arrRef spec0 w ≠ main_arg8))]
  exact V_main_arg8 m c

/-- No host line before the region writes argument 9. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps0_1, hostOps0_2, List.flatten_cons, List.flatten_nil, List.append_nil, List.cons_append,
      List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- Nor does a line after it, and it is no array of the region: it ends as launched. -/
theorem W_main_arg9 (dats : (p : Fin _) → (c : Dev nD) → Dat τ (Elt F) Unit ℕ (UR sig nD τ) ℕ (cfgs p) c) (c : Dev nD) :
    Pipeline.afterTail₀ cfgs dats 0 (V0 m) [hostOps1] c main_arg9 = m ((c : Thread nD τ).loc main_arg9) := by
  unfold Pipeline.afterTail₀
  rw [StableHlo.after_of_forall_not_mem (b := Proc.devRef .tc main_arg9) _ _ (List.forall_iff_forall_mem.mp (by
      simp only [hostOps1, List.flatten_cons, List.flatten_nil, List.append_nil, List.cons_append,
        List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg9 (by exact (by decide : ∀ w, Pipeline.arrRef spec0 w ≠ main_arg9))]
  exact V_main_arg9 m c

/-- No host line before the region writes argument 10. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, hostOps0_1, hostOps0_2, List.flatten_cons, List.flatten_nil, List.append_nil, List.cons_append,
      List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- Nor does a line after it, and it is no array of the region: it ends as launched. -/
theorem W_main_arg10 (dats : (p : Fin _) → (c : Dev nD) → Dat τ (Elt F) Unit ℕ (UR sig nD τ) ℕ (cfgs p) c) (c : Dev nD) :
    Pipeline.afterTail₀ cfgs dats 0 (V0 m) [hostOps1] c main_arg10 = m ((c : Thread nD τ).loc main_arg10) := by
  unfold Pipeline.afterTail₀
  rw [StableHlo.after_of_forall_not_mem (b := Proc.devRef .tc main_arg10) _ _ (List.forall_iff_forall_mem.mp (by
      simp only [hostOps1, List.flatten_cons, List.flatten_nil, List.append_nil, List.cons_append,
        List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg10 (by exact (by decide : ∀ w, Pipeline.arrRef spec0 w ≠ main_arg10))]
  exact V_main_arg10 m c

/-- No host line before the region writes argument 11. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, hostOps0_1, hostOps0_2, List.flatten_cons, List.flatten_nil, List.append_nil, List.cons_append,
      List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- Nor does a line after it, and it is no array of the region: it ends as launched. -/
theorem W_main_arg11 (dats : (p : Fin _) → (c : Dev nD) → Dat τ (Elt F) Unit ℕ (UR sig nD τ) ℕ (cfgs p) c) (c : Dev nD) :
    Pipeline.afterTail₀ cfgs dats 0 (V0 m) [hostOps1] c main_arg11 = m ((c : Thread nD τ).loc main_arg11) := by
  unfold Pipeline.afterTail₀
  rw [StableHlo.after_of_forall_not_mem (b := Proc.devRef .tc main_arg11) _ _ (List.forall_iff_forall_mem.mp (by
      simp only [hostOps1, List.flatten_cons, List.flatten_nil, List.append_nil, List.cons_append,
        List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg11 (by exact (by decide : ∀ w, Pipeline.arrRef spec0 w ≠ main_arg11))]
  exact V_main_arg11 m c

/-- No host line before the region writes argument 12. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, hostOps0_1, hostOps0_2, List.flatten_cons, List.flatten_nil, List.append_nil, List.cons_append,
      List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- Nor does a line after it, and it is no array of the region: it ends as launched. -/
theorem W_main_arg12 (dats : (p : Fin _) → (c : Dev nD) → Dat τ (Elt F) Unit ℕ (UR sig nD τ) ℕ (cfgs p) c) (c : Dev nD) :
    Pipeline.afterTail₀ cfgs dats 0 (V0 m) [hostOps1] c main_arg12 = m ((c : Thread nD τ).loc main_arg12) := by
  unfold Pipeline.afterTail₀
  rw [StableHlo.after_of_forall_not_mem (b := Proc.devRef .tc main_arg12) _ _ (List.forall_iff_forall_mem.mp (by
      simp only [hostOps1, List.flatten_cons, List.flatten_nil, List.append_nil, List.cons_append,
        List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg12 (by exact (by decide : ∀ w, Pipeline.arrRef spec0 w ≠ main_arg12))]
  exact V_main_arg12 m c

/-! ## The windows' blocks -/

/-- Window w's block at tile t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every tile, fetched there or not. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every tile, fetched there or not. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every tile, fetched there or not. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every tile, fetched there or not. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every tile, fetched there or not. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every tile, fetched there or not. -/
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6's current staging buffer holds its block at every tile, fetched there or not. -/
theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- Input window 7's current staging buffer holds its block at every tile, fetched there or not. -/
theorem before7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-- Input window 8's current staging buffer holds its block at every tile, fetched there or not. -/
theorem before8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-! ## The frame's post from the run's -/

/-- From a run whose post has every array of the region at what the tiles wrote back and every other unscoped buffer
    at what the later host lines leave, the thirteen argument arrays end as launched. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)
      ∧       r.2.mem ((c.tc : Thread nD τ).loc main_arg8) = m ((c.tc : Thread nD τ).loc main_arg8)
      ∧       r.2.mem ((c.tc : Thread nD τ).loc main_arg9) = m ((c.tc : Thread nD τ).loc main_arg9)
      ∧       r.2.mem ((c.tc : Thread nD τ).loc main_arg10) = m ((c.tc : Thread nD τ).loc main_arg10)
      ∧       r.2.mem ((c.tc : Thread nD τ).loc main_arg11) = m ((c.tc : Thread nD τ).loc main_arg11)
      ∧       r.2.mem ((c.tc : Thread nD τ).loc main_arg12) = m ((c.tc : Thread nD τ).loc main_arg12)) :=
  (θ_run defs _ _).mono (fun _ h c => ⟨((h c).2 main_arg0 (Pipeline.mem_restRefs_of main_arg0 (by decide) (by decide))).trans (W_main_arg0 m dats c),
    ((h c).2 main_arg1 (Pipeline.mem_restRefs_of main_arg1 (by decide) (by decide))).trans (W_main_arg1 m dats c),
    ((h c).2 main_arg2 (Pipeline.mem_restRefs_of main_arg2 (by decide) (by decide))).trans (W_main_arg2 m dats c),
    ((h c).2 main_arg3 (Pipeline.mem_restRefs_of main_arg3 (by decide) (by decide))).trans (W_main_arg3 m dats c),
    ((h c).2 main_arg4 (Pipeline.mem_restRefs_of main_arg4 (by decide) (by decide))).trans (W_main_arg4 m dats c),
    ((h c).2 main_arg5 (Pipeline.mem_restRefs_of main_arg5 (by decide) (by decide))).trans (W_main_arg5 m dats c),
    ((h c).2 main_arg6 (Pipeline.mem_restRefs_of main_arg6 (by decide) (by decide))).trans (W_main_arg6 m dats c),
    ((h c).2 main_arg7 (Pipeline.mem_restRefs_of main_arg7 (by decide) (by decide))).trans (W_main_arg7 m dats c),
    ((h c).2 main_arg8 (Pipeline.mem_restRefs_of main_arg8 (by decide) (by decide))).trans (W_main_arg8 m dats c),
    ((h c).2 main_arg9 (Pipeline.mem_restRefs_of main_arg9 (by decide) (by decide))).trans (W_main_arg9 m dats c),
    ((h c).2 main_arg10 (Pipeline.mem_restRefs_of main_arg10 (by decide) (by decide))).trans (W_main_arg10 m dats c),
    ((h c).2 main_arg11 (Pipeline.mem_restRefs_of main_arg11 (by decide) (by decide))).trans (W_main_arg11 m dats c),
    ((h c).2 main_arg12 (Pipeline.mem_restRefs_of main_arg12 (by decide) (by decide))).trans (W_main_arg12 m dats c)⟩) h

/-! ## The body's accesses: every load and the one store take the whole buffer -/

abbrev rF : Rect S4x8192 := Rect.unit (s := S4x8192) ![0, 0] S4x8192.size inb_S4x8192_S4x8192_0_0
abbrev rW0 : Rect S128x4 := Rect.unit (s := S128x4) ![0, 0] S128x4.size inb_S128x4_S128x4_0_0
abbrev rB : Rect S128x1 := Rect.unit (s := S128x1) ![0, 0] S128x1.size inb_S128x1_S128x1_0_0
abbrev rW : Rect S128x128 := Rect.unit (s := S128x128) ![0, 0] S128x128.size inb_S128x128_S128x128_0_0
abbrev rW3 : Rect S1x128 := Rect.unit (s := S1x128) ![0, 0] S1x128.size inb_S1x128_S1x128_0_0
abbrev rB3 : Rect S1x1 := Rect.unit (s := S1x1) ![0, 0] S1x1.size inb_S1x1_S1x1_0_0
abbrev rO : Rect S1x1x8192 := Rect.unit (s := S1x1x8192) ![0, 0, 0] S1x1x8192.size inb_S1x1x8192_S1x1x8192_0_0_0

/-- The output row a tile leaves, from its nine input blocks: the four layers over the loaded blocks, stored whole. -/
def rowOf (x0 : Vec F S4x8192 .f32) (x1 : Vec F S128x4 .f32) (x2 : Vec F S128x1 .f32) (x3 : Vec F S128x128 .bf16) (x4 : Vec F S128x1 .f32)
    (x5 : Vec F S128x128 .bf16) (x6 : Vec F S128x1 .f32) (x7 : Vec F S1x128 .bf16) (x8 : Vec F S1x1 .f32) : Vec F S1x1x8192 .f32 :=
  View.canon [⟨rO, k0_pay1 (k0_pay2 (View.ld x0 rF) (View.ld x1 rW0) (View.ld x2 rB) (View.ld x3 rW) (View.ld x4 rB))
    (View.ld x5 rW) (View.ld x6 rB) (View.ld x7 rW3) (View.ld x8 rB3)⟩]

/-- The one store covers the output buffer. -/
theorem cover_row (p0 : Vec F S1x1x8192 .f32) (y : S1x1x8192.Idx) :
    ∃ pc ∈ ([⟨rO, p0⟩] : List (View.Piece (Elt F) S1x1x8192 .f32)), y ∈ pc.1.set :=
  View.cover_of_tiled [⟨rO, p0⟩] S1x1x8192.size (by rfl) y

/-! ## The body's triple -/

set_option maxHeartbeats 4000000 in
/-- The body on whole staging buffers, the inputs' at contents x0 … x8 and the output's at anything, runs to its
    end holding the inputs' as they were and the output's at rowOf of them. -/
theorem sound_kernel (c : Dev nD) (E : Set ℕ) (i : grid0.Coords)
    (arg1 : Memref sig .tc .vmem S4x8192 .f32) (harg1 : arg1.IsWhole)
    (arg2 : Memref sig .tc .vmem S128x4 .f32) (harg2 : arg2.IsWhole)
    (arg3 : Memref sig .tc .vmem S128x1 .f32) (harg3 : arg3.IsWhole)
    (arg4 : Memref sig .tc .vmem S128x128 .bf16) (harg4 : arg4.IsWhole)
    (arg5 : Memref sig .tc .vmem S128x1 .f32) (harg5 : arg5.IsWhole)
    (arg6 : Memref sig .tc .vmem S128x128 .bf16) (harg6 : arg6.IsWhole)
    (arg7 : Memref sig .tc .vmem S128x1 .f32) (harg7 : arg7.IsWhole)
    (arg8 : Memref sig .tc .vmem S1x128 .bf16) (harg8 : arg8.IsWhole)
    (arg9 : Memref sig .tc .vmem S1x1 .f32) (harg9 : arg9.IsWhole)
    (arg10 : Memref sig .tc .vmem S1x1x8192 .f32) (harg10 : arg10.IsWhole)
    (x0 : Vec F S4x8192 .f32)
    (x1 : Vec F S128x4 .f32)
    (x2 : Vec F S128x1 .f32)
    (x3 : Vec F S128x128 .bf16)
    (x4 : Vec F S128x1 .f32)
    (x5 : Vec F S128x128 .bf16)
    (x6 : Vec F S128x1 .f32)
    (x7 : Vec F S1x128 .bf16)
    (x8 : Vec F S1x1 .f32)
    (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (rowOf x0 x1 x2 x3 x4 x5 x6 x7 x8)) -∗ K ⟨⟩))
      ⊢ wp frame (wpE (defs₀ (F := F)) Variants.none c none) E (cc0__edge_mlp_kernel i arg1 harg1 arg2 harg2 arg3 harg3 arg4 harg4 arg5 harg5 arg6 harg6 arg7 harg7 arg8 harg8 arg9 harg9 arg10 harg10) K := by
  simp only [cc0__edge_mlp_kernel_eq_skeleton]; unfold cc0__edge_mlp_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0
  subst hf1
  subst hf2
  subst hf3
  subst hf4
  subst hf5
  subst hf6
  subst hf7
  subst hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover_row _)

/-! ## The region's proof data -/

/-- On core c: the arrays as the region finds them; after the body at tile t each input's buffer at its block and the
    output's at rowOf of the input blocks; nothing else held, nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => rowOf (iblk m c 0 t) (iblk m c 1 t) (iblk m c 2 t) (iblk m c 3 t) (iblk m c 4 t) (iblk m c 5 t) (iblk m c 6 t) (iblk m c 7 t) (iblk m c 8 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = rowOf (iblk m c 0 t) (iblk m c 1 t) (iblk m c 2 t) (iblk m c 3 t) (iblk m c 4 t) (iblk m c 5 t) (iblk m c 6 t) (iblk m c 7 t) (iblk m c 8 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d
theorem before6 (c : Dev nD) (t : Fin cfg0.N) (d) : (dats m 0 c).before 6 t d = iblk m c 6 t :=
  before6_of m (dats m 0 c) (A_eq m c 6) (after6 m c) t d
theorem before7 (c : Dev nD) (t : Fin cfg0.N) (d) : (dats m 0 c).before 7 t d = iblk m c 7 t :=
  before7_of m (dats m 0 c) (A_eq m c 7) (after7 m c) t d
theorem before8 (c : Dev nD) (t : Fin cfg0.N) (d) : (dats m 0 c).before 8 t d = iblk m c 8 t :=
  before8_of m (dats m 0 c) (A_eq m c 8) (after8 m c) t d

/-! ## The body obligation, at a generic tile -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

set_option maxHeartbeats 2000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c Set.univ (grid0.coords t) _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program terminates, and every final state has every array of the region at what
    the tiles wrote back and every other unscoped buffer as the host lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The program runs to its end, faults nowhere, and leaves its thirteen argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)
      ∧       r.2.mem ((c.tc : Thread nD τ).loc main_arg8) = m ((c.tc : Thread nD τ).loc main_arg8)
      ∧       r.2.mem ((c.tc : Thread nD τ).loc main_arg9) = m ((c.tc : Thread nD τ).loc main_arg9)
      ∧       r.2.mem ((c.tc : Thread nD τ).loc main_arg10) = m ((c.tc : Thread nD τ).loc main_arg10)
      ∧       r.2.mem ((c.tc : Thread nD τ).loc main_arg11) = m ((c.tc : Thread nD τ).loc main_arg11)
      ∧       r.2.mem ((c.tc : Thread nD τ).loc main_arg12) = m ((c.tc : Thread nD τ).loc main_arg12)) :=
  frame_of m ρ (dats m) (run_main m ρ)

end Cert.KernelIdeal.Launched

end
-- ==== Proof.LibRowScatter.lean ====
/-
  SCATTER-ADD OF ROWS THROUGH AN INDEX COLUMN. A table of `N` rows of `D` entries, shape `[N, D]`; scatter indices of
  shape `[E, 1]`, one row number per update row, the index vector along axis 1; updates of shape `[E, D]`. Update row
  `e` is aimed, entry by entry, at the table row its scatter index names: the updates' axis 1 is the window axis and
  goes to the table's axis 1, the table's axis 0 is the inserted axis the scatter index addresses.

  This file gives the dimension numbers of that scatter, general in the extents `N`, `E` and `D`, and proves
  `resultIdx_row`: the update at `(e, d')` lands on the table entry `(n, d)` exactly when the scatter index `idx[e, 0]`,
  read as a signed integer and NOT clamped, equals `n`, and `d' = d` (an index outside `[0, N)` lands nowhere). On the
  table's axis 0 the start is the scatter index and the window coordinate is `0`; on axis 1 the start is `0` and the
  window coordinate is `d'`, always inside the axis.
-/
import Idealize.ShloMosaic.Lib.ValueIdx

noncomputable section

open scoped BigOperators
open Idealize.ShloMosaic Idealize.ShloMosaic.ValueIdx

namespace Cert.Lib.RowScatter

/-! ## Where an update of the row scatter lands

A table of `N` rows of `D` entries, scatter indices `[E, 1]` (one row number per update row), updates `[E, D]`: update
row `e` is added, entry by entry, to the table row its scatter index names. -/

/-- Scatter into a table `[N, D]` at scatter indices `[E, 1]` of updates `[E, D]`: operand axis 0 is an inserted
    window axis and the target of the scatter index's one component; the updates' axis 1 is a window axis going to
    operand axis 1. -/
abbrev rowScatter (N E D : Nat) (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

/-- The row scatter's start on operand axis 0 for update `(e, d')`: the scatter index `idx[e, 0]`, read signed. -/
theorem rowScatter_start_zero {N E D w : Nat} (wf : ScatterDims.WF ⟨2, ![N, D]⟩ ⟨2, ![E, 1]⟩ ⟨2, ![E, D]⟩ [1] [0] [0] 1)
    (idx : IVec ⟨2, ![E, 1]⟩ w) (e : Fin E) (d' : Fin D) :
    (rowScatter N E D wf).start (ix2 e d') idx 0 = (idx (ix2 e 0)).toInt := by
  unfold ScatterDims.start
  rw [dif_pos (show (0 : Fin 2) ∈ (rowScatter N E D wf).scatterDimsToOperandDims from List.mem_singleton.mpr rfl)]
  have hsi : (rowScatter N E D wf).siIdx (ix2 e d') ⟨List.idxOf (0 : Fin 2) (rowScatter N E D wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- The row scatter's start on operand axis 1 is `0`: the scatter index has no component for it. -/
theorem rowScatter_start_one {N E D w : Nat} (wf : ScatterDims.WF ⟨2, ![N, D]⟩ ⟨2, ![E, 1]⟩ ⟨2, ![E, D]⟩ [1] [0] [0] 1)
    (idx : IVec ⟨2, ![E, 1]⟩ w) (e : Fin E) (d' : Fin D) :
    (rowScatter N E D wf).start (ix2 e d') idx 1 = 0 := by
  unfold ScatterDims.start
  rw [dif_neg (fun h => absurd (congrArg Fin.val (List.mem_singleton.mp h)) Nat.one_ne_zero)]

/-- The row scatter's window coordinate on operand axis 0 is `0`: that axis is an inserted one. -/
theorem rowScatter_window_zero {N E D : Nat} (wf : ScatterDims.WF ⟨2, ![N, D]⟩ ⟨2, ![E, 1]⟩ ⟨2, ![E, D]⟩ [1] [0] [0] 1)
    (e : Fin E) (d' : Fin D) : (rowScatter N E D wf).window (ix2 e d') 0 = 0 := by
  unfold ScatterDims.window
  rw [dif_neg (by simp [ScatterDims.sKept, Shape.kept])]

/-- The row scatter's window coordinate on operand axis 1 is the update's coordinate on its axis 1. -/
theorem rowScatter_window_one {N E D : Nat} (wf : ScatterDims.WF ⟨2, ![N, D]⟩ ⟨2, ![E, 1]⟩ ⟨2, ![E, D]⟩ [1] [0] [0] 1)
    (e : Fin E) (d' : Fin D) : (rowScatter N E D wf).window (ix2 e d') 1 = d'.val := by
  unfold ScatterDims.window
  split
  · rfl
  · next h => exact absurd (by simp [ScatterDims.sKept, Shape.kept]) h

/-- WHERE THE ROW SCATTER'S UPDATE `(e, d')` LANDS: on `(n, d)` exactly when the scatter index `idx[e, 0]`, read
    signed, is `n` and `d' = d`. On axis 1 the start is `0` and the window coordinate `d'` is inside the axis. -/
theorem resultIdx_row {N E D w : Nat} (wf : ScatterDims.WF ⟨2, ![N, D]⟩ ⟨2, ![E, 1]⟩ ⟨2, ![E, D]⟩ [1] [0] [0] 1)
    (idx : IVec ⟨2, ![E, 1]⟩ w) (e : Fin E) (d' : Fin D) (n : Fin N) (d : Fin D) :
    (rowScatter N E D wf).resultIdx? (ix2 e d') idx = some (ix2 n d)
      ↔ ((idx (ix2 e 0)).toInt = (n.val : Int) ∧ d' = d) := by
  have hs0 := rowScatter_start_zero wf idx e d'
  have hs1 := rowScatter_start_one wf idx e d'
  have hw0 := rowScatter_window_zero wf e d'
  have hw1 := rowScatter_window_one wf e d'
  have hn := n.isLt
  have hd' := d'.isLt
  unfold ScatterDims.resultIdx?
  split
  · next h =>
    have h0 : 0 ≤ (rowScatter N E D wf).start (ix2 e d') idx 0 + ((rowScatter N E D wf).window (ix2 e d') 0 : Nat)
        ∧ (rowScatter N E D wf).start (ix2 e d') idx 0 + ((rowScatter N E D wf).window (ix2 e d') 0 : Nat) < (N : Int) := h 0
    rw [hs0, hw0] at h0
    constructor
    · intro hf
      have h1 : ((rowScatter N E D wf).start (ix2 e d') idx 0 + ((rowScatter N E D wf).window (ix2 e d') 0 : Nat)).toNat = n.val :=
        congrArg (fun f => (f 0).val) (Option.some.inj hf)
      have h2 : ((rowScatter N E D wf).start (ix2 e d') idx 1 + ((rowScatter N E D wf).window (ix2 e d') 1 : Nat)).toNat = d.val :=
        congrArg (fun f => (f 1).val) (Option.some.inj hf)
      rw [hs0, hw0] at h1
      rw [hs1, hw1] at h2
      refine ⟨by omega, Fin.ext (by omega)⟩
    · rintro ⟨hv, rfl⟩
      congr 1
      funext a
      refine Fin.ext ?_
      match a with
      | ⟨0, _⟩ =>
        show ((rowScatter N E D wf).start (ix2 e d') idx 0 + ((rowScatter N E D wf).window (ix2 e d') 0 : Nat)).toNat = n.val
        rw [hs0, hw0, hv]
        omega
      | ⟨1, _⟩ =>
        show ((rowScatter N E D wf).start (ix2 e d') idx 1 + ((rowScatter N E D wf).window (ix2 e d') 1 : Nat)).toNat = d'.val
        rw [hs1, hw1]
        omega
  · next h =>
    constructor
    · intro hf
      exact absurd hf (by simp)
    · rintro ⟨hv, rfl⟩
      refine absurd (fun a => ?_) h
      match a with
      | ⟨0, _⟩ =>
        show 0 ≤ (rowScatter N E D wf).start (ix2 e d') idx 0 + ((rowScatter N E D wf).window (ix2 e d') 0 : Nat)
          ∧ (rowScatter N E D wf).start (ix2 e d') idx 0 + ((rowScatter N E D wf).window (ix2 e d') 0 : Nat) < (N : Int)
        rw [hs0, hw0, hv]
        omega
      | ⟨1, _⟩ =>
        show 0 ≤ (rowScatter N E D wf).start (ix2 e d') idx 1 + ((rowScatter N E D wf).window (ix2 e d') 1 : Nat)
          ∧ (rowScatter N E D wf).start (ix2 e d') idx 1 + ((rowScatter N E D wf).window (ix2 e d') 1 : Nat) < ((D : Nat) : Int)
        rw [hs1, hw1]
        omega

end Cert.Lib.RowScatter

end
-- ==== Proof.LibRowGather.lean ====
/-
  A general lemma about `stablehlo.gather`: rows of a table taken at a column of start indices.

  For a table `x : [N, D]` and a column `idx : [E, 1]` of integer start indices, the gather with offset_dims `[1]`,
  collapsed_slice_dims `[0]`, start_index_map `[0]`, index_vector_dim `1` and slice_sizes `[1, D]` — what `take(x, idx, axis = 0)`
  of a two-dimensional table lowers to — has result `[E, D]`, and its entry `(e, d)` is the table's entry `(i, d)`, where `i` is
  the start index `idx (e, 0)` read as a signed integer and clamped into `[0, N - 1]`: a whole row of the table per start index.
-/
import Idealize.ShloMosaic.Lib.ValueIdx

noncomputable section

namespace Idealize.ShloMosaic.RowGather

open Idealize.ShloMosaic Idealize.ShloMosaic.ValueIdx

variable {α : Type}

/-- Those dimension numbers for a table `[N, D]`, start indices `[E, 1]` and result `[E, D]`; their conditions `wf` are
    decided on a program's literal shapes. -/
abbrev rowDims (N E D : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- THE GATHER READ AT `(e, d)`: the table at row `idx (e, 0)`, read signed and clamped into `[0, N - 1]`, and column `d`. -/
theorem gather_row_apply {N E D w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (d : Fin D) :
    Host.gather (rowDims N E D wf) x idx (ix2 e d)
      = x (ix2 ⟨min (idx (ix2 e (0 : Fin 1))).toInt.toNat (N - 1), by omega⟩ d) := by
  unfold Host.gather
  congr 1
  funext a
  refine Fin.ext ?_
  show (rowDims N E D wf).start (ix2 e d) idx a + (rowDims N E D wf).batchCoord (ix2 e d) a
    + (rowDims N E D wf).offCoord (ix2 e d) a = _
  rw [GatherDims.batchCoord_eq_zero _ _ _ List.not_mem_nil]
  match a with
  | ⟨0, _⟩ =>
    rw [GatherDims.offCoord_eq_zero _ _ _ (fun h => ((GatherDims.mem_sKept _ _).mp h).1 (List.mem_singleton.mpr rfl))]
    simp only [Nat.add_zero]
    unfold GatherDims.start
    rw [dif_pos (show (⟨0, by omega⟩ : Fin 2) ∈ (rowDims N E D wf).startIndexMap from List.mem_singleton.mpr rfl)]
    have hsi : (rowDims N E D wf).siIdx (ix2 e d) ⟨List.idxOf (⟨0, by omega⟩ : Fin 2) (rowDims N E D wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    have h1 : (⟨1, by omega⟩ : Fin 2) ∉ (rowDims N E D wf).startIndexMap :=
      fun h => Nat.one_ne_zero (congrArg Fin.val (List.mem_singleton.mp h))
    have hs : (rowDims N E D wf).start (ix2 e d) idx ⟨1, by omega⟩ = 0 := by
      unfold GatherDims.start; rw [dif_neg h1]
    rw [hs]
    have hk : (⟨1, by omega⟩ : Fin 2) ∈ (rowDims N E D wf).sKept :=
      (GatherDims.mem_sKept _ _).mpr
        ⟨fun h => Nat.one_ne_zero (congrArg Fin.val (List.mem_singleton.mp h)), List.not_mem_nil⟩
    unfold GatherDims.offCoord
    rw [dif_pos hk]
    simp only [Nat.zero_add]
    rfl

end Idealize.ShloMosaic.RowGather

end
-- ==== Proof.LibRowAggregate.lean ====
/-
  ROWS OF A TABLE ADDED TO AND READ THROUGH A COLUMN OF ROW NUMBERS, AT THE IDEAL INSTANCE.

  A table has `N` rows of `D` entries, shape `[N, D]`. A column `idx` of shape `[E, 1]` holds one integer per update
  (or result) row, of any bit width `w`, read as a SIGNED integer.

  * SCATTER-ADD (`scatterAdd_row_apply`). Updates of shape `[E, D]`; update row `e` is added, entry by entry, to the
    table row that `idx[e, 0]` names. The row number is NOT clamped: an update whose row number lies outside `[0, N)`
    is dropped. At the ideal instance floats are extended reals and the accumulation is the exact sum, so the result
    at `(n, d)` is the table's entry plus the sum of `upd[e, d]` over the update rows `e` whose row number is `n`
    (`landing idx n`) -- in whatever order the colliding updates are met, since the sum of extended reals over a
    finite set does not depend on an order.

  * GATHER (`gather_row_apply'`). The result `[E, D]` has, at `(e, d)`, the table's entry at row `srcRow idx e` and
    column `d`, where `srcRow idx e` is `idx[e, 0]` read signed and CLAMPED into `[0, N - 1]` (a negative row number
    reads row `0`, one past the end reads row `N - 1`). This holds for entries of any type.

  The asymmetry between the two (dropped against clamped) is that of the two operations themselves: a scatter ignores
  an update whose window falls outside the operand, a gather moves an out-of-bounds window back inside the operand.

  Both statements take the dimension numbers as a record `sd` / `gd` together with an equation saying that it is the
  row scatter / row gather of the two companion files; for a record whose fields are those literal lists the equation
  holds by `rfl`.
-/
import Idealize.ShloMosaic.Lib.ValueIdx
import Idealize.ShloMosaic.PureOps.Ideal
import proofs.«181314_j28269474742524_2_alg».proof.Proof.LibRowScatter
import proofs.«181314_j28269474742524_2_alg».proof.Proof.LibRowGather

noncomputable section

open scoped BigOperators
open Idealize.ShloMosaic Idealize.ShloMosaic.ValueIdx

namespace Cert.Lib.RowAggregate

/-- the table row that entry e of an index column names: read signed, clamped into [0, N − 1] -/
def srcRow {N E w : ℕ} (hN : 0 < N) (idx : IVec ⟨2, ![E, 1]⟩ w) (e : Fin E) : Fin N :=
  ⟨min (idx (ix2 e (0 : Fin 1))).toInt.toNat (N - 1), by omega⟩

/-- the update rows aimed at table row n: the index read signed and NOT clamped equals n -/
def landing {N E w : ℕ} (idx : IVec ⟨2, ![E, 1]⟩ w) (n : Fin N) : Finset (Fin E) :=
  Finset.univ.filter fun e => (idx (ix2 e (0 : Fin 1))).toInt = (n.val : Int)

/-- Membership in `landing`: update row `e` is aimed at table row `n` exactly when its row number, read signed, is `n`. -/
theorem mem_landing {N E w : ℕ} (idx : IVec ⟨2, ![E, 1]⟩ w) (n : Fin N) (e : Fin E) :
    e ∈ landing idx n ↔ (idx (ix2 e (0 : Fin 1))).toInt = (n.val : Int) := by
  unfold landing
  rw [Finset.mem_filter]
  exact ⟨fun h => h.2, fun h => ⟨Finset.mem_univ _, h⟩⟩

/-- THE SCATTER-ADD OF ROWS READ AT `(n, d)`: the table's entry plus the sum, over the update rows `e` whose row number
    is `n`, of `upd[e, d]`. The update indices `(e, d')` that land on `(n, d)` are exactly those with `e` aimed at `n`
    and `d' = d`, so `(e, d') ↦ e` and `e ↦ (e, d)` are inverse bijections between them and `landing idx n`, and the
    summands correspond. -/
theorem scatterAdd_row_apply {N E D w : ℕ} {φ : FTy} (sd : ScatterDims ⟨2, ![N, D]⟩ ⟨2, ![E, 1]⟩ ⟨2, ![E, D]⟩)
    (wf : ScatterDims.WF ⟨2, ![N, D]⟩ ⟨2, ![E, 1]⟩ ⟨2, ![E, D]⟩ [1] [0] [0] 1) (hsd : sd = Cert.Lib.RowScatter.rowScatter N E D wf)
    (x : FVec Ideal ⟨2, ![N, D]⟩ φ) (idx : IVec ⟨2, ![E, 1]⟩ w) (upd : FVec Ideal ⟨2, ![E, D]⟩ φ) (n : Fin N) (d : Fin D) :
    Host.scatterAdd (F := Ideal) sd x idx upd (ix2 n d) = x (ix2 n d) + ∑ e ∈ landing idx n, upd (ix2 e d) := by
  subst hsd
  show Ideal.hostScatterAdd (Cert.Lib.RowScatter.rowScatter N E D wf) x idx upd (ix2 n d) = _
  unfold Ideal.hostScatterAdd
  congr 1
  -- an update index that lands on `(n, d)`, in coordinates: its row is aimed at `n` and its column is `d`
  have key : ∀ j : (⟨2, ![E, D]⟩ : Shape).Idx,
      j ∈ Finset.univ.filter (fun j => (Cert.Lib.RowScatter.rowScatter N E D wf).resultIdx? j idx = some (ix2 n d)) →
      ∃ e : Fin E, j = ix2 e d ∧ e ∈ landing idx n := by
    intro j hj
    obtain ⟨e, d', rfl⟩ : ∃ (e : Fin E) (d' : Fin D), j = ix2 e d' := ⟨j 0, j 1, eq_ix2 j⟩
    obtain ⟨he, rfl⟩ := (Cert.Lib.RowScatter.resultIdx_row wf idx e d' n d).mp (Finset.mem_filter.mp hj).2
    exact ⟨e, rfl, (mem_landing idx n e).mpr he⟩
  refine Finset.sum_nbij' (fun j => (j 0 : Fin E)) (fun e => ix2 e d) ?_ ?_ ?_ ?_ ?_
  · intro j hj
    obtain ⟨e, rfl, he⟩ := key j hj
    exact he
  · intro e he
    exact Finset.mem_filter.mpr ⟨Finset.mem_univ _,
      (Cert.Lib.RowScatter.resultIdx_row wf idx e d n d).mpr ⟨(mem_landing idx n e).mp he, rfl⟩⟩
  · intro j hj
    obtain ⟨e, rfl, _⟩ := key j hj
    rfl
  · intro e _
    rfl
  · intro j hj
    obtain ⟨e, rfl, _⟩ := key j hj
    rfl

/-- THE GATHER OF ROWS READ AT `(e, d)`: the table at row `srcRow idx e` (the row number `idx[e, 0]` read signed and
    clamped into `[0, N - 1]`) and column `d`. -/
theorem gather_row_apply' {N E D w : ℕ} {α : Type} (hN : 0 < N) (gd : GatherDims ⟨2, ![N, D]⟩ ⟨2, ![E, 1]⟩ ⟨2, ![E, D]⟩)
    (wf : GatherDims.WF ⟨2, ![N, D]⟩ ⟨2, ![E, 1]⟩ ⟨2, ![E, D]⟩ [1] [0] [] [0] [] 1 ![1, D]) (hgd : gd = Idealize.ShloMosaic.RowGather.rowDims N E D wf)
    (x : (⟨2, ![N, D]⟩ : Shape).Idx → α) (idx : IVec ⟨2, ![E, 1]⟩ w) (e : Fin E) (d : Fin D) :
    Host.gather gd x idx (ix2 e d) = x (ix2 (srcRow hN idx e) d) := by
  subst hgd
  exact Idealize.ShloMosaic.RowGather.gather_row_apply hN wf x idx e d

/-! ## The one-dimensional cousin: entries of a vector read through a column of positions

A vector `x : [N]`, a column `idx : [E, 1]` of positions, result `[E]`: entry `e` of the result is the vector at position
`idx[e, 0]`, read signed and clamped into `[0, N - 1]` (the same `srcRow`, the vector being a table of `N` rows with no
column axis). In particular every entry of the result is SOME entry of the vector, and for that alone nothing about
the dimension numbers is needed. -/

/-- Every entry a gather of a vector `[N]` through an index column `[E, 1]` returns is some entry of the vector, whatever
    the dimension numbers: the gather reads the vector at a computed position, and a position of a vector is its one
    coordinate. -/
theorem gather_vec_mem {N E w : ℕ} {α : Type} (gd : GatherDims ⟨1, ![N]⟩ ⟨2, ![E, 1]⟩ ⟨1, ![E]⟩)
    (x : (⟨1, ![N]⟩ : Shape).Idx → α) (idx : IVec ⟨2, ![E, 1]⟩ w) (e : Fin E) :
    ∃ n : Fin N, Host.gather gd x idx (ix1 e) = x (ix1 n) :=
  ⟨gd.operandIdx (ix1 e) idx 0, congrArg x (eq_ix1 (gd.operandIdx (ix1 e) idx))⟩

/-- The dimension numbers of the gather of single entries of a vector `[N]` at a column `[E, 1]` of positions, result
    `[E]`: no offset axis, the vector's one axis collapsed and addressed by the position's one component, the index
    vector along axis 1, slices of one entry. -/
abbrev vecDims (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE GATHER OF ENTRIES OF A VECTOR READ AT `e`: the vector at position `srcRow idx e` (`idx[e, 0]` read signed and
    clamped into `[0, N - 1]`). On the vector's one axis the batching and the offset coordinates are `0` (it is a
    collapsed axis), and the start is the position clamped so that a slice of one entry fits. -/
theorem gather_vec_apply {N E w : ℕ} {α : Type} (hN : 0 < N) (gd : GatherDims ⟨1, ![N]⟩ ⟨2, ![E, 1]⟩ ⟨1, ![E]⟩)
    (wf : GatherDims.WF ⟨1, ![N]⟩ ⟨2, ![E, 1]⟩ ⟨1, ![E]⟩ [] [0] [] [0] [] 1 ![1]) (hgd : gd = vecDims N E wf)
    (x : (⟨1, ![N]⟩ : Shape).Idx → α) (idx : IVec ⟨2, ![E, 1]⟩ w) (e : Fin E) :
    Host.gather gd x idx (ix1 e) = x (ix1 (srcRow hN idx e)) := by
  subst hgd
  unfold Host.gather
  congr 1
  funext a
  obtain rfl : a = 0 := Subsingleton.elim _ _
  refine Fin.ext ?_
  show (vecDims N E wf).start (ix1 e) idx 0 + (vecDims N E wf).batchCoord (ix1 e) 0
    + (vecDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecDims N E wf).startIndexMap from List.mem_singleton.mpr rfl)]
  have hsi : (vecDims N E wf).siIdx (ix1 e) ⟨List.idxOf (0 : Fin 1) (vecDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

end Cert.Lib.RowAggregate

end
-- ==== Proof.EdgeNet.lean ====
/-
  THE EDGE NETWORK, INDEX BY INDEX, ON THE EXTENDED REALS.

  A graph has 50000 nodes, each with a position x (two coordinates) and a polarity angle θ, and 800000 directed
  edges; edge e runs from node rs e to node rd e. Its four features are the displacement x(rd e) − x(rs e) rotated into
  the source's polarity frame,
      dx = dr₀·cos θₛ + dr₁·sin θₛ,   dy = (−dr₀)·sin θₛ + dr₁·cos θₛ,
  and the cosine and sine of the angle difference θ(rd e) − θ(rs e) (feat). Its message is a four-layer perceptron of
  the features, 4 → 128 → 128 → 128 → 1, each hidden layer max(Σₖ hₖ·W(k,j) + b(j), 0) (layer), the last one affine
  (msg). A node's torque is the mean of the messages of the edges aimed at it: their sum over max(their number, 1)
  (torque); the edges aimed at node n are those whose target index, read signed and not clamped, is n, while the rows
  rs e and rd e that an edge READS are its source and target indices clamped into [0, 49999].

  Two arrangements of one hidden layer are used by the two programs: the sum over k of h(k)·W(k,j), and, for the first
  layer, the four products W(0,j)·dx + W(1,j)·dy + W(2,j)·c + W(3,j)·s written out. On the extended reals addition and
  multiplication are commutative and associative without any finiteness, so the two are equal for every input
  (sum_four, layer_comm).
-/
import Idealize.ShloMosaic.Lib.ValueIdx
import Idealize.ShloMosaic.PureOps.Ideal
import proofs.«181314_j28269474742524_2_alg».proof.Proof.LibRowAggregate

noncomputable section

open scoped BigOperators
open Idealize.ShloMosaic Idealize.ShloMosaic.ValueIdx
open Cert.Lib.RowAggregate (srcRow landing)

namespace Cert.EdgeNet

/-- the float pattern of 1.0, kept as a pattern: the same word stands on both sides and is never evaluated -/
abbrev one : EReal := Ideal.ofBits .f32 0x3F800000#32

variable (x : FVec Ideal ⟨2, ![50000, 2]⟩ .f32) (θ : FVec Ideal ⟨2, ![50000, 1]⟩ .f32)
  (W0 : FVec Ideal ⟨2, ![4, 128]⟩ .f32) (b0 : FVec Ideal ⟨1, ![128]⟩ .f32)
  (W1 : FVec Ideal ⟨2, ![128, 128]⟩ .f32) (b1 : FVec Ideal ⟨1, ![128]⟩ .f32)
  (W2 : FVec Ideal ⟨2, ![128, 128]⟩ .f32) (b2 : FVec Ideal ⟨1, ![128]⟩ .f32)
  (W3 : FVec Ideal ⟨2, ![128, 1]⟩ .f32) (b3 : FVec Ideal ⟨1, ![1]⟩ .f32)
  (si di dc : IVec ⟨2, ![800000, 1]⟩ 32)

/-- the node an edge reads as its source (si) or target (di): the index read signed, clamped into [0, 49999] -/
abbrev row (idx : IVec ⟨2, ![800000, 1]⟩ 32) (e : Fin 800000) : Fin 50000 := srcRow (N := 50000) (by decide) idx e

/-- the four features of edge e: the displacement in the source's polarity frame, and cos and sin of the angle difference -/
def feat (e : Fin 800000) : Fin 4 → EReal :=
  let ths := θ (ix2 (row si e) (0 : Fin 1))
  let thd := θ (ix2 (row di e) (0 : Fin 1))
  let dr0 := x (ix2 (row di e) (0 : Fin 2)) - x (ix2 (row si e) (0 : Fin 2))
  let dr1 := x (ix2 (row di e) (1 : Fin 2)) - x (ix2 (row si e) (1 : Fin 2))
  ![dr0 * Ideal.cos ths + dr1 * Ideal.sin ths, (-dr0) * Ideal.sin ths + dr1 * Ideal.cos ths,
    Ideal.cos (thd - ths), Ideal.sin (thd - ths)]

/-- one hidden layer: max(Σₖ h(k)·W(k,j) + b(j), 0) -/
def layer {K J : ℕ} (W : FVec Ideal ⟨2, ![K, J]⟩ .f32) (b : FVec Ideal ⟨1, ![J]⟩ .f32) (h : Fin K → EReal) : Fin J → EReal :=
  fun j => max ((∑ k : Fin K, h k * W (ix2 k j)) + b (ix1 j)) 0

/-- the message of a feature vector: three hidden layers and an affine read-out -/
def mlp (f : Fin 4 → EReal) : EReal :=
  (∑ k : Fin 128, layer W2 b2 (layer W1 b1 (layer W0 b0 f)) k * W3 (ix2 k (0 : Fin 1))) + b3 (ix1 (0 : Fin 1))

/-- the message of edge e -/
def msg (e : Fin 800000) : EReal := mlp W0 b0 W1 b1 W2 b2 W3 b3 (feat x θ si di e)

/-- a node's torque: the sum of the messages aimed at it over max(their number, 1) -/
def torque (μ : Fin 800000 → EReal) : FVec Ideal ⟨2, ![50000, 1]⟩ .f32 := fun i =>
  Ideal.div (∑ e ∈ landing dc (i 0), μ e) (max (∑ e ∈ landing dc (i 0), one) one)

/-! ## The two arrangements of a layer's sum -/

/-- four terms added left to right are the sum over Fin 4 -/
theorem sum_four (g : Fin 4 → EReal) : g 0 + g 1 + g 2 + g 3 = ∑ k : Fin 4, g k := by
  rw [Fin.sum_univ_four]

/-- a contraction with the factors in the other order -/
theorem sum_comm_factors {K : ℕ} (a b : Fin K → EReal) : (∑ k : Fin K, a k * b k) = ∑ k : Fin K, b k * a k :=
  Finset.sum_congr rfl fun k _ => mul_comm _ _

end Cert.EdgeNet

end
-- ==== Proof.LibPlainMatmul.lean ====
/-
  A matrix product into a zero accumulator, read at one entry, over the extended reals.

  For any extents M, K, N: the product of an M×K matrix and a K×N matrix with the plain dimension numbers (the left
  operand's axis 1 contracted with the right operand's axis 0, no batch axes), accumulated into the zero matrix, is at
  entry (p, n) the sum over k of left(p, k) · right(k, n). The accumulator contributes 0 + ·, the contraction index
  of the product is one coordinate k, and the operand indices at (p, n) and k are (p, k) and (k, n).
-/
import Idealize.ShloMosaic.Lib.ValueIdx
import Idealize.ShloMosaic.PureOps.Ideal.Laws

namespace Cert.LibPlainMatmul

open Idealize.ShloMosaic Idealize.ShloMosaic.ValueIdx

/-- The left operand's index at result entry `(p, n)` and contraction coordinate `k` is `(p, k)`. -/
theorem plain_lhsIdx {M K N : ℕ} (p : Fin M) (n : Fin N) (k : Fin K) :
    (DotDims.plain M K N).lhsIdx (ix2 p n) ((contrEquiv1 (DotDims.plain M K N) K rfl rfl).symm k) = ix2 p k :=
  funext fun a => Fin.ext (by
    match a with
    | ⟨0, _⟩ => rfl
    | ⟨1, _⟩ =>
      exact ((DotDims.plain M K N).lhsIdx_val_of_single rfl _ _).trans
        (contrEquiv1_symm_val (DotDims.plain M K N) K rfl rfl k))

/-- The right operand's index at result entry `(p, n)` and contraction coordinate `k` is `(k, n)`. -/
theorem plain_rhsIdx {M K N : ℕ} (p : Fin M) (n : Fin N) (k : Fin K) :
    (DotDims.plain M K N).rhsIdx (ix2 p n) ((contrEquiv1 (DotDims.plain M K N) K rfl rfl).symm k) = ix2 k n :=
  funext fun a => Fin.ext (by
    match a with
    | ⟨0, _⟩ =>
      exact ((DotDims.plain M K N).rhsIdx_val_of_single rfl _ _).trans
        (contrEquiv1_symm_val (DotDims.plain M K N) K rfl rfl k)
    | ⟨1, _⟩ => rfl)

/-- An M×K matrix times a K×N matrix into the zero accumulator, at entry `(p, n)`: `∑ k, l (p, k) * r (k, n)`. -/
theorem matmul_plain_zero_apply {M K N : ℕ} {φ₁ φ₂ : FTy} (prec : Option ContractPrecision)
    (l : FVec Ideal ⟨2, ![M, K]⟩ φ₁) (r : FVec Ideal ⟨2, ![K, N]⟩ φ₂) (p : Fin M) (n : Fin N) :
    matmul (DotDims.plain M K N) prec l r (constant (F := Ideal) ⟨2, ![M, N]⟩ .f32 0x00000000#32) (ix2 p n)
      = ∑ k : Fin K, l (ix2 p k) * r (ix2 k n) := by
  show FloatOps.matmul _ _ _ _ _ _ = _
  rw [Ideal.matmul_constant_zero_apply, ← Equiv.sum_comp (contrEquiv1 (DotDims.plain M K N) K rfl rfl).symm]
  refine Finset.sum_congr rfl fun k _ => ?_
  rw [plain_lhsIdx, plain_rhsIdx]

/-- The same for any dimension-numbers record `D` that is the plain one (a printed program names its own record). -/
theorem matmul_eq_plain_zero_apply {M K N : ℕ} {φ₁ φ₂ : FTy} (D : DotDims ⟨2, ![M, K]⟩ ⟨2, ![K, N]⟩ ⟨2, ![M, N]⟩)
    (hD : D = DotDims.plain M K N) (prec : Option ContractPrecision)
    (l : FVec Ideal ⟨2, ![M, K]⟩ φ₁) (r : FVec Ideal ⟨2, ![K, N]⟩ φ₂) (p : Fin M) (n : Fin N) :
    matmul D prec l r (constant (F := Ideal) ⟨2, ![M, N]⟩ .f32 0x00000000#32) (ix2 p n)
      = ∑ k : Fin K, l (ix2 p k) * r (ix2 k n) := by
  subst hD; exact matmul_plain_zero_apply prec l r p n

end Cert.LibPlainMatmul
-- ==== Proof.LibColumn.lean ====
/-
  Column vectors and sums along one axis of a matrix, read at an index (general: any extents, no program).

  A sum that keeps its axis (a row sum stored as a column, a column sum stored as one cell) passes through a few
  re-arrangements: a length-a vector viewed as an a × 1 column, a column repeated along every row of an a × b matrix,
  a single cell repeated over a whole matrix, a length-1 vector viewed as a 1 × 1 matrix. Each reads its operand at
  the evident index. At the exact values, summing a matrix along its columns gives each row's sum, and summing a
  column gives the sum of its entries; both as plain finite sums.
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Column

open Idealize.ShloMosaic Idealize.ShloMosaic.ValueIdx

variable {α : Type}

/-- A length-a vector viewed as an a × 1 column reads, at (i, u), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A length-1 vector viewed as a 1 × 1 matrix reads its one entry. -/
theorem shapeCast_1_11_apply (x : (⟨1, ![1]⟩ : Shape).Idx → α) (h : (⟨1, ![1]⟩ : Shape).ShapeCasts ⟨2, ![1, 1]⟩)
    (u v : Fin 1) : shapeCast ⟨2, ![1, 1]⟩ x h (ix2 u v) = x (ix1 (0 : Fin 1)) :=
  (shapeCast_a_1a_apply x h u v).trans (congrArg x (congrArg ix1 (Subsingleton.elim v 0)))

/-- An a × 1 column repeated along the rows of an a × b matrix reads, at (p, c), the column at p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A single cell repeated over an a × b matrix reads that cell everywhere. -/
theorem broadcastTo_11_ab_apply {a b : ℕ} (v : (⟨2, ![1, 1]⟩ : Shape).Idx → α)
    (h : (⟨2, ![1, 1]⟩ : Shape).Broadcasts ⟨2, ![a, b]⟩) (p : Fin a) (c : Fin b) :
    broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

/-- At the exact values, summing an a × b matrix along its columns gives, at row r, the sum of that row. -/
theorem laneSum_apply {a b : ℕ} (v : FVec Ideal ⟨2, ![a, b]⟩ .f32) (acc : BitVec 32)
    (h : (⟨2, ![a, b]⟩ : Shape).Reduces [1] ⟨1, ![a]⟩) (hφ : FKind.Formats .f32)
    (hacc : acc = FKind.add.neutral .f32 hφ) (r : Fin a) :
    multiReduction .add [1] ⟨1, ![a]⟩ v acc h hφ hacc (ix1 r) = ∑ j : Fin b, v (ix2 r j) := by
  refine (Ideal.multiReduction_add_single v acc h hφ hacc (ix1 r)).trans ?_
  refine Finset.sum_congr rfl fun j _ => congrArg v ?_
  funext ax
  match ax with
  | ⟨0, _⟩ => exact Fin.ext rfl
  | ⟨1, _⟩ => exact Fin.ext rfl

/-- At the exact values, summing an a × 1 column along its rows gives the sum of its entries. -/
theorem colSum_apply {a : ℕ} (v : FVec Ideal ⟨2, ![a, 1]⟩ .f32) (acc : BitVec 32)
    (h : (⟨2, ![a, 1]⟩ : Shape).Reduces [0] ⟨1, ![1]⟩) (hφ : FKind.Formats .f32)
    (hacc : acc = FKind.add.neutral .f32 hφ) (u : Fin 1) :
    multiReduction .add [0] ⟨1, ![1]⟩ v acc h hφ hacc (ix1 u) = ∑ r : Fin a, v (ix2 r (0 : Fin 1)) := by
  refine (Ideal.multiReduction_add_single v acc h hφ hacc (ix1 u)).trans ?_
  refine Finset.sum_congr rfl fun r _ => congrArg v ?_
  funext ax
  match ax with
  | ⟨0, _⟩ => exact Fin.ext rfl
  | ⟨1, _⟩ => exact Fin.ext (by show u.val = 0; omega)

end Cert.Column

end
-- ==== Proof.TileValue.lean ====
/-
  WHAT ONE TILE'S BODY COMPUTES, ENTRY BY ENTRY, ON THE EXTENDED REALS.

  A tile holds 8192 edges as the columns of a 4 × 8192 block of features; the weights come transposed, W0ᵀ as 128 × 4,
  W1ᵀ and W2ᵀ as 128 × 128, W3ᵀ as 1 × 128, and the biases as columns. The body's first hidden layer is the four
  products written out, W0ᵀ(j,0)·f₀ + W0ᵀ(j,1)·f₁ + W0ᵀ(j,2)·f₂ + W0ᵀ(j,3)·f₃ + b(j), each later layer a product of the
  transposed weights with the previous layer's 128 × 8192 activations, Σₖ Wᵀ(j,k)·h(k,l) + b(j), with max(·, 0) after
  each hidden layer; a change of float format is the identity here. So lane l of the stored row is the perceptron of
  column l of the feature block, in the transposed arrangement (tileMsg), and that arrangement equals the perceptron
  of EdgeNet for weights that are each other's transposes (tileMsg_eq_mlp): the sums differ only by the order of the two
  factors of each product and by four terms being written out, which on the extended reals changes nothing.
-/
import proofs.«181314_j28269474742524_2_alg».proof.Proof.Gen.KernelIdeal.Skeleton
import proofs.«181314_j28269474742524_2_alg».proof.Proof.EdgeNet
import proofs.«181314_j28269474742524_2_alg».proof.Proof.LibPlainMatmul
import proofs.«181314_j28269474742524_2_alg».proof.Proof.LibColumn
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Tile

open Cert.KernelIdeal Cert.KernelIdeal.Gen Idealize.ShloMosaic Idealize.ShloMosaic.ValueIdx

/-! ## The transposed arrangement -/

/-- the first hidden layer, the four products written out -/
def hid0 (w : FVec Ideal S128x4 .f32) (b : FVec Ideal S128x1 .f32) (f : Fin 4 → EReal) : Fin 128 → EReal := fun j =>
  max (w (ix2 j (0 : Fin 4)) * f 0 + w (ix2 j (1 : Fin 4)) * f 1 + w (ix2 j (2 : Fin 4)) * f 2 + w (ix2 j (3 : Fin 4)) * f 3
    + b (ix2 j (0 : Fin 1))) 0

/-- a later hidden layer: the transposed weights times the previous activations -/
def hid (w : FVec Ideal S128x128 .bf16) (b : FVec Ideal S128x1 .f32) (h : Fin 128 → EReal) : Fin 128 → EReal := fun j =>
  max ((∑ k : Fin 128, w (ix2 j k) * h k) + b (ix2 j (0 : Fin 1))) 0

/-- the affine read-out -/
def readout (w : FVec Ideal S1x128 .bf16) (b : FVec Ideal S1x1 .f32) (h : Fin 128 → EReal) : EReal :=
  (∑ k : Fin 128, w (ix2 (0 : Fin 1) k) * h k) + b (ix2 (0 : Fin 1) (0 : Fin 1))

/-- the message of a feature column, from the transposed weights and the bias columns -/
def tileMsg (x1 : FVec Ideal S128x4 .f32) (x2 : FVec Ideal S128x1 .f32) (x3 : FVec Ideal S128x128 .bf16) (x4 : FVec Ideal S128x1 .f32)
    (x5 : FVec Ideal S128x128 .bf16) (x6 : FVec Ideal S128x1 .f32) (x7 : FVec Ideal S1x128 .bf16) (x8 : FVec Ideal S1x1 .f32)
    (f : Fin 4 → EReal) : EReal :=
  readout x7 x8 (hid x5 x6 (hid x3 x4 (hid0 x1 x2 f)))

/-- For weights that are each other's transposes and biases that are each other's columns, the transposed arrangement
    is EdgeNet's perceptron: each product's factors commute, and the first layer's four terms are its sum over Fin 4. -/
theorem tileMsg_eq_mlp (x1 : FVec Ideal S128x4 .f32) (x2 : FVec Ideal S128x1 .f32) (x3 : FVec Ideal S128x128 .bf16) (x4 : FVec Ideal S128x1 .f32)
    (x5 : FVec Ideal S128x128 .bf16) (x6 : FVec Ideal S128x1 .f32) (x7 : FVec Ideal S1x128 .bf16) (x8 : FVec Ideal S1x1 .f32)
    (W0 : FVec Ideal ⟨2, ![4, 128]⟩ .f32) (b0 : FVec Ideal ⟨1, ![128]⟩ .f32)
    (W1 : FVec Ideal ⟨2, ![128, 128]⟩ .f32) (b1 : FVec Ideal ⟨1, ![128]⟩ .f32)
    (W2 : FVec Ideal ⟨2, ![128, 128]⟩ .f32) (b2 : FVec Ideal ⟨1, ![128]⟩ .f32)
    (W3 : FVec Ideal ⟨2, ![128, 1]⟩ .f32) (b3 : FVec Ideal ⟨1, ![1]⟩ .f32)
    (h1 : ∀ (j : Fin 128) (k : Fin 4), x1 (ix2 j k) = W0 (ix2 k j)) (h2 : ∀ j : Fin 128, x2 (ix2 j (0 : Fin 1)) = b0 (ix1 j))
    (h3 : ∀ (j k : Fin 128), x3 (ix2 j k) = W1 (ix2 k j)) (h4 : ∀ j : Fin 128, x4 (ix2 j (0 : Fin 1)) = b1 (ix1 j))
    (h5 : ∀ (j k : Fin 128), x5 (ix2 j k) = W2 (ix2 k j)) (h6 : ∀ j : Fin 128, x6 (ix2 j (0 : Fin 1)) = b2 (ix1 j))
    (h7 : ∀ k : Fin 128, x7 (ix2 (0 : Fin 1) k) = W3 (ix2 k (0 : Fin 1))) (h8 : x8 (ix2 (0 : Fin 1) (0 : Fin 1)) = b3 (ix1 (0 : Fin 1)))
    (f : Fin 4 → EReal) :
    tileMsg x1 x2 x3 x4 x5 x6 x7 x8 f = Cert.EdgeNet.mlp W0 b0 W1 b1 W2 b2 W3 b3 f := by
  have e0 : hid0 x1 x2 f = Cert.EdgeNet.layer W0 b0 f := by
    funext j
    unfold hid0 Cert.EdgeNet.layer
    rw [h1, h1, h1, h1, h2, Fin.sum_univ_four, mul_comm (W0 _) (f 0), mul_comm (W0 _) (f 1), mul_comm (W0 _) (f 2), mul_comm (W0 _) (f 3)]
  have e1 : ∀ h : Fin 128 → EReal, hid x3 x4 h = Cert.EdgeNet.layer W1 b1 h := by
    intro h; funext j
    unfold hid Cert.EdgeNet.layer
    rw [h4]
    congr 2
    exact Finset.sum_congr rfl fun k _ => by rw [h3, mul_comm]
  have e2 : ∀ h : Fin 128 → EReal, hid x5 x6 h = Cert.EdgeNet.layer W2 b2 h := by
    intro h; funext j
    unfold hid Cert.EdgeNet.layer
    rw [h6]
    congr 2
    exact Finset.sum_congr rfl fun k _ => by rw [h5, mul_comm]
  unfold tileMsg Cert.EdgeNet.mlp readout
  rw [e0, e1, e2, h8]
  congr 1
  exact Finset.sum_congr rfl fun k _ => by rw [h7, mul_comm]

/-! ## The body's operations read at an entry -/

theorem dot128 : dot_S128x128_S128x8192_S128x8192_1_0_0_1_n_n = DotDims.plain 128 128 8192 := rfl
theorem dot1 : dot_S1x128_S128x8192_S1x8192_1_0_0_1_n_n = DotDims.plain 1 128 8192 := rfl

/-- a 128 × 128 matrix times 128 × 8192 activations into zero, at (j, l) -/
theorem mm128 (w : FVec Ideal S128x128 .bf16) (h : FVec Ideal S128x8192 .bf16) (j : Fin 128) (l : Fin 8192) :
    matmul dot_S128x128_S128x8192_S128x8192_1_0_0_1_n_n none w h (constant (F := Ideal) S128x8192 .f32 0x00000000#32) (ix2 j l)
      = ∑ k : Fin 128, w (ix2 j k) * h (ix2 k l) :=
  Cert.LibPlainMatmul.matmul_eq_plain_zero_apply _ dot128 none w h j l

/-- a 1 × 128 row times 128 × 8192 activations into zero, at (0, l) -/
theorem mm1 (w : FVec Ideal S1x128 .bf16) (h : FVec Ideal S128x8192 .bf16) (u : Fin 1) (l : Fin 8192) :
    matmul dot_S1x128_S128x8192_S1x8192_1_0_0_1_n_n none w h (constant (F := Ideal) S1x8192 .f32 0x00000000#32) (ix2 u l)
      = ∑ k : Fin 128, w (ix2 u k) * h (ix2 k l) :=
  Cert.LibPlainMatmul.matmul_eq_plain_zero_apply _ dot1 none w h u l

/-- row 0 of the feature block, as a 1 × 8192 slice -/
theorem featRow0 (v : FVec Ideal S4x8192 .f32) (u : Fin 1) (l : Fin 8192) :
    extractStridedSlice S1x8192 ![0, 0] v slices_S4x8192_o0_0_S1x8192 (ix2 u l) = v (ix2 (0 : Fin 4) l) :=
  slice2_axis0_apply 0 v slices_S4x8192_o0_0_S1x8192 u l (0 : Fin 4) (by have := u.isLt; show 0 = 0 + u.val; omega)
/-- column 0 of the first layer's transposed weights, as a 128 × 1 slice -/
theorem w0Col0 (v : FVec Ideal S128x4 .f32) (j : Fin 128) (u : Fin 1) :
    extractStridedSlice S128x1 ![0, 0] v slices_S128x4_o0_0_S128x1 (ix2 j u) = v (ix2 j (0 : Fin 4)) :=
  slice2_axis1_apply 0 v slices_S128x4_o0_0_S128x1 j u (0 : Fin 4) (by have := u.isLt; show 0 = 0 + u.val; omega)
/-- row 1 of the feature block, as a 1 × 8192 slice -/
theorem featRow1 (v : FVec Ideal S4x8192 .f32) (u : Fin 1) (l : Fin 8192) :
    extractStridedSlice S1x8192 ![1, 0] v slices_S4x8192_o1_0_S1x8192 (ix2 u l) = v (ix2 (1 : Fin 4) l) :=
  slice2_axis0_apply 1 v slices_S4x8192_o1_0_S1x8192 u l (1 : Fin 4) (by have := u.isLt; show 1 = 1 + u.val; omega)
/-- column 1 of the first layer's transposed weights, as a 128 × 1 slice -/
theorem w0Col1 (v : FVec Ideal S128x4 .f32) (j : Fin 128) (u : Fin 1) :
    extractStridedSlice S128x1 ![0, 1] v slices_S128x4_o0_1_S128x1 (ix2 j u) = v (ix2 j (1 : Fin 4)) :=
  slice2_axis1_apply 1 v slices_S128x4_o0_1_S128x1 j u (1 : Fin 4) (by have := u.isLt; show 1 = 1 + u.val; omega)
/-- row 2 of the feature block, as a 1 × 8192 slice -/
theorem featRow2 (v : FVec Ideal S4x8192 .f32) (u : Fin 1) (l : Fin 8192) :
    extractStridedSlice S1x8192 ![2, 0] v slices_S4x8192_o2_0_S1x8192 (ix2 u l) = v (ix2 (2 : Fin 4) l) :=
  slice2_axis0_apply 2 v slices_S4x8192_o2_0_S1x8192 u l (2 : Fin 4) (by have := u.isLt; show 2 = 2 + u.val; omega)
/-- column 2 of the first layer's transposed weights, as a 128 × 1 slice -/
theorem w0Col2 (v : FVec Ideal S128x4 .f32) (j : Fin 128) (u : Fin 1) :
    extractStridedSlice S128x1 ![0, 2] v slices_S128x4_o0_2_S128x1 (ix2 j u) = v (ix2 j (2 : Fin 4)) :=
  slice2_axis1_apply 2 v slices_S128x4_o0_2_S128x1 j u (2 : Fin 4) (by have := u.isLt; show 2 = 2 + u.val; omega)
/-- row 3 of the feature block, as a 1 × 8192 slice -/
theorem featRow3 (v : FVec Ideal S4x8192 .f32) (u : Fin 1) (l : Fin 8192) :
    extractStridedSlice S1x8192 ![3, 0] v slices_S4x8192_o3_0_S1x8192 (ix2 u l) = v (ix2 (3 : Fin 4) l) :=
  slice2_axis0_apply 3 v slices_S4x8192_o3_0_S1x8192 u l (3 : Fin 4) (by have := u.isLt; show 3 = 3 + u.val; omega)
/-- column 3 of the first layer's transposed weights, as a 128 × 1 slice -/
theorem w0Col3 (v : FVec Ideal S128x4 .f32) (j : Fin 128) (u : Fin 1) :
    extractStridedSlice S128x1 ![0, 3] v slices_S128x4_o0_3_S128x1 (ix2 j u) = v (ix2 j (3 : Fin 4)) :=
  slice2_axis1_apply 3 v slices_S128x4_o0_3_S128x1 j u (3 : Fin 4) (by have := u.isLt; show 3 = 3 + u.val; omega)

/-- a bias column over the 8192 lanes -/
theorem colOver (v : FVec Ideal S128x1 .f32) (j : Fin 128) (l : Fin 8192) :
    broadcastTo S128x8192 v broadcasts_S128x1_S128x8192 (ix2 j l) = v (ix2 j (0 : Fin 1)) :=
  Cert.Column.broadcastTo_a1_ab_apply v broadcasts_S128x1_S128x8192 j l
/-- a feature row over the 128 units -/
theorem rowOver (v : FVec Ideal S1x8192 .f32) (j : Fin 128) (l : Fin 8192) :
    broadcastTo S128x8192 v broadcasts_S1x8192_S128x8192 (ix2 j l) = v (ix2 (0 : Fin 1) l) :=
  broadcastTo_1b_ab_apply v broadcasts_S1x8192_S128x8192 j l
/-- the read-out's one bias over the 8192 lanes -/
theorem cellOver (v : FVec Ideal S1x1 .f32) (u : Fin 1) (l : Fin 8192) :
    broadcastTo S1x8192 v broadcasts_S1x1_S1x8192 (ix2 u l) = v (ix2 (0 : Fin 1) (0 : Fin 1)) :=
  Cert.Column.broadcastTo_11_ab_apply v broadcasts_S1x1_S1x8192 u l

/-! ## The two payloads -/

/-- the activations after the second hidden layer, at unit j and lane l -/
theorem pay2_apply (v0 : Vec Ideal S4x8192 .f32) (v6 : Vec Ideal S128x4 .f32) (v27 : Vec Ideal S128x1 .f32) (v34 : Vec Ideal S128x128 .bf16)
    (v37 : Vec Ideal S128x1 .f32) (j : Fin 128) (l : Fin 8192) :
    k0_pay2 (F := Ideal) v0 v6 v27 v34 v37 (ix2 j l) = hid v34 v37 (hid0 v6 v27 (fun k => v0 (ix2 k l))) j := by
  unfold k0_pay2
  simp only [truncf_apply, maximumf_apply, addf_apply, mulf_apply, broadcast_apply, mm128, colOver, rowOver,
    featRow0, featRow1, featRow2, featRow3, w0Col0, w0Col1, w0Col2, w0Col3, shapeCast_self]
  unfold hid hid0
  simp only [Ideal.ofBits_def, Ideal.ofBits_zero_f32]

/-- the stored row at lane l: the read-out of the third hidden layer over the second -/
theorem pay1_apply (v43 : FVec Ideal S128x8192 .bf16) (v44 : Vec Ideal S128x128 .bf16) (v47 : Vec Ideal S128x1 .f32) (v54 : Vec Ideal S1x128 .bf16)
    (v57 : Vec Ideal S1x1 .f32) (u w : Fin 1) (l : Fin 8192) :
    k0_pay1 (F := Ideal) v43 v44 v47 v54 v57 (ix3 u w l) = readout v54 v57 (hid v44 v47 (fun k => v43 (ix2 k l))) := by
  unfold k0_pay1
  rw [shapeCast_ab_1ab_apply]
  simp only [truncf_apply, maximumf_apply, addf_apply, broadcast_apply, mm1, mm128, colOver, cellOver, shapeCast_self]
  unfold readout hid
  simp only [Ideal.ofBits_def, Ideal.ofBits_zero_f32]
  obtain rfl : w = 0 := Subsingleton.elim _ _
  rfl

end Cert.KernelIdeal.Tile

end
-- ==== Proof.TileArray.lean ====
/-
  FROM THE 98 TILES TO THE WHOLE MESSAGE ARRAY.

  The region's output array has shape 98 × 1 × 8192; tile t writes back row t of it, whole, and reads column block t of
  the 4 × 802816 feature array (columns 8192·t … 8192·t + 8191) together with the eight weight and bias arrays, whole,
  at every tile. So the rows the tiles write are the rows of ONE function of the arrays the region was handed: entry
  (t, 0, l) is the transposed-arrangement message (Tile.tileMsg) of column 8192·t + l of the feature array (msgArr).
  Every entry of the output array lies in exactly the row of its first coordinate, so after the last tile the whole
  array is msgArr (final).
-/
import proofs.«181314_j28269474742524_2_alg».proof.Proof.KernelIdealLaunched
import proofs.«181314_j28269474742524_2_alg».proof.Proof.TileValue
import Idealize.ShloMosaic.Lib.Pipeline.Value

set_option maxRecDepth 16384

noncomputable section

namespace Cert.KernelIdeal.Region

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Launched

variable (m : (ℓ : Loc nD τ sig) → Buf (Elt Ideal) ℓ)

theorem hz2 : (![0, 0] : Fin 2 → Nat) = fun _ => 0 := funext fun a => by fin_cases a <;> rfl
theorem hz3 : (![0, 0, 0] : Fin 3 → Nat) = fun _ => 0 := funext fun a => by fin_cases a <;> rfl

/-- The row a tile leaves is the second payload over the first, of the nine blocks themselves: each load takes its whole
    buffer and the one store fills the whole row. -/
theorem rowOf_eq (x0 : Vec Ideal S4x8192 .f32) (x1 : Vec Ideal S128x4 .f32) (x2 : Vec Ideal S128x1 .f32) (x3 : Vec Ideal S128x128 .bf16)
    (x4 : Vec Ideal S128x1 .f32) (x5 : Vec Ideal S128x128 .bf16) (x6 : Vec Ideal S128x1 .f32) (x7 : Vec Ideal S1x128 .bf16) (x8 : Vec Ideal S1x1 .f32) :
    rowOf (F := Ideal) x0 x1 x2 x3 x4 x5 x6 x7 x8 = k0_pay1 (k0_pay2 x0 x1 x2 x3 x4) x5 x6 x7 x8 := by
  unfold rowOf
  rw [View.canon_unit_zero hz3]
  simp only [View.ld_unit_zero (S := S4x8192) hz2, View.ld_unit_zero (S := S128x4) hz2, View.ld_unit_zero (S := S128x1) hz2,
    View.ld_unit_zero (S := S128x128) hz2, View.ld_unit_zero (S := S1x128) hz2, View.ld_unit_zero (S := S1x1) hz2]

/-- Lane l of that row is the message of column l of the feature block. -/
theorem rowOf_apply (x0 : Vec Ideal S4x8192 .f32) (x1 : Vec Ideal S128x4 .f32) (x2 : Vec Ideal S128x1 .f32) (x3 : Vec Ideal S128x128 .bf16)
    (x4 : Vec Ideal S128x1 .f32) (x5 : Vec Ideal S128x128 .bf16) (x6 : Vec Ideal S128x1 .f32) (x7 : Vec Ideal S1x128 .bf16) (x8 : Vec Ideal S1x1 .f32)
    (u w : Fin 1) (l : Fin 8192) :
    rowOf (F := Ideal) x0 x1 x2 x3 x4 x5 x6 x7 x8 (ix3 u w l) = Tile.tileMsg x1 x2 x3 x4 x5 x6 x7 x8 (fun k => x0 (ix2 k l)) := by
  rw [rowOf_eq, Tile.pay1_apply]
  simp only [Tile.pay2_apply]
  rfl

/-- The printed index maps, decided over the 98 tiles: the feature window moves along the columns with the tile, the
    eight weight and bias windows stay at their one block, the output window moves along the rows with the tile. -/
theorem idx_facts : ∀ t : Fin cfg0.N,
    win0_0.index t (0 : Fin 2) = 0 ∧ win0_0.index t (1 : Fin 2) = t.val
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 3) = t.val ∧ win0_9.index t (1 : Fin 3) = 0 ∧ win0_9.index t (2 : Fin 3) = 0 :=
  (by decide +kernel : ∀ t : Fin grid0.N, _)

/-- The message array as one function of the arrays the region is handed: entry (t, 0, l) is the message of column
    8192·t + l of the feature array. -/
def msgArr (c : Dev nD) : S98x1x8192.Idx → EReal := fun i =>
  Tile.tileMsg (V m c main_v47) (V m c main_v54) (V m c main_v49) (V m c main_v55) (V m c main_v51) (V m c main_v56)
    (V m c main_v53) (V m c main_v57)
    (fun k => (V m c main_v46 : S4x802816.Idx → EReal) (ix2 k ⟨(i 0).val * 8192 + (i 2).val, by
      have h0 : (i 0).val < 98 := (i 0).isLt
      have h2 : (i 2).val < 8192 := (i 2).isLt
      omega⟩))

/-- Window 1's block is its whole array at every tile. -/
theorem blk1 (c : Dev nD) (t : Fin cfg0.N) : (iblk m c 1 t : S128x4.Idx → _) = V m c main_v47 := by
  obtain ⟨-, -, e0, e1, -, -, -, -, -, -, -, -, -, -, -, -, -, -, -, -, -⟩ := idx_facts t
  funext y
  show V m c main_v47 (((cfg0.win 1).blk t).view.emb y) = V m c main_v47 y
  refine congrArg (V m c main_v47) (funext fun a => Fin.ext ?_)
  match a with
  | ⟨0, _⟩ => show win0_1.index t (0 : Fin 2) * 128 + 1 * (y 0).val = (y 0).val; omega
  | ⟨1, _⟩ => show win0_1.index t (1 : Fin 2) * 4 + 1 * (y 1).val = (y 1).val; omega
/-- Window 2's block is its whole array at every tile. -/
theorem blk2 (c : Dev nD) (t : Fin cfg0.N) : (iblk m c 2 t : S128x1.Idx → _) = V m c main_v54 := by
  obtain ⟨-, -, -, -, e0, e1, -, -, -, -, -, -, -, -, -, -, -, -, -, -, -⟩ := idx_facts t
  funext y
  show V m c main_v54 (((cfg0.win 2).blk t).view.emb y) = V m c main_v54 y
  refine congrArg (V m c main_v54) (funext fun a => Fin.ext ?_)
  match a with
  | ⟨0, _⟩ => show win0_2.index t (0 : Fin 2) * 128 + 1 * (y 0).val = (y 0).val; omega
  | ⟨1, _⟩ => show win0_2.index t (1 : Fin 2) * 1 + 1 * (y 1).val = (y 1).val; omega
/-- Window 3's block is its whole array at every tile. -/
theorem blk3 (c : Dev nD) (t : Fin cfg0.N) : (iblk m c 3 t : S128x128.Idx → _) = V m c main_v49 := by
  obtain ⟨-, -, -, -, -, -, e0, e1, -, -, -, -, -, -, -, -, -, -, -, -, -⟩ := idx_facts t
  funext y
  show V m c main_v49 (((cfg0.win 3).blk t).view.emb y) = V m c main_v49 y
  refine congrArg (V m c main_v49) (funext fun a => Fin.ext ?_)
  match a with
  | ⟨0, _⟩ => show win0_3.index t (0 : Fin 2) * 128 + 1 * (y 0).val = (y 0).val; omega
  | ⟨1, _⟩ => show win0_3.index t (1 : Fin 2) * 128 + 1 * (y 1).val = (y 1).val; omega
/-- Window 4's block is its whole array at every tile. -/
theorem blk4 (c : Dev nD) (t : Fin cfg0.N) : (iblk m c 4 t : S128x1.Idx → _) = V m c main_v55 := by
  obtain ⟨-, -, -, -, -, -, -, -, e0, e1, -, -, -, -, -, -, -, -, -, -, -⟩ := idx_facts t
  funext y
  show V m c main_v55 (((cfg0.win 4).blk t).view.emb y) = V m c main_v55 y
  refine congrArg (V m c main_v55) (funext fun a => Fin.ext ?_)
  match a with
  | ⟨0, _⟩ => show win0_4.index t (0 : Fin 2) * 128 + 1 * (y 0).val = (y 0).val; omega
  | ⟨1, _⟩ => show win0_4.index t (1 : Fin 2) * 1 + 1 * (y 1).val = (y 1).val; omega
/-- Window 5's block is its whole array at every tile. -/
theorem blk5 (c : Dev nD) (t : Fin cfg0.N) : (iblk m c 5 t : S128x128.Idx → _) = V m c main_v51 := by
  obtain ⟨-, -, -, -, -, -, -, -, -, -, e0, e1, -, -, -, -, -, -, -, -, -⟩ := idx_facts t
  funext y
  show V m c main_v51 (((cfg0.win 5).blk t).view.emb y) = V m c main_v51 y
  refine congrArg (V m c main_v51) (funext fun a => Fin.ext ?_)
  match a with
  | ⟨0, _⟩ => show win0_5.index t (0 : Fin 2) * 128 + 1 * (y 0).val = (y 0).val; omega
  | ⟨1, _⟩ => show win0_5.index t (1 : Fin 2) * 128 + 1 * (y 1).val = (y 1).val; omega
/-- Window 6's block is its whole array at every tile. -/
theorem blk6 (c : Dev nD) (t : Fin cfg0.N) : (iblk m c 6 t : S128x1.Idx → _) = V m c main_v56 := by
  obtain ⟨-, -, -, -, -, -, -, -, -, -, -, -, e0, e1, -, -, -, -, -, -, -⟩ := idx_facts t
  funext y
  show V m c main_v56 (((cfg0.win 6).blk t).view.emb y) = V m c main_v56 y
  refine congrArg (V m c main_v56) (funext fun a => Fin.ext ?_)
  match a with
  | ⟨0, _⟩ => show win0_6.index t (0 : Fin 2) * 128 + 1 * (y 0).val = (y 0).val; omega
  | ⟨1, _⟩ => show win0_6.index t (1 : Fin 2) * 1 + 1 * (y 1).val = (y 1).val; omega
/-- Window 7's block is its whole array at every tile. -/
theorem blk7 (c : Dev nD) (t : Fin cfg0.N) : (iblk m c 7 t : S1x128.Idx → _) = V m c main_v53 := by
  obtain ⟨-, -, -, -, -, -, -, -, -, -, -, -, -, -, e0, e1, -, -, -, -, -⟩ := idx_facts t
  funext y
  show V m c main_v53 (((cfg0.win 7).blk t).view.emb y) = V m c main_v53 y
  refine congrArg (V m c main_v53) (funext fun a => Fin.ext ?_)
  match a with
  | ⟨0, _⟩ => show win0_7.index t (0 : Fin 2) * 1 + 1 * (y 0).val = (y 0).val; omega
  | ⟨1, _⟩ => show win0_7.index t (1 : Fin 2) * 128 + 1 * (y 1).val = (y 1).val; omega
/-- Window 8's block is its whole array at every tile. -/
theorem blk8 (c : Dev nD) (t : Fin cfg0.N) : (iblk m c 8 t : S1x1.Idx → _) = V m c main_v57 := by
  obtain ⟨-, -, -, -, -, -, -, -, -, -, -, -, -, -, -, -, e0, e1, -, -, -⟩ := idx_facts t
  funext y
  show V m c main_v57 (((cfg0.win 8).blk t).view.emb y) = V m c main_v57 y
  refine congrArg (V m c main_v57) (funext fun a => Fin.ext ?_)
  match a with
  | ⟨0, _⟩ => show win0_8.index t (0 : Fin 2) * 1 + 1 * (y 0).val = (y 0).val; omega
  | ⟨1, _⟩ => show win0_8.index t (1 : Fin 2) * 1 + 1 * (y 1).val = (y 1).val; omega

/-- What tile t writes back is row t of msgArr. -/
theorem flushed_eq (c : Dev nD) (t : Fin cfg0.N) :
    (dats m 0 c).flushed 9 t = ((cfg0.win 9).blk t).view.read (Elt Ideal) (msgArr m c) := by
  show (cfg0.win 9).cut (grid0.coords t) ((dats m 0 c).after 9 t) = _
  rw [after9]
  obtain ⟨f0, f1, -, -, -, -, -, -, -, -, -, -, -, -, -, -, -, -, g0, g1, g2⟩ := idx_facts t
  funext y
  obtain ⟨u, w, l, rfl⟩ : ∃ (u w : Fin 1) (l : Fin 8192), y = ix3 u w l := ⟨y 0, y 1, y 2, eq_ix3 y⟩
  show rowOf (iblk m c 0 t) (iblk m c 1 t) (iblk m c 2 t) (iblk m c 3 t) (iblk m c 4 t) (iblk m c 5 t) (iblk m c 6 t) (iblk m c 7 t) (iblk m c 8 t) (ix3 u w l)
    = msgArr m c (((cfg0.win 9).blk t).view.emb (ix3 u w l))
  refine (rowOf_apply (iblk m c 0 t) (iblk m c 1 t) (iblk m c 2 t) (iblk m c 3 t) (iblk m c 4 t) (iblk m c 5 t) (iblk m c 6 t) (iblk m c 7 t) (iblk m c 8 t) u w l).trans ?_
  rw [blk1, blk2, blk3, blk4, blk5, blk6, blk7, blk8]
  unfold msgArr
  congr 1
  funext k
  show V m c main_v46 (((cfg0.win 0).blk t).view.emb (ix2 k l)) = V m c main_v46 _
  refine congrArg (V m c main_v46) (funext fun a => Fin.ext ?_)
  have hu : u.val = 0 := by omega
  match a with
  | ⟨0, _⟩ => show win0_0.index t (0 : Fin 2) * 4 + 1 * k.val = k.val; omega
  | ⟨1, _⟩ =>
    show win0_0.index t (1 : Fin 2) * 8192 + 1 * l.val
      = (win0_9.index t (0 : Fin 3) * 1 + 1 * u.val) * 8192 + (win0_9.index t (2 : Fin 3) * 8192 + 1 * l.val)
    omega

/-- An index of the output array is in tile t's row iff each coordinate is in the row's range on its axis. -/
theorem mem_blk (t : Fin cfg0.N) (i : S98x1x8192.Idx) :
    i ∈ ((cfg0.win 9).blk t).view.set ↔ ∀ a : Fin 3, win0_9.index t a * S1x1x8192.size a ≤ (i a).val
      ∧ (i a).val < win0_9.index t a * S1x1x8192.size a + S1x1x8192.size a := by
  show i ∈ ((View.whole main_v58).slice (win0_9.rect t)).set ↔ _
  rw [View.set_slice_whole, Rect.mem_set_unit]
  exact Iff.rfl

/-- Every entry of the output array is in the row of its first coordinate. -/
theorem cover (i : S98x1x8192.Idx) : ∃ t : Fin cfg0.N, (cfg0.win 9).flush t = true ∧ i ∈ ((cfg0.win 9).blk t).view.set := by
  have h0 : (i 0).val < 98 := (i 0).isLt
  have h1 : (i 1).val < 1 := (i 1).isLt
  have h2 : (i 2).val < 8192 := (i 2).isLt
  let t : Fin cfg0.N := Fin.cast N_0.symm ⟨(i 0).val, h0⟩
  have ht : t.val = (i 0).val := rfl
  obtain ⟨-, -, -, -, -, -, -, -, -, -, -, -, -, -, -, -, -, -, g0, g1, g2⟩ := idx_facts t
  refine ⟨t, flush0_9 t, ?_⟩
  rw [mem_blk]
  intro a
  match a with
  | ⟨0, _⟩ => show win0_9.index t (0 : Fin 3) * 1 ≤ (i 0).val ∧ (i 0).val < win0_9.index t (0 : Fin 3) * 1 + 1; omega
  | ⟨1, _⟩ => show win0_9.index t (1 : Fin 3) * 1 ≤ (i 1).val ∧ (i 1).val < win0_9.index t (1 : Fin 3) * 1 + 1; omega
  | ⟨2, _⟩ => show win0_9.index t (2 : Fin 3) * 8192 ≤ (i 2).val ∧ (i 2).val < win0_9.index t (2 : Fin 3) * 8192 + 8192; omega

/-- THE ARRAY AFTER THE RUN: msgArr of the arrays the region was handed. -/
theorem final (c : Dev nD) : (dats m 0 c).arrAt 9 cfg0.N = msgArr m c :=
  (dats m 0 c).arrAt_eq_of_cover 9 (msgArr m c) (fun t _ => flushed_eq m c t) cover

end Cert.KernelIdeal.Region

end
-- ==== Proof.LibStageRead.lean ====
/-
  Reading ONE operation's result inside a long line of host operations.
  `StableHlo.after ops V` folds the operations over the buffers' contents `V`. When the line is in single-assignment form —
  the references it writes are listed, in order, by `dsts`, and no later operation writes them again — the contents of the
  buffer `y` that the operation at position `i` writes, after the WHOLE line, are that operation's function of the contents,
  after the whole line, of the buffers it reads: nothing after position `i` writes `y`, and nothing from position `i` on writes
  a buffer it reads. One lemma per shape of operation (no operand, one, two, three, a reshape, four operands packed),
  each closed at a literal line by `rfl` (the operation at position `i`) and `decide` (the two non-memberships).
-/
import Idealize.ShloMosaic.Lib.StableHlo.Run

namespace Idealize.ShloMosaic.StableHlo

variable {τ : Topo} {sig : RefSig} {Val : EltTy → Type}

/-- The line `ops` writes, operation by operation, at most the references `dsts` lists, in order. -/
def WritesAre (ops : List (HloOp τ sig Val)) (dsts : List (Ref sig .tc)) : Prop :=
  List.Forall₂ (fun op d => op.writes ⊆ ({Proc.devRef (τ := τ) .tc d} : Finset (DevRef τ sig))) ops dsts

theorem WritesAre.forall_sub {ops : List (HloOp τ sig Val)} {dsts : List (Ref sig .tc)} (h : WritesAre ops dsts) :
    ops.Forall fun op => op.writes ⊆ (dsts.map (Proc.devRef (τ := τ) .tc)).toFinset := by
  induction h with
  | nil => exact trivial
  | @cons op d ops dsts hd _ ih =>
    rw [List.forall_cons]
    refine ⟨fun b hb => ?_, ?_⟩
    · rw [Finset.mem_singleton.mp (hd hb)]; simp
    · exact List.forall_iff_forall_mem.mpr fun o ho b hb => by
        have := (List.forall_iff_forall_mem.mp ih) o ho hb
        simp only [List.map_cons, List.toFinset_cons, Finset.mem_insert]; exact Or.inr this

theorem WritesAre.drop {ops : List (HloOp τ sig Val)} {dsts : List (Ref sig .tc)} (h : WritesAre ops dsts) (n : ℕ) :
    WritesAre (ops.drop n) (dsts.drop n) := List.forall₂_drop n h

/-- The line run whole is its first `n` operations, then the rest. -/
theorem after_take_drop (ops : List (HloOp τ sig Val)) (n : ℕ) (V : Valuation τ sig Val) :
    after ops V = after (ops.drop n) (after (ops.take n) V) := by
  conv_lhs => rw [← List.take_append_drop n ops]
  induction ops.take n generalizing V with
  | nil => rfl
  | cons op l ih => exact ih (op.result V)

/-- A reference nothing from position `n` on writes holds, after the whole line, what the first `n` operations leave. -/
theorem after_keep_from {ops : List (HloOp τ sig Val)} {dsts : List (Ref sig .tc)} (h : WritesAre ops dsts) (n : ℕ)
    {r : Ref sig .tc} (hr : r ∉ dsts.drop n) (V : Valuation τ sig Val) :
    after ops V (Proc.devRef .tc r) = after (ops.take n) V (Proc.devRef .tc r) := by
  rw [after_take_drop ops n V]
  exact after_of_writes_sub _ _ (h.drop n).forall_sub hr

/-- What the operation at position `i` writes holds, after the whole line, what that operation left there. -/
theorem after_read_at {ops : List (HloOp τ sig Val)} {dsts : List (Ref sig .tc)} (h : WritesAre ops dsts) (i : ℕ)
    {op : HloOp τ sig Val} (hop : ops[i]? = some op) {y : Ref sig .tc} (hy : y ∉ dsts.drop (i + 1)) (V : Valuation τ sig Val) :
    after ops V (Proc.devRef .tc y) = op.result (after (ops.take i) V) (Proc.devRef .tc y) := by
  rw [after_keep_from h (i + 1) hy V, List.take_succ, hop]
  show after (ops.take i ++ [op]) V _ = _
  induction ops.take i generalizing V with
  | nil => rfl
  | cons o l ih => exact ih (o.result V)

section Shapes

variable {ops : List (HloOp τ sig Val)} {dsts : List (Ref sig .tc)} (h : WritesAre ops dsts) (i : ℕ) (V : Valuation τ sig Val)
include h

theorem read_nullary {y : Ref sig .tc} {v : y.ty.Contents Val} {hy}
    (hop : ops[i]? = some (nullary (τ := τ) y v hy)) (hy' : y ∉ dsts.drop (i + 1)) :
    after ops V (Proc.devRef .tc y) = v := by
  rw [after_read_at h i hop hy' V, nullary_result]

theorem read_unary {x y : Ref sig .tc} {f : x.ty.Contents Val → y.ty.Contents Val} {hx hy}
    (hop : ops[i]? = some (unary (τ := τ) x y f hx hy)) (hy' : y ∉ dsts.drop (i + 1)) (hx' : x ∉ dsts.drop i) :
    after ops V (Proc.devRef .tc y) = f (after ops V (Proc.devRef .tc x)) := by
  rw [after_read_at h i hop hy' V, unary_result, after_keep_from h i hx' V]

theorem read_binary {a b y : Ref sig .tc} {f : a.ty.Contents Val → b.ty.Contents Val → y.ty.Contents Val} {ha hb hy}
    (hop : ops[i]? = some (binary (τ := τ) a b y f ha hb hy)) (hy' : y ∉ dsts.drop (i + 1))
    (ha' : a ∉ dsts.drop i) (hb' : b ∉ dsts.drop i) :
    after ops V (Proc.devRef .tc y) = f (after ops V (Proc.devRef .tc a)) (after ops V (Proc.devRef .tc b)) := by
  rw [after_read_at h i hop hy' V, binary_result, after_keep_from h i ha' V, after_keep_from h i hb' V]

theorem read_ternary {c a b y : Ref sig .tc} {f : c.ty.Contents Val → a.ty.Contents Val → b.ty.Contents Val → y.ty.Contents Val} {hc ha hb hy}
    (hop : ops[i]? = some (ternary (τ := τ) c a b y f hc ha hb hy)) (hy' : y ∉ dsts.drop (i + 1))
    (hc' : c ∉ dsts.drop i) (ha' : a ∉ dsts.drop i) (hb' : b ∉ dsts.drop i) :
    after ops V (Proc.devRef .tc y)
      = f (after ops V (Proc.devRef .tc c)) (after ops V (Proc.devRef .tc a)) (after ops V (Proc.devRef .tc b)) := by
  rw [after_read_at h i hop hy' V, ternary_result, after_keep_from h i hc' V, after_keep_from h i ha' V, after_keep_from h i hb' V]

theorem read_reshape {x y : Ref sig .tc} {he : x.ty.elt = y.ty.elt} {hn : x.ty.shape.ShapeCasts y.ty.shape} {hx hy}
    (hop : ops[i]? = some (reshape (τ := τ) (Val := Val) x y he hn hx hy)) (hy' : y ∉ dsts.drop (i + 1)) (hx' : x ∉ dsts.drop i) :
    after ops V (Proc.devRef .tc y) = fun j => he ▸ shapeCast y.ty.shape (after ops V (Proc.devRef .tc x)) hn j := by
  rw [after_read_at h i hop hy' V, reshape_result, after_keep_from h i hx' V]

theorem read_nary4 {x a b c y : Ref sig .tc}
    {f : ((k : Fin 4) → ((![x, a, b, c] : Fin 4 → Ref sig .tc) k).ty.Contents Val) → y.ty.Contents Val} {hxs hy}
    (hop : ops[i]? = some (nary (τ := τ) ![x, a, b, c] y f hxs hy)) (hy' : y ∉ dsts.drop (i + 1))
    (hx' : x ∉ dsts.drop i) (ha' : a ∉ dsts.drop i) (hb' : b ∉ dsts.drop i) (hc' : c ∉ dsts.drop i) :
    after ops V (Proc.devRef .tc y)
      = f (Fin.cons (after ops V (Proc.devRef .tc x)) (Fin.cons (after ops V (Proc.devRef .tc a))
          (Fin.cons (after ops V (Proc.devRef .tc b)) (Fin.cons (after ops V (Proc.devRef .tc c)) (fun j => j.elim0))))) := by
  rw [after_read_at h i hop hy' V, nary4_result, after_keep_from h i hx' V, after_keep_from h i ha' V,
    after_keep_from h i hb' V, after_keep_from h i hc' V]

end Shapes

end Idealize.ShloMosaic.StableHlo
-- ==== Proof.KernelHostBefore.lean ====
/-
  THE HOST LINES BEFORE THE REGION, READ AT AN INDEX.

  Before its one region the kernel program runs 64 host operations on whole arrays. They compute
    * the node velocities: the speed times (cos θ, sin θ), a whole-array term of the polarity angles and the speed;
    * the edge features, feature-major: the node table [x | θ] is read twice through the two index vectors (a negative
      index first moved up by the number of nodes, then clamped by the read itself), the two gathered tables are cut
      into position and angle columns, the displacement is rotated into the source's frame, the cosine and sine of the
      angle difference are taken, and the four columns are laid out as the four rows of a 4 × 800000 matrix, padded
      with zeros to 4 × 802816 (98 tiles of 8192 edges);
    * the weights transposed and the biases as columns.
  This file says what each of these arrays holds at an index, in terms of the argument arrays: entry (k, e) of the
  padded matrix is feature k of edge e of the edge network for e < 800000 and zero beyond; entry (j, k) of a transposed
  weight matrix is entry (k, j) of the weight matrix; entry (j, 0) of a bias column is entry j of the bias.

  The 64 operations are in single-assignment form (each writes a buffer of its own, once), so the buffer an operation
  writes holds, after all 64, that operation's function of what its operands hold after all 64; the arrays are read off
  operation by operation from the result back to the arguments, which no operation writes.
-/
import proofs.«181314_j28269474742524_2_alg».proof.Proof.Gen.KernelIdeal.Launch
import proofs.«181314_j28269474742524_2_alg».proof.Proof.EdgeNet
import proofs.«181314_j28269474742524_2_alg».proof.Proof.LibRowAggregate
import proofs.«181314_j28269474742524_2_alg».proof.Proof.LibStageRead
import Idealize.ShloMosaic.Lib.ValueIdx
import Idealize.ShloMosaic.Lib.ValueLayout
import Idealize.ShloMosaic.Lib.Pipeline.Value
import Idealize.ShloMosaic.Lib.KernelVsHost
import Idealize.ShloMosaic.Lib.IdealHost
import Idealize.ShloMosaic.Lib.StableHlo.Run
import Idealize.ShloMosaic.PureOps.Ideal

set_option maxRecDepth 16384

noncomputable section

namespace Cert.KernelIdeal.HostLines

open Idealize.ShloMosaic Idealize.ShloMosaic.ValueIdx Idealize.ShloMosaic.TcCoe
open Cert.KernelIdeal Cert.KernelIdeal.Gen

/-! ## The terms the host lines compute -/

/-- An index vector as the gather reads it: a negative entry is moved up by the number of table rows, and the vector
    is laid out as a column. -/
abbrev srcCol (a : IVec S800000 32) : IVec S800000x1 32 :=
  broadcastInDim S800000x1 ![0] bcast_S800000_S800000x1_0
    (select (cmpi .slt a (broadcastInDim S800000 ![] bcast_S_S800000 (constantI S_ 32 0#32)))
      (addi a (broadcastInDim S800000 ![] bcast_S_S800000 (constantI S_ 32 50000#32))) a)

/-- The node velocities: the speed times the unit vector at the polarity angle. -/
abbrev velocityTerm (th : FVec Ideal S50000x1 .f32) (v : FVec Ideal S_ .f32) : FVec Ideal S50000x2 .f32 :=
  mulf (broadcastInDim S50000x2 ![] bcast_S_S50000x2 v)
    (concatenate S50000x2 1 [⟨S50000x1, Host.cos th⟩, ⟨S50000x1, Host.sin th⟩] concatenates_S50000x1_S50000x1_S50000x2_d1)

/-- The node table: position and polarity angle side by side. -/
abbrev table (x : FVec Ideal S50000x2 .f32) (θ : FVec Ideal S50000x1 .f32) : FVec Ideal S50000x3 .f32 :=
  concatenate S50000x3 1 [⟨S50000x2, x⟩, ⟨S50000x1, θ⟩] concatenates_S50000x2_S50000x1_S50000x3_d1

/-- The table rows the edges read through an index vector. -/
abbrev rowsOf (x : FVec Ideal S50000x2 .f32) (θ : FVec Ideal S50000x1 .f32) (a : IVec S800000 32) : FVec Ideal S800000x3 .f32 :=
  Host.gather gather_S50000x3_S800000x1_S800000x3_1_0_n_n_0_1_13 (table x θ) (srcCol a)

section Feat
variable (gS gD : FVec Ideal S800000x3 .f32)

/-- the source's angle, per edge -/
abbrev thS : FVec Ideal S800000x1 .f32 := extractStridedSlice S800000x1 ![0, 2] gS slices_S800000x3_S800000x1_0_2
/-- the displacement target − source, per edge -/
abbrev dPos : FVec Ideal S800000x2 .f32 :=
  subf (extractStridedSlice S800000x2 ![0, 0] gD slices_S800000x3_S800000x2_0_0)
    (extractStridedSlice S800000x2 ![0, 0] gS slices_S800000x3_S800000x2_0_0)
/-- the angle difference target − source, per edge -/
abbrev dTh : FVec Ideal S800000x1 .f32 :=
  subf (extractStridedSlice S800000x1 ![0, 2] gD slices_S800000x3_S800000x1_0_2) (thS gS)
abbrev dr0 : FVec Ideal S800000x1 .f32 := extractStridedSlice S800000x1 ![0, 0] (dPos gS gD) slices_S800000x2_S800000x1_0_0
abbrev dr1 : FVec Ideal S800000x1 .f32 := extractStridedSlice S800000x1 ![0, 1] (dPos gS gD) slices_S800000x2_S800000x1_0_1
/-- the displacement in the source's frame, first coordinate -/
abbrev dxCol : FVec Ideal S800000x1 .f32 :=
  addf (mulf (dr0 gS gD) (Host.cos (thS gS))) (mulf (dr1 gS gD) (Host.sin (thS gS)))
/-- the displacement in the source's frame, second coordinate -/
abbrev dyCol : FVec Ideal S800000x1 .f32 :=
  addf (mulf (Host.negf (dr0 gS gD)) (Host.sin (thS gS))) (mulf (dr1 gS gD) (Host.cos (thS gS)))
abbrev cCol : FVec Ideal S800000x1 .f32 := Host.cos (dTh gS gD)
abbrev sCol : FVec Ideal S800000x1 .f32 := Host.sin (dTh gS gD)

/-- four columns laid out as the four rows of a feature-major matrix -/
abbrev rows4 (c0 c1 c2 c3 : FVec Ideal S800000x1 .f32) : FVec Ideal S4x800000 .f32 :=
  concatenate S4x800000 0
    [⟨S1x800000, transpose S1x800000 [1, 0] c0 transposes_S800000x1_S1x800000_1_0⟩,
     ⟨S1x800000, transpose S1x800000 [1, 0] c1 transposes_S800000x1_S1x800000_1_0⟩,
     ⟨S1x800000, transpose S1x800000 [1, 0] c2 transposes_S800000x1_S1x800000_1_0⟩,
     ⟨S1x800000, transpose S1x800000 [1, 0] c3 transposes_S800000x1_S1x800000_1_0⟩]
    concatenates_S1x800000_S1x800000_S1x800000_S1x800000_S4x800000_d0

/-- the feature matrix padded with zeros to a whole number of tiles -/
abbrev featPad : FVec Ideal S4x802816 .f32 :=
  pad S4x802816 ![0, 0] ![0, 2816] ![0, 0] (rows4 (dxCol gS gD) (dyCol gS gD) (cCol gS gD) (sCol gS gD))
    (sitofp .f32 (constantI S_ 32 0#32)) pads_S4x800000_S4x802816_000_028160 h_S_

end Feat

/-! ## Reading the terms at an index -/

section FeatRead
variable (gS gD : FVec Ideal S800000x3 .f32)

/-- The four features of edge e from the two gathered tables: columns 0, 1 hold the position, column 2 the angle. -/
def featOf (e : Fin 800000) : Fin 4 → EReal :=
  ![(gD (ix2 e (0 : Fin 3)) - gS (ix2 e (0 : Fin 3))) * Ideal.cos (gS (ix2 e (2 : Fin 3)))
      + (gD (ix2 e (1 : Fin 3)) - gS (ix2 e (1 : Fin 3))) * Ideal.sin (gS (ix2 e (2 : Fin 3))),
    (-(gD (ix2 e (0 : Fin 3)) - gS (ix2 e (0 : Fin 3)))) * Ideal.sin (gS (ix2 e (2 : Fin 3)))
      + (gD (ix2 e (1 : Fin 3)) - gS (ix2 e (1 : Fin 3))) * Ideal.cos (gS (ix2 e (2 : Fin 3))),
    Ideal.cos (gD (ix2 e (2 : Fin 3)) - gS (ix2 e (2 : Fin 3))),
    Ideal.sin (gD (ix2 e (2 : Fin 3)) - gS (ix2 e (2 : Fin 3)))]

theorem thS_apply (e : Fin 800000) : thS gS (ix2 e (0 : Fin 1)) = gS (ix2 e (2 : Fin 3)) :=
  slice2_axis1_apply 2 gS slices_S800000x3_S800000x1_0_2 e (0 : Fin 1) (2 : Fin 3) rfl

theorem dTh_apply (e : Fin 800000) :
    dTh gS gD (ix2 e (0 : Fin 1)) = gD (ix2 e (2 : Fin 3)) - gS (ix2 e (2 : Fin 3)) :=
  congrArg₂ (· - ·) (slice2_axis1_apply 2 gD slices_S800000x3_S800000x1_0_2 e (0 : Fin 1) (2 : Fin 3) rfl)
    (thS_apply gS e)

theorem dr0_apply (e : Fin 800000) :
    dr0 gS gD (ix2 e (0 : Fin 1)) = gD (ix2 e (0 : Fin 3)) - gS (ix2 e (0 : Fin 3)) :=
  (slice2_axis1_apply 0 (dPos gS gD) slices_S800000x2_S800000x1_0_0 e (0 : Fin 1) (0 : Fin 2) rfl).trans
    (congrArg₂ (· - ·) (slice2_axis1_apply 0 gD slices_S800000x3_S800000x2_0_0 e (0 : Fin 2) (0 : Fin 3) rfl)
      (slice2_axis1_apply 0 gS slices_S800000x3_S800000x2_0_0 e (0 : Fin 2) (0 : Fin 3) rfl))

theorem dr1_apply (e : Fin 800000) :
    dr1 gS gD (ix2 e (0 : Fin 1)) = gD (ix2 e (1 : Fin 3)) - gS (ix2 e (1 : Fin 3)) :=
  (slice2_axis1_apply 1 (dPos gS gD) slices_S800000x2_S800000x1_0_1 e (0 : Fin 1) (1 : Fin 2) rfl).trans
    (congrArg₂ (· - ·) (slice2_axis1_apply 0 gD slices_S800000x3_S800000x2_0_0 e (1 : Fin 2) (1 : Fin 3) rfl)
      (slice2_axis1_apply 0 gS slices_S800000x3_S800000x2_0_0 e (1 : Fin 2) (1 : Fin 3) rfl))

theorem dxCol_apply (e : Fin 800000) : dxCol gS gD (ix2 e (0 : Fin 1)) = featOf gS gD e 0 := by
  show dr0 gS gD (ix2 e (0 : Fin 1)) * Ideal.cos (thS gS (ix2 e (0 : Fin 1)))
      + dr1 gS gD (ix2 e (0 : Fin 1)) * Ideal.sin (thS gS (ix2 e (0 : Fin 1))) = _
  rw [dr0_apply, dr1_apply, thS_apply]
  rfl

theorem dyCol_apply (e : Fin 800000) : dyCol gS gD (ix2 e (0 : Fin 1)) = featOf gS gD e 1 := by
  show (-(dr0 gS gD (ix2 e (0 : Fin 1)))) * Ideal.sin (thS gS (ix2 e (0 : Fin 1)))
      + dr1 gS gD (ix2 e (0 : Fin 1)) * Ideal.cos (thS gS (ix2 e (0 : Fin 1))) = _
  rw [dr0_apply, dr1_apply, thS_apply]
  rfl

theorem cCol_apply (e : Fin 800000) : cCol gS gD (ix2 e (0 : Fin 1)) = featOf gS gD e 2 := by
  show Ideal.cos (dTh gS gD (ix2 e (0 : Fin 1))) = _
  rw [dTh_apply]
  rfl

theorem sCol_apply (e : Fin 800000) : sCol gS gD (ix2 e (0 : Fin 1)) = featOf gS gD e 3 := by
  show Ideal.sin (dTh gS gD (ix2 e (0 : Fin 1))) = _
  rw [dTh_apply]
  rfl

/-- Row k of the feature-major matrix is column k's entries. -/
theorem rows4_apply (c0 c1 c2 c3 : FVec Ideal S800000x1 .f32) (k : Fin 4) (e : Fin 800000) :
    rows4 c0 c1 c2 c3 (ix2 k e)
      = ![c0 (ix2 e (0 : Fin 1)), c1 (ix2 e (0 : Fin 1)), c2 (ix2 e (0 : Fin 1)), c3 (ix2 e (0 : Fin 1))] k := by
  have hi : ∀ b : Fin S1x800000.rank, b.cast (rfl : S1x800000.rank = S4x800000.rank) ≠ (0 : Fin S4x800000.rank) →
      ((ix2 (0 : Fin 1) e : S1x800000.Idx) b).val = ((ix2 k e : S4x800000.Idx) (b.cast rfl)).val := by
    intro b hb
    match b with
    | ⟨0, _⟩ => exact absurd rfl hb
    | ⟨1, _⟩ => rfl
  match k with
  | ⟨0, _⟩ =>
    refine (concatenate_apply_piece (t := S4x800000) 0 [⟨S1x800000, transpose S1x800000 [1, 0] c0 transposes_S800000x1_S1x800000_1_0⟩, ⟨S1x800000, transpose S1x800000 [1, 0] c1 transposes_S800000x1_S1x800000_1_0⟩, ⟨S1x800000, transpose S1x800000 [1, 0] c2 transposes_S800000x1_S1x800000_1_0⟩, ⟨S1x800000, transpose S1x800000 [1, 0] c3 transposes_S800000x1_S1x800000_1_0⟩] concatenates_S1x800000_S1x800000_S1x800000_S1x800000_S4x800000_d0
      (ix2 (⟨0, by omega⟩ : Fin 4) e) 0 (by show 0 < 4; omega) S1x800000 _ rfl rfl 0 (by simp) (ix2 (0 : Fin 1) e) hi rfl).trans ?_
    exact transpose_ix2_apply c0 transposes_S800000x1_S1x800000_1_0 (0 : Fin 1) e
  | ⟨1, _⟩ =>
    refine (concatenate_apply_piece (t := S4x800000) 0 [⟨S1x800000, transpose S1x800000 [1, 0] c0 transposes_S800000x1_S1x800000_1_0⟩, ⟨S1x800000, transpose S1x800000 [1, 0] c1 transposes_S800000x1_S1x800000_1_0⟩, ⟨S1x800000, transpose S1x800000 [1, 0] c2 transposes_S800000x1_S1x800000_1_0⟩, ⟨S1x800000, transpose S1x800000 [1, 0] c3 transposes_S800000x1_S1x800000_1_0⟩] concatenates_S1x800000_S1x800000_S1x800000_S1x800000_S4x800000_d0
      (ix2 (⟨1, by omega⟩ : Fin 4) e) 1 (by show 1 < 4; omega) S1x800000 _ rfl rfl 1 (by simp) (ix2 (0 : Fin 1) e) hi rfl).trans ?_
    exact transpose_ix2_apply c1 transposes_S800000x1_S1x800000_1_0 (0 : Fin 1) e
  | ⟨2, _⟩ =>
    refine (concatenate_apply_piece (t := S4x800000) 0 [⟨S1x800000, transpose S1x800000 [1, 0] c0 transposes_S800000x1_S1x800000_1_0⟩, ⟨S1x800000, transpose S1x800000 [1, 0] c1 transposes_S800000x1_S1x800000_1_0⟩, ⟨S1x800000, transpose S1x800000 [1, 0] c2 transposes_S800000x1_S1x800000_1_0⟩, ⟨S1x800000, transpose S1x800000 [1, 0] c3 transposes_S800000x1_S1x800000_1_0⟩] concatenates_S1x800000_S1x800000_S1x800000_S1x800000_S4x800000_d0
      (ix2 (⟨2, by omega⟩ : Fin 4) e) 2 (by show 2 < 4; omega) S1x800000 _ rfl rfl 2 (by simp) (ix2 (0 : Fin 1) e) hi rfl).trans ?_
    exact transpose_ix2_apply c2 transposes_S800000x1_S1x800000_1_0 (0 : Fin 1) e
  | ⟨3, _⟩ =>
    refine (concatenate_apply_piece (t := S4x800000) 0 [⟨S1x800000, transpose S1x800000 [1, 0] c0 transposes_S800000x1_S1x800000_1_0⟩, ⟨S1x800000, transpose S1x800000 [1, 0] c1 transposes_S800000x1_S1x800000_1_0⟩, ⟨S1x800000, transpose S1x800000 [1, 0] c2 transposes_S800000x1_S1x800000_1_0⟩, ⟨S1x800000, transpose S1x800000 [1, 0] c3 transposes_S800000x1_S1x800000_1_0⟩] concatenates_S1x800000_S1x800000_S1x800000_S1x800000_S4x800000_d0
      (ix2 (⟨3, by omega⟩ : Fin 4) e) 3 (by show 3 < 4; omega) S1x800000 _ rfl rfl 3 (by simp) (ix2 (0 : Fin 1) e) hi rfl).trans ?_
    exact transpose_ix2_apply c3 transposes_S800000x1_S1x800000_1_0 (0 : Fin 1) e

/-- The padded feature matrix at (k, e'): the feature k of edge e' for an edge position, zero in the padding. -/
theorem featPad_apply (k : Fin 4) (e' : Fin 802816) :
    featPad gS gD (ix2 k e') = if h : e'.val < 800000 then featOf gS gD ⟨e'.val, h⟩ k else (0 : EReal) := by
  by_cases h : e'.val < 800000
  · rw [dif_pos h]
    refine (pad_apply_of_inside (s := S4x800000) (t := S4x802816) ![0, 0] ![0, 2816] ![0, 0] (rows4 (dxCol gS gD) (dyCol gS gD) (cCol gS gD) (sCol gS gD)) (sitofp (F := Ideal) .f32 (constantI S_ 32 0#32)) pads_S4x800000_S4x802816_000_028160 h_S_
      (ix2 k e') (ix2 k (⟨e'.val, h⟩ : Fin 800000)) (fun a => by
        match a with
        | ⟨0, _⟩ => show k.val = 0 + k.val * (0 + 1); omega
        | ⟨1, _⟩ => show e'.val = 0 + e'.val * (0 + 1); omega)).trans ?_
    rw [rows4_apply, dxCol_apply, dyCol_apply, cCol_apply, sCol_apply]
    match k with
    | ⟨0, _⟩ => rfl
    | ⟨1, _⟩ => rfl
    | ⟨2, _⟩ => rfl
    | ⟨3, _⟩ => rfl
  · rw [dif_neg h]
    refine (pad_apply_of_not_inside (s := S4x800000) (t := S4x802816) ![0, 0] ![0, 2816] ![0, 0] (rows4 (dxCol gS gD) (dyCol gS gD) (cCol gS gD) (sCol gS gD)) (sitofp (F := Ideal) .f32 (constantI S_ 32 0#32)) pads_S4x800000_S4x802816_000_028160 h_S_
      (ix2 k e') (1 : Fin 2) (fun hin => h (by
        have e : (e'.val - 0) / (0 + 1) < 800000 := hin.2.2
        rw [Nat.sub_zero, Nat.div_one] at e
        exact e))).trans ?_
    show (((0#32 : BitVec 32).toInt : ℝ) : EReal) = 0
    rw [show (0#32 : BitVec 32).toInt = 0 from by decide, Int.cast_zero, EReal.coe_zero]

end FeatRead

/-! ## The gathered rows -/

section Rows
variable (x : FVec Ideal S50000x2 .f32) (θ : FVec Ideal S50000x1 .f32)

theorem table_x0 (n : Fin 50000) : table x θ (ix2 n (0 : Fin 3)) = x (ix2 n (0 : Fin 2)) :=
  concatenate_pair_apply_left (t := S50000x3) 1 x θ concatenates_S50000x2_S50000x1_S50000x3_d1 (ix2 n (0 : Fin 3)) rfl
    (ix2 n (0 : Fin 2)) (fun b => by
      match b with
      | ⟨0, _⟩ => rfl
      | ⟨1, _⟩ => rfl)

theorem table_x1 (n : Fin 50000) : table x θ (ix2 n (1 : Fin 3)) = x (ix2 n (1 : Fin 2)) :=
  concatenate_pair_apply_left (t := S50000x3) 1 x θ concatenates_S50000x2_S50000x1_S50000x3_d1 (ix2 n (1 : Fin 3)) rfl
    (ix2 n (1 : Fin 2)) (fun b => by
      match b with
      | ⟨0, _⟩ => rfl
      | ⟨1, _⟩ => rfl)

theorem table_θ (n : Fin 50000) : table x θ (ix2 n (2 : Fin 3)) = θ (ix2 n (0 : Fin 1)) :=
  concatenate_pair_apply_right (t := S50000x3) 1 x θ concatenates_S50000x2_S50000x1_S50000x3_d1 (ix2 n (2 : Fin 3)) rfl rfl
    (ix2 n (0 : Fin 1)) (fun b hb => by
      match b with
      | ⟨0, _⟩ => rfl
      | ⟨1, _⟩ => exact absurd rfl hb) rfl

/-- Row e of the gathered table is the node table's row at the clamped index. -/
theorem rowsOf_apply (a : IVec S800000 32) (e : Fin 800000) (d : Fin 3) :
    rowsOf x θ a (ix2 e d) = table x θ (ix2 (Cert.EdgeNet.row (srcCol a) e) d) :=
  Cert.Lib.RowAggregate.gather_row_apply' (N := 50000) (E := 800000) (D := 3) (by decide)
    gather_S50000x3_S800000x1_S800000x3_1_0_n_n_0_1_13 Facts₀.gather_S50000x3_S800000x1_S800000x3_1_0_n_n_0_1_13_wf rfl
    (table x θ) (srcCol a) e d

/-- The features read off the two gathered tables are the edge network's features. -/
theorem featOf_rows (a b : IVec S800000 32) (e : Fin 800000) :
    featOf (rowsOf x θ a) (rowsOf x θ b) e = Cert.EdgeNet.feat x θ (srcCol a) (srcCol b) e := by
  unfold featOf
  rw [rowsOf_apply x θ a e 0, rowsOf_apply x θ a e 1, rowsOf_apply x θ a e 2,
    rowsOf_apply x θ b e 0, rowsOf_apply x θ b e 1, rowsOf_apply x θ b e 2,
    table_x0, table_x0, table_x1, table_x1, table_θ, table_θ]
  rfl

end Rows

/-! ## The lines before the region, one operation at a time -/

/-- the buffers the 64 lines before the region write, in order -/
abbrev dsts64 : List (Ref sig .tc) :=
  [main_v0, main_v1, main_v2, main_v3, main_v4, main_v5, main_c, main_v6, main_v7, main_c_0, main_v8, main_v9, main_v10, main_v11, main_v12, main_c_1, main_v13, main_v14, main_c_2, main_v15, main_v16, main_v17, main_v18, main_v19, main_v20, main_v21, main_v22, main_v23, main_v24, main_v25, main_v26, main_v27, main_v28, main_v29, main_v30, main_v31, main_v32, main_v33, main_v34, main_v35, main_v36, main_v37, main_v38, main_v39, main_v40, main_v41, main_v42, main_v43, main_v44, main_v45, main_c_3, main_call0_v0, main_v46, main_v47, main_v48, main_v49, main_v50, main_v51, main_v52, main_v53, main_v54, main_v55, main_v56, main_v57]

/-- every line writes its own buffer only -/
theorem writes64 : StableHlo.WritesAre (τ := τ) (List.flatten [hostOps0 (F := Ideal), hostOps0_1, hostOps0_2]) dsts64 := by
  unfold StableHlo.WritesAre
  simp only [hostOps0, hostOps0_1, hostOps0_2, List.flatten_cons, List.flatten_nil, List.append_nil, List.cons_append, List.nil_append]
  repeat (first | exact List.Forall₂.nil | refine List.Forall₂.cons (Finset.Subset.refl _) ?_)

variable (W : Valuation τ sig (Elt Ideal))

set_option quotPrecheck false in
local notation "pre" => StableHlo.after (List.flatten [hostOps0 (F := Ideal), hostOps0_1, hostOps0_2]) W

/-! ## The feature matrix after the lines before the region -/

theorem pre_v46_eq : (pre (Proc.devRef .tc main_v46) : S4x802816.Idx → EReal)
    = featPad (rowsOf (W (Proc.devRef .tc main_arg0)) (W (Proc.devRef .tc main_arg1)) (W (Proc.devRef .tc main_arg11)))
        (rowsOf (W (Proc.devRef .tc main_arg0)) (W (Proc.devRef .tc main_arg1)) (W (Proc.devRef .tc main_arg12))) := by
  have s5 := StableHlo.read_binary writes64 5 W (a := main_arg0) (b := main_arg1) (y := main_v5) rfl (by decide) (by decide) (by decide)
  have s6 := StableHlo.read_nullary writes64 6 W (y := main_c) rfl (by decide)
  have s7 := StableHlo.read_unary writes64 7 W (x := main_c) (y := main_v6) rfl (by decide) (by decide)
  have s8 := StableHlo.read_binary writes64 8 W (a := main_arg11) (b := main_v6) (y := main_v7) rfl (by decide) (by decide) (by decide)
  have s9 := StableHlo.read_nullary writes64 9 W (y := main_c_0) rfl (by decide)
  have s10 := StableHlo.read_unary writes64 10 W (x := main_c_0) (y := main_v8) rfl (by decide) (by decide)
  have s11 := StableHlo.read_binary writes64 11 W (a := main_arg11) (b := main_v8) (y := main_v9) rfl (by decide) (by decide) (by decide)
  have s12 := StableHlo.read_ternary writes64 12 W (c := main_v7) (a := main_v9) (b := main_arg11) (y := main_v10) rfl (by decide) (by decide) (by decide) (by decide)
  have s13 := StableHlo.read_unary writes64 13 W (x := main_v10) (y := main_v11) rfl (by decide) (by decide)
  have s14 := StableHlo.read_binary writes64 14 W (a := main_v5) (b := main_v11) (y := main_v12) rfl (by decide) (by decide) (by decide)
  have s15 := StableHlo.read_nullary writes64 15 W (y := main_c_1) rfl (by decide)
  have s16 := StableHlo.read_unary writes64 16 W (x := main_c_1) (y := main_v13) rfl (by decide) (by decide)
  have s17 := StableHlo.read_binary writes64 17 W (a := main_arg12) (b := main_v13) (y := main_v14) rfl (by decide) (by decide) (by decide)
  have s18 := StableHlo.read_nullary writes64 18 W (y := main_c_2) rfl (by decide)
  have s19 := StableHlo.read_unary writes64 19 W (x := main_c_2) (y := main_v15) rfl (by decide) (by decide)
  have s20 := StableHlo.read_binary writes64 20 W (a := main_arg12) (b := main_v15) (y := main_v16) rfl (by decide) (by decide) (by decide)
  have s21 := StableHlo.read_ternary writes64 21 W (c := main_v14) (a := main_v16) (b := main_arg12) (y := main_v17) rfl (by decide) (by decide) (by decide) (by decide)
  have s22 := StableHlo.read_unary writes64 22 W (x := main_v17) (y := main_v18) rfl (by decide) (by decide)
  have s23 := StableHlo.read_binary writes64 23 W (a := main_v5) (b := main_v18) (y := main_v19) rfl (by decide) (by decide) (by decide)
  have s24 := StableHlo.read_unary writes64 24 W (x := main_v12) (y := main_v20) rfl (by decide) (by decide)
  have s25 := StableHlo.read_unary writes64 25 W (x := main_v12) (y := main_v21) rfl (by decide) (by decide)
  have s26 := StableHlo.read_unary writes64 26 W (x := main_v19) (y := main_v22) rfl (by decide) (by decide)
  have s27 := StableHlo.read_unary writes64 27 W (x := main_v19) (y := main_v23) rfl (by decide) (by decide)
  have s28 := StableHlo.read_binary writes64 28 W (a := main_v22) (b := main_v20) (y := main_v24) rfl (by decide) (by decide) (by decide)
  have s29 := StableHlo.read_binary writes64 29 W (a := main_v23) (b := main_v21) (y := main_v25) rfl (by decide) (by decide) (by decide)
  have s30 := StableHlo.read_unary writes64 30 W (x := main_v25) (y := main_v26) rfl (by decide) (by decide)
  have s31 := StableHlo.read_unary writes64 31 W (x := main_v25) (y := main_v27) rfl (by decide) (by decide)
  have s32 := StableHlo.read_unary writes64 32 W (x := main_v21) (y := main_v28) rfl (by decide) (by decide)
  have s33 := StableHlo.read_unary writes64 33 W (x := main_v21) (y := main_v29) rfl (by decide) (by decide)
  have s34 := StableHlo.read_unary writes64 34 W (x := main_v24) (y := main_v30) rfl (by decide) (by decide)
  have s35 := StableHlo.read_binary writes64 35 W (a := main_v30) (b := main_v28) (y := main_v31) rfl (by decide) (by decide) (by decide)
  have s36 := StableHlo.read_unary writes64 36 W (x := main_v24) (y := main_v32) rfl (by decide) (by decide)
  have s37 := StableHlo.read_binary writes64 37 W (a := main_v32) (b := main_v29) (y := main_v33) rfl (by decide) (by decide) (by decide)
  have s38 := StableHlo.read_binary writes64 38 W (a := main_v31) (b := main_v33) (y := main_v34) rfl (by decide) (by decide) (by decide)
  have s39 := StableHlo.read_unary writes64 39 W (x := main_v24) (y := main_v35) rfl (by decide) (by decide)
  have s40 := StableHlo.read_unary writes64 40 W (x := main_v35) (y := main_v36) rfl (by decide) (by decide)
  have s41 := StableHlo.read_binary writes64 41 W (a := main_v36) (b := main_v29) (y := main_v37) rfl (by decide) (by decide) (by decide)
  have s42 := StableHlo.read_unary writes64 42 W (x := main_v24) (y := main_v38) rfl (by decide) (by decide)
  have s43 := StableHlo.read_binary writes64 43 W (a := main_v38) (b := main_v28) (y := main_v39) rfl (by decide) (by decide) (by decide)
  have s44 := StableHlo.read_binary writes64 44 W (a := main_v37) (b := main_v39) (y := main_v40) rfl (by decide) (by decide) (by decide)
  have s45 := StableHlo.read_unary writes64 45 W (x := main_v34) (y := main_v41) rfl (by decide) (by decide)
  have s46 := StableHlo.read_unary writes64 46 W (x := main_v40) (y := main_v42) rfl (by decide) (by decide)
  have s47 := StableHlo.read_unary writes64 47 W (x := main_v26) (y := main_v43) rfl (by decide) (by decide)
  have s48 := StableHlo.read_unary writes64 48 W (x := main_v27) (y := main_v44) rfl (by decide) (by decide)
  have s49 := StableHlo.read_nary4 writes64 49 W (x := main_v41) (a := main_v42) (b := main_v43) (c := main_v44) (y := main_v45) rfl (by decide) (by decide) (by decide) (by decide) (by decide)
  have s50 := StableHlo.read_nullary writes64 50 W (y := main_c_3) rfl (by decide)
  have s51 := StableHlo.read_unary writes64 51 W (x := main_c_3) (y := main_call0_v0) rfl (by decide) (by decide)
  have s52 := StableHlo.read_binary writes64 52 W (a := main_v45) (b := main_call0_v0) (y := main_v46) rfl (by decide) (by decide) (by decide)
  have a0 : StableHlo.after (List.flatten [hostOps0 (F := Ideal), hostOps0_1, hostOps0_2]) W (Proc.devRef .tc main_arg0) = W (Proc.devRef .tc main_arg0) :=
    StableHlo.after_keep_from writes64 0 (r := main_arg0) (by decide) W
  have a1 : StableHlo.after (List.flatten [hostOps0 (F := Ideal), hostOps0_1, hostOps0_2]) W (Proc.devRef .tc main_arg1) = W (Proc.devRef .tc main_arg1) :=
    StableHlo.after_keep_from writes64 0 (r := main_arg1) (by decide) W
  have a11 : StableHlo.after (List.flatten [hostOps0 (F := Ideal), hostOps0_1, hostOps0_2]) W (Proc.devRef .tc main_arg11) = W (Proc.devRef .tc main_arg11) :=
    StableHlo.after_keep_from writes64 0 (r := main_arg11) (by decide) W
  have a12 : StableHlo.after (List.flatten [hostOps0 (F := Ideal), hostOps0_1, hostOps0_2]) W (Proc.devRef .tc main_arg12) = W (Proc.devRef .tc main_arg12) :=
    StableHlo.after_keep_from writes64 0 (r := main_arg12) (by decide) W
  have h11 : (pre (Proc.devRef .tc main_v11) : IVec S800000x1 32) = srcCol (W (Proc.devRef .tc main_arg11)) := by
    rw [s13, s12, s8, s11, s7, s10, s6, s9, a11]
  have h18 : (pre (Proc.devRef .tc main_v18) : IVec S800000x1 32) = srcCol (W (Proc.devRef .tc main_arg12)) := by
    rw [s22, s21, s17, s20, s16, s19, s15, s18, a12]
  have h5 : (pre (Proc.devRef .tc main_v5) : S50000x3.Idx → EReal) = table (W (Proc.devRef .tc main_arg0)) (W (Proc.devRef .tc main_arg1)) := by
    rw [s5, a0, a1]
  have h12 : (pre (Proc.devRef .tc main_v12) : S800000x3.Idx → EReal) = (rowsOf (W (Proc.devRef .tc main_arg0)) (W (Proc.devRef .tc main_arg1)) (W (Proc.devRef .tc main_arg11))) := by
    rw [s14, h5, h11]
  have h19 : (pre (Proc.devRef .tc main_v19) : S800000x3.Idx → EReal) = (rowsOf (W (Proc.devRef .tc main_arg0)) (W (Proc.devRef .tc main_arg1)) (W (Proc.devRef .tc main_arg12))) := by
    rw [s23, h5, h18]
  have h21 : (pre (Proc.devRef .tc main_v21) : S800000x1.Idx → EReal) = thS (rowsOf (W (Proc.devRef .tc main_arg0)) (W (Proc.devRef .tc main_arg1)) (W (Proc.devRef .tc main_arg11))) := by
    rw [s25, h12]
  have h24 : (pre (Proc.devRef .tc main_v24) : S800000x2.Idx → EReal) = dPos (rowsOf (W (Proc.devRef .tc main_arg0)) (W (Proc.devRef .tc main_arg1)) (W (Proc.devRef .tc main_arg11))) (rowsOf (W (Proc.devRef .tc main_arg0)) (W (Proc.devRef .tc main_arg1)) (W (Proc.devRef .tc main_arg12))) := by
    rw [s28, s26, s24, h19, h12]
  have h25 : (pre (Proc.devRef .tc main_v25) : S800000x1.Idx → EReal) = dTh (rowsOf (W (Proc.devRef .tc main_arg0)) (W (Proc.devRef .tc main_arg1)) (W (Proc.devRef .tc main_arg11))) (rowsOf (W (Proc.devRef .tc main_arg0)) (W (Proc.devRef .tc main_arg1)) (W (Proc.devRef .tc main_arg12))) := by
    rw [s29, s27, h19, h21]
  have h26 : (pre (Proc.devRef .tc main_v26) : S800000x1.Idx → EReal) = cCol (rowsOf (W (Proc.devRef .tc main_arg0)) (W (Proc.devRef .tc main_arg1)) (W (Proc.devRef .tc main_arg11))) (rowsOf (W (Proc.devRef .tc main_arg0)) (W (Proc.devRef .tc main_arg1)) (W (Proc.devRef .tc main_arg12))) := by
    rw [s30, h25]
  have h27 : (pre (Proc.devRef .tc main_v27) : S800000x1.Idx → EReal) = sCol (rowsOf (W (Proc.devRef .tc main_arg0)) (W (Proc.devRef .tc main_arg1)) (W (Proc.devRef .tc main_arg11))) (rowsOf (W (Proc.devRef .tc main_arg0)) (W (Proc.devRef .tc main_arg1)) (W (Proc.devRef .tc main_arg12))) := by
    rw [s31, h25]
  have h28 : (pre (Proc.devRef .tc main_v28) : S800000x1.Idx → EReal) = Host.cos (thS (rowsOf (W (Proc.devRef .tc main_arg0)) (W (Proc.devRef .tc main_arg1)) (W (Proc.devRef .tc main_arg11)))) := by
    rw [s32, h21]
  have h29 : (pre (Proc.devRef .tc main_v29) : S800000x1.Idx → EReal) = Host.sin (thS (rowsOf (W (Proc.devRef .tc main_arg0)) (W (Proc.devRef .tc main_arg1)) (W (Proc.devRef .tc main_arg11)))) := by
    rw [s33, h21]
  have h34 : (pre (Proc.devRef .tc main_v34) : S800000x1.Idx → EReal) = dxCol (rowsOf (W (Proc.devRef .tc main_arg0)) (W (Proc.devRef .tc main_arg1)) (W (Proc.devRef .tc main_arg11))) (rowsOf (W (Proc.devRef .tc main_arg0)) (W (Proc.devRef .tc main_arg1)) (W (Proc.devRef .tc main_arg12))) := by
    rw [s38, s35, s37, s34, s36, h24, h28, h29]
  have h40 : (pre (Proc.devRef .tc main_v40) : S800000x1.Idx → EReal) = dyCol (rowsOf (W (Proc.devRef .tc main_arg0)) (W (Proc.devRef .tc main_arg1)) (W (Proc.devRef .tc main_arg11))) (rowsOf (W (Proc.devRef .tc main_arg0)) (W (Proc.devRef .tc main_arg1)) (W (Proc.devRef .tc main_arg12))) := by
    rw [s44, s41, s43, s40, s39, s42, h24, h28, h29]
  have e41 : (pre (Proc.devRef .tc main_v41) : S1x800000.Idx → EReal) = transpose S1x800000 [1, 0] (dxCol (rowsOf (W (Proc.devRef .tc main_arg0)) (W (Proc.devRef .tc main_arg1)) (W (Proc.devRef .tc main_arg11))) (rowsOf (W (Proc.devRef .tc main_arg0)) (W (Proc.devRef .tc main_arg1)) (W (Proc.devRef .tc main_arg12)))) transposes_S800000x1_S1x800000_1_0 := by
    rw [s45, h34]
  have e42 : (pre (Proc.devRef .tc main_v42) : S1x800000.Idx → EReal) = transpose S1x800000 [1, 0] (dyCol (rowsOf (W (Proc.devRef .tc main_arg0)) (W (Proc.devRef .tc main_arg1)) (W (Proc.devRef .tc main_arg11))) (rowsOf (W (Proc.devRef .tc main_arg0)) (W (Proc.devRef .tc main_arg1)) (W (Proc.devRef .tc main_arg12)))) transposes_S800000x1_S1x800000_1_0 := by
    rw [s46, h40]
  have e43 : (pre (Proc.devRef .tc main_v43) : S1x800000.Idx → EReal) = transpose S1x800000 [1, 0] (cCol (rowsOf (W (Proc.devRef .tc main_arg0)) (W (Proc.devRef .tc main_arg1)) (W (Proc.devRef .tc main_arg11))) (rowsOf (W (Proc.devRef .tc main_arg0)) (W (Proc.devRef .tc main_arg1)) (W (Proc.devRef .tc main_arg12)))) transposes_S800000x1_S1x800000_1_0 := by
    rw [s47, h26]
  have e44 : (pre (Proc.devRef .tc main_v44) : S1x800000.Idx → EReal) = transpose S1x800000 [1, 0] (sCol (rowsOf (W (Proc.devRef .tc main_arg0)) (W (Proc.devRef .tc main_arg1)) (W (Proc.devRef .tc main_arg11))) (rowsOf (W (Proc.devRef .tc main_arg0)) (W (Proc.devRef .tc main_arg1)) (W (Proc.devRef .tc main_arg12)))) transposes_S800000x1_S1x800000_1_0 := by
    rw [s48, h27]
  rw [s52, s49, s51, s50, e41, e42, e43, e44]
  rfl

/-- THE FEATURES. Entry (k, e') of the padded feature-major matrix handed to the region is feature k of edge e' for an
    edge position e' < 800000, and zero in the padding. -/
theorem pre_feat (k : Fin 4) (e' : Fin 802816) :
    pre (Proc.devRef .tc main_v46) (ix2 k e')
      = if h : e'.val < 800000 then
          Cert.EdgeNet.feat (W (Proc.devRef .tc main_arg0)) (W (Proc.devRef .tc main_arg1))
            (srcCol (W (Proc.devRef .tc main_arg11))) (srcCol (W (Proc.devRef .tc main_arg12))) ⟨e'.val, h⟩ k
        else (0 : EReal) := by
  refine (congrFun (pre_v46_eq W) (ix2 k e')).trans ?_
  rw [featPad_apply]
  by_cases h : e'.val < 800000
  · rw [dif_pos h, dif_pos h, featOf_rows]
  · rw [dif_neg h, dif_neg h]

/-! ## The weights, the biases and the velocities after the lines before the region -/

theorem pre_v47_eq : (pre (Proc.devRef .tc main_v47) : S128x4.Idx → EReal)
    = transpose S128x4 [1, 0] (W (Proc.devRef .tc main_arg3)) transposes_S4x128_S128x4_1_0 := by
  simp only [hostOps0, hostOps0_1, hostOps0_2, List.flatten_cons, List.flatten_nil, List.append_nil, List.cons_append, List.nil_append]
  open StableHlo in
  simp (disch := decide) only [after_cons, after_nil, nullary_result', unary_result', binary_result', ternary_result',
    reshape_result', nary4_result', nullary_result_ne', unary_result_ne', binary_result_ne', ternary_result_ne',
    reshape_result_ne', nary_result_ne']

theorem pre_v49_eq : (pre (Proc.devRef .tc main_v49) : S128x128.Idx → EReal)
    = truncf (F := Ideal) .bf16 (transpose S128x128 [1, 0] (W (Proc.devRef .tc main_arg5)) transposes_S128x128_S128x128_1_0) bitsLt_bf16_f32 := by
  simp only [hostOps0, hostOps0_1, hostOps0_2, List.flatten_cons, List.flatten_nil, List.append_nil, List.cons_append, List.nil_append]
  open StableHlo in
  simp (disch := decide) only [after_cons, after_nil, nullary_result', unary_result', binary_result', ternary_result',
    reshape_result', nary4_result', nullary_result_ne', unary_result_ne', binary_result_ne', ternary_result_ne',
    reshape_result_ne', nary_result_ne']

theorem pre_v51_eq : (pre (Proc.devRef .tc main_v51) : S128x128.Idx → EReal)
    = truncf (F := Ideal) .bf16 (transpose S128x128 [1, 0] (W (Proc.devRef .tc main_arg7)) transposes_S128x128_S128x128_1_0) bitsLt_bf16_f32 := by
  simp only [hostOps0, hostOps0_1, hostOps0_2, List.flatten_cons, List.flatten_nil, List.append_nil, List.cons_append, List.nil_append]
  open StableHlo in
  simp (disch := decide) only [after_cons, after_nil, nullary_result', unary_result', binary_result', ternary_result',
    reshape_result', nary4_result', nullary_result_ne', unary_result_ne', binary_result_ne', ternary_result_ne',
    reshape_result_ne', nary_result_ne']

theorem pre_v53_eq : (pre (Proc.devRef .tc main_v53) : S1x128.Idx → EReal)
    = truncf (F := Ideal) .bf16 (transpose S1x128 [1, 0] (W (Proc.devRef .tc main_arg9)) transposes_S128x1_S1x128_1_0) bitsLt_bf16_f32 := by
  simp only [hostOps0, hostOps0_1, hostOps0_2, List.flatten_cons, List.flatten_nil, List.append_nil, List.cons_append, List.nil_append]
  open StableHlo in
  simp (disch := decide) only [after_cons, after_nil, nullary_result', unary_result', binary_result', ternary_result',
    reshape_result', nary4_result', nullary_result_ne', unary_result_ne', binary_result_ne', ternary_result_ne',
    reshape_result_ne', nary_result_ne']

theorem pre_v54_eq : (pre (Proc.devRef .tc main_v54) : S128x1.Idx → EReal)
    = shapeCast S128x1 (W (Proc.devRef .tc main_arg4)) shapeCasts_S128_S128x1 := by
  simp only [hostOps0, hostOps0_1, hostOps0_2, List.flatten_cons, List.flatten_nil, List.append_nil, List.cons_append, List.nil_append]
  open StableHlo in
  simp (disch := decide) only [after_cons, after_nil, nullary_result', unary_result', binary_result', ternary_result',
    reshape_result', nary4_result', nullary_result_ne', unary_result_ne', binary_result_ne', ternary_result_ne',
    reshape_result_ne', nary_result_ne']
  rfl

theorem pre_v55_eq : (pre (Proc.devRef .tc main_v55) : S128x1.Idx → EReal)
    = shapeCast S128x1 (W (Proc.devRef .tc main_arg6)) shapeCasts_S128_S128x1 := by
  simp only [hostOps0, hostOps0_1, hostOps0_2, List.flatten_cons, List.flatten_nil, List.append_nil, List.cons_append, List.nil_append]
  open StableHlo in
  simp (disch := decide) only [after_cons, after_nil, nullary_result', unary_result', binary_result', ternary_result',
    reshape_result', nary4_result', nullary_result_ne', unary_result_ne', binary_result_ne', ternary_result_ne',
    reshape_result_ne', nary_result_ne']
  rfl

theorem pre_v56_eq : (pre (Proc.devRef .tc main_v56) : S128x1.Idx → EReal)
    = shapeCast S128x1 (W (Proc.devRef .tc main_arg8)) shapeCasts_S128_S128x1 := by
  simp only [hostOps0, hostOps0_1, hostOps0_2, List.flatten_cons, List.flatten_nil, List.append_nil, List.cons_append, List.nil_append]
  open StableHlo in
  simp (disch := decide) only [after_cons, after_nil, nullary_result', unary_result', binary_result', ternary_result',
    reshape_result', nary4_result', nullary_result_ne', unary_result_ne', binary_result_ne', ternary_result_ne',
    reshape_result_ne', nary_result_ne']
  rfl

theorem pre_v57_eq : (pre (Proc.devRef .tc main_v57) : S1x1.Idx → EReal)
    = shapeCast S1x1 (W (Proc.devRef .tc main_arg10)) shapeCasts_S1_S1x1 := by
  simp only [hostOps0, hostOps0_1, hostOps0_2, List.flatten_cons, List.flatten_nil, List.append_nil, List.cons_append, List.nil_append]
  open StableHlo in
  simp (disch := decide) only [after_cons, after_nil, nullary_result', unary_result', binary_result', ternary_result',
    reshape_result', nary4_result', nullary_result_ne', unary_result_ne', binary_result_ne', ternary_result_ne',
    reshape_result_ne', nary_result_ne']
  rfl

/-- The node velocities are written by the first lines and kept by the rest. -/
theorem pre_velocity : (pre (Proc.devRef .tc main_v4) : S50000x2.Idx → EReal)
    = velocityTerm (W (Proc.devRef .tc main_arg1)) (W (Proc.devRef .tc main_arg2)) := by
  have s4 := StableHlo.read_binary writes64 4 W (a := main_v3) (b := main_v2) (y := main_v4) rfl (by decide) (by decide) (by decide)
  have s3 := StableHlo.read_unary writes64 3 W (x := main_arg2) (y := main_v3) rfl (by decide) (by decide)
  have s2 := StableHlo.read_binary writes64 2 W (a := main_v0) (b := main_v1) (y := main_v2) rfl (by decide) (by decide) (by decide)
  have s0 := StableHlo.read_unary writes64 0 W (x := main_arg1) (y := main_v0) rfl (by decide) (by decide)
  have s1 := StableHlo.read_unary writes64 1 W (x := main_arg1) (y := main_v1) rfl (by decide) (by decide)
  have a1 : StableHlo.after (List.flatten [hostOps0 (F := Ideal), hostOps0_1, hostOps0_2]) W (Proc.devRef .tc main_arg1) = W (Proc.devRef .tc main_arg1) :=
    StableHlo.after_keep_from writes64 0 (r := main_arg1) (by decide) W
  have a2 : StableHlo.after (List.flatten [hostOps0 (F := Ideal), hostOps0_1, hostOps0_2]) W (Proc.devRef .tc main_arg2) = W (Proc.devRef .tc main_arg2) :=
    StableHlo.after_keep_from writes64 0 (r := main_arg2) (by decide) W
  rw [s4, s3, s2, s0, s1, a1, a2]

/-- The first layer's weights, transposed. -/
theorem pre_W0T (j : Fin 128) (k : Fin 4) :
    pre (Proc.devRef .tc main_v47) (ix2 j k) = W (Proc.devRef .tc main_arg3) (ix2 k j) :=
  (congrFun (pre_v47_eq W) (ix2 j k)).trans (transpose_ix2_apply _ transposes_S4x128_S128x4_1_0 j k)

theorem pre_W1T (j : Fin 128) (k : Fin 128) :
    pre (Proc.devRef .tc main_v49) (ix2 j k) = W (Proc.devRef .tc main_arg5) (ix2 k j) :=
  (congrFun (pre_v49_eq W) (ix2 j k)).trans (transpose_ix2_apply _ transposes_S128x128_S128x128_1_0 j k)

theorem pre_W2T (j : Fin 128) (k : Fin 128) :
    pre (Proc.devRef .tc main_v51) (ix2 j k) = W (Proc.devRef .tc main_arg7) (ix2 k j) :=
  (congrFun (pre_v51_eq W) (ix2 j k)).trans (transpose_ix2_apply _ transposes_S128x128_S128x128_1_0 j k)

theorem pre_W3T (k : Fin 128) :
    pre (Proc.devRef .tc main_v53) (ix2 (0 : Fin 1) k) = W (Proc.devRef .tc main_arg9) (ix2 k (0 : Fin 1)) :=
  (congrFun (pre_v53_eq W) (ix2 (0 : Fin 1) k)).trans (transpose_ix2_apply _ transposes_S128x1_S1x128_1_0 (0 : Fin 1) k)

/-- a vector viewed as a column reads, at (j, 0), the vector at j -/
theorem col_apply {n : ℕ} (v : (⟨1, ![n]⟩ : Shape).Idx → EReal) (h : (⟨1, ![n]⟩ : Shape).ShapeCasts ⟨2, ![n, 1]⟩) (j : Fin n) :
    shapeCast ⟨2, ![n, 1]⟩ v h (ix2 j (0 : Fin 1)) = v (ix1 j) :=
  shapeCast_apply v h _ _ (by
    rw [Shape.rowMajor_val_two, Shape.rowMajor_val_one]
    show j.val = j.val * 1 + 0
    omega)

theorem pre_b0 (j : Fin 128) :
    pre (Proc.devRef .tc main_v54) (ix2 j (0 : Fin 1)) = W (Proc.devRef .tc main_arg4) (ix1 j) :=
  (congrFun (pre_v54_eq W) (ix2 j (0 : Fin 1))).trans (col_apply _ shapeCasts_S128_S128x1 j)

theorem pre_b1 (j : Fin 128) :
    pre (Proc.devRef .tc main_v55) (ix2 j (0 : Fin 1)) = W (Proc.devRef .tc main_arg6) (ix1 j) :=
  (congrFun (pre_v55_eq W) (ix2 j (0 : Fin 1))).trans (col_apply _ shapeCasts_S128_S128x1 j)

theorem pre_b2 (j : Fin 128) :
    pre (Proc.devRef .tc main_v56) (ix2 j (0 : Fin 1)) = W (Proc.devRef .tc main_arg8) (ix1 j) :=
  (congrFun (pre_v56_eq W) (ix2 j (0 : Fin 1))).trans (col_apply _ shapeCasts_S128_S128x1 j)

theorem pre_b3 :
    pre (Proc.devRef .tc main_v57) (ix2 (0 : Fin 1) (0 : Fin 1)) = W (Proc.devRef .tc main_arg10) (ix1 (0 : Fin 1)) :=
  (congrFun (pre_v57_eq W) (ix2 (0 : Fin 1) (0 : Fin 1))).trans (col_apply _ shapeCasts_S1_S1x1 (0 : Fin 1))

end Cert.KernelIdeal.HostLines

end
-- ==== Proof.KernelHostAfter.lean ====
/-
  THE HOST LINES AFTER THE REGION, READ AS THE EDGE NETWORK'S MEAN.

  The region leaves the messages in an array of 98 rows of 8192 lanes: the message of edge e sits at row e / 8192,
  lane e % 8192. The host lines after it flatten that array, keep its first 800000 entries and stand them up as a
  column; lay a column of ones beside it; add each row of the resulting two-column matrix into the row of a zero table
  that the edge's raw target index names; and divide the table's first column (the sums) by the larger of its second
  column (the counts) and one. Read index by index on the extended reals this is the edge network's torque of the
  messages found in the region's output.
-/
import proofs.«181314_j28269474742524_2_alg».proof.Proof.Gen.KernelIdeal.Launch
import proofs.«181314_j28269474742524_2_alg».proof.Proof.EdgeNet
import proofs.«181314_j28269474742524_2_alg».proof.Proof.LibRowAggregate
import proofs.«181314_j28269474742524_2_alg».proof.Proof.LibStageRead
import Idealize.ShloMosaic.Lib.IdealHost
import Idealize.ShloMosaic.Lib.ValueLayout
import Idealize.ShloMosaic.Lib.Pipeline.Value
import Idealize.ShloMosaic.Lib.StableHlo.Run

noncomputable section

open scoped BigOperators
open Idealize.ShloMosaic Idealize.ShloMosaic.ValueIdx Idealize.ShloMosaic.TcCoe Idealize.SL.Sem Idealize.ShloMosaic.StableHlo

namespace Cert.KernelIdeal.HostTail

open Cert.KernelIdeal Cert.KernelIdeal.Gen
open Cert.Lib.RowAggregate (srcRow landing)

/-! ## The pieces of the tail as functions of the region's output and the target vector -/

/-- the index column the scatter aims through: the target vector stood up as a column, unchanged -/
def rawCol (a : IVec S800000 32) : IVec S800000x1 32 :=
  broadcastInDim S800000x1 ![0] bcast_S800000_S800000x1_0 a

/-- the message of edge e as the region left it: row e / 8192, lane e % 8192 -/
abbrev laneMsg (y : FVec Ideal S98x1x8192 .f32) : Fin 800000 → EReal := fun e =>
  y (ix3 (⟨e.val / 8192, by have := e.isLt; omega⟩ : Fin 98) (0 : Fin 1) (⟨e.val % 8192, by omega⟩ : Fin 8192))

/-- the message column: the region's output flattened, cut to its first 800000 entries, stood up as a column -/
def msgCol (y : FVec Ideal S98x1x8192 .f32) : FVec Ideal S800000x1 .f32 :=
  shapeCast S800000x1
    (extractStridedSlice S800000 ![0] (shapeCast S802816 y shapeCasts_S98x1x8192_S802816) slices_S802816_S800000_0)
    shapeCasts_S800000_S800000x1

/-- the updates: the message column with a column of ones beside it -/
def updCols (y : FVec Ideal S98x1x8192 .f32) : FVec Ideal S800000x2 .f32 :=
  concatenate S800000x2 1 [⟨S800000x1, msgCol y⟩,
    ⟨S800000x1, broadcastInDim S800000x1 ![] bcast_S_S800000x1 (constant (F := Ideal) S_ .f32 0x3F800000#32)⟩]
    concatenates_S800000x1_S800000x1_S800000x2_d1

/-- the table after the scatter: column 0 the sums, column 1 the counts -/
def table (y : FVec Ideal S98x1x8192 .f32) (a : IVec S800000 32) : FVec Ideal S50000x2 .f32 :=
  Host.scatterAdd (F := Ideal) scatter_S50000x2_S800000x1_S800000x2_1_0_0_1
    (broadcastInDim S50000x2 ![] bcast_S_S50000x2 (constant (F := Ideal) S_ .f32 0x00000000#32)) (rawCol a) (updCols y)

/-- the tail's result: sums over the larger of counts and one -/
def tailTerm (y : FVec Ideal S98x1x8192 .f32) (a : IVec S800000 32) : FVec Ideal S50000x1 .f32 :=
  Host.divf (F := Ideal) (extractStridedSlice S50000x1 ![0, 0] (table y a) slices_S50000x2_S50000x1_0_0)
    (maximumf (extractStridedSlice S50000x1 ![0, 1] (table y a) slices_S50000x2_S50000x1_0_1)
      (broadcastInDim S50000x1 ![] bcast_S_S50000x1 (constant (F := Ideal) S_ .f32 0x3F800000#32)))

/-! ## Read at an index -/

section Index
variable (y : FVec Ideal S98x1x8192 .f32) (a : IVec S800000 32)

/-- entry e of the message column is the region's output at row e / 8192, lane e % 8192 -/
theorem msgCol_apply (e : Fin 800000) : msgCol y (ix2 e (0 : Fin 1)) = laneMsg y e := by
  unfold msgCol
  have he : e.val < 802816 := by have := e.isLt; omega
  refine (shapeCast_apply _ shapeCasts_S800000_S800000x1 (ix2 e (0 : Fin 1)) (ix1 e) (by
    rw [Shape.rowMajor_val_two, Shape.rowMajor_val_one]
    show e.val = e.val * 1 + 0
    omega)).trans ?_
  refine (extractStridedSlice_apply _ _ slices_S802816_S800000_0 (ix1 e) (ix1 (⟨e.val, he⟩ : Fin 802816)) (by
    intro c
    have hc0 : c = 0 := Subsingleton.elim _ _
    subst hc0
    show e.val = 0 + e.val
    omega)).trans ?_
  exact shapeCast_apply y shapeCasts_S98x1x8192_S802816 (ix1 (⟨e.val, he⟩ : Fin 802816))
    (ix3 (⟨e.val / 8192, by have := e.isLt; omega⟩ : Fin 98) (0 : Fin 1) (⟨e.val % 8192, by omega⟩ : Fin 8192)) (by
    rw [Shape.rowMajor_val_three, Shape.rowMajor_val_one]
    show (e.val / 8192 * 1 + 0) * 8192 + e.val % 8192 = e.val
    omega)

/-- column 0 of the updates is the message column -/
theorem upd_col0 (e : Fin 800000) : updCols y (ix2 e (0 : Fin 2)) = laneMsg y e := by
  unfold updCols
  refine (concatenate_pair_apply_left (t := S800000x2) 1 _ _ concatenates_S800000x1_S800000x1_S800000x2_d1
    (ix2 e (0 : Fin 2)) rfl (ix2 e (0 : Fin 1)) (by
      intro b
      match b with
      | ⟨0, _⟩ => rfl
      | ⟨1, _⟩ => rfl)).trans ?_
  exact msgCol_apply y e

/-- column 1 of the updates is one -/
theorem upd_col1 (e : Fin 800000) : updCols y (ix2 e (1 : Fin 2)) = Cert.EdgeNet.one := by
  unfold updCols
  refine (concatenate_pair_apply_right (t := S800000x2) 1 _ _ concatenates_S800000x1_S800000x1_S800000x2_d1
    (ix2 e (1 : Fin 2)) rfl rfl (ix2 e (0 : Fin 1)) (by
      intro b hb
      match b with
      | ⟨0, _⟩ => rfl
      | ⟨1, _⟩ => exact absurd rfl hb) (by rfl)).trans ?_
  rw [broadcastInDim_scalar_apply, constant_apply]

/-- entry (n, c) of the table is the sum of column c of the updates over the edges aimed at node n -/
theorem table_apply (n : Fin 50000) (c : Fin 2) :
    table y a (ix2 n c) = ∑ e ∈ landing (rawCol a) n, updCols y (ix2 e c) := by
  unfold table
  refine (Cert.Lib.RowAggregate.scatterAdd_row_apply (N := 50000) (E := 800000) (D := 2) (w := 32) (φ := .f32)
    scatter_S50000x2_S800000x1_S800000x2_1_0_0_1 scatter_S50000x2_S800000x1_S800000x2_1_0_0_1_wf rfl
    _ (rawCol a) (updCols y) n c).trans ?_
  rw [broadcastInDim_scalar_apply, constant_apply, Ideal.ofBits_zero_f32, zero_add]

/-- the host's quotient of two columns, read at an entry -/
theorem hostDivf_at (A B : FVec Ideal S50000x1 .f32) (i : S50000x1.Idx) :
    Host.divf (F := Ideal) A B i = Ideal.div (A i) (B i) := rfl

/-- the larger of two columns, read at an entry -/
theorem maximumf_at (A B : FVec Ideal S50000x1 .f32) (i : S50000x1.Idx) :
    maximumf A B i = max (A i) (B i) := rfl

/-- the edge network's torque read at node n -/
theorem torque_at (dc : IVec S800000x1 32) (μ : Fin 800000 → EReal) (n : Fin 50000) :
    Cert.EdgeNet.torque dc μ (ix2 n (0 : Fin 1))
      = Ideal.div (∑ e ∈ landing dc n, μ e) (max (∑ e ∈ landing dc n, Cert.EdgeNet.one) Cert.EdgeNet.one) := rfl

/-- THE TAIL IS THE EDGE NETWORK'S TORQUE of the messages the region left. -/
theorem tailTerm_eq : tailTerm y a = Cert.EdgeNet.torque (rawCol a) (laneMsg y) := by
  funext i
  obtain ⟨n, d, rfl⟩ : ∃ (n : Fin 50000) (d : Fin 1), i = ix2 n d := ⟨i 0, i 1, eq_ix2 i⟩
  obtain rfl : d = 0 := Subsingleton.elim _ _
  have h0 : extractStridedSlice S50000x1 ![0, 0] (table y a) slices_S50000x2_S50000x1_0_0 (ix2 n (0 : Fin 1))
      = ∑ e ∈ landing (rawCol a) n, laneMsg y e :=
    (slice2_axis1_apply 0 (table y a) slices_S50000x2_S50000x1_0_0 n (0 : Fin 1) (0 : Fin 2) rfl).trans
      ((table_apply y a n 0).trans (Finset.sum_congr rfl fun e _ => upd_col0 y e))
  have h1 : extractStridedSlice S50000x1 ![0, 1] (table y a) slices_S50000x2_S50000x1_0_1 (ix2 n (0 : Fin 1))
      = ∑ e ∈ landing (rawCol a) n, Cert.EdgeNet.one :=
    (slice2_axis1_apply 1 (table y a) slices_S50000x2_S50000x1_0_1 n (0 : Fin 1) (1 : Fin 2) rfl).trans
      ((table_apply y a n 1).trans (Finset.sum_congr rfl fun e _ => upd_col1 y e))
  have h2 : broadcastInDim S50000x1 ![] bcast_S_S50000x1 (constant (F := Ideal) S_ .f32 0x3F800000#32) (ix2 n (0 : Fin 1))
      = Cert.EdgeNet.one := by
    rw [broadcastInDim_scalar_apply, constant_apply]
  unfold tailTerm
  rw [hostDivf_at, maximumf_at, h0, h1, h2]
  exact (torque_at (rawCol a) (laneMsg y) n).symm

end Index

/-! ## The tail read stage by stage -/

/-- the buffers the sixteen tail lines write, in order: each is written once -/
abbrev dsts1 : List (Ref sig .tc) :=
  [main_v59, main_v60, main_v61, main_cst, main_v62, main_v63, main_cst_4, main_v64, main_v65, main_v66, main_v67,
    main_v68, main_cst_5, main_v69, main_v70, main_v71]

theorem writes1 : StableHlo.WritesAre (τ := τ) (hostOps1 (F := Ideal)) dsts1 :=
  .cons (Finset.Subset.refl _) (.cons (Finset.Subset.refl _) (.cons (Finset.Subset.refl _) (.cons (Finset.Subset.refl _)
  (.cons (Finset.Subset.refl _) (.cons (Finset.Subset.refl _) (.cons (Finset.Subset.refl _) (.cons (Finset.Subset.refl _)
  (.cons (Finset.Subset.refl _) (.cons (Finset.Subset.refl _) (.cons (Finset.Subset.refl _) (.cons (Finset.Subset.refl _)
  (.cons (Finset.Subset.refl _) (.cons (Finset.Subset.refl _) (.cons (Finset.Subset.refl _) (.cons (Finset.Subset.refl _)
  .nil)))))))))))))))

theorem flat1 : List.flatten [hostOps1 (F := Ideal)] = hostOps1 := by
  rw [List.flatten_cons, List.flatten_nil, List.append_nil]

section Stages
variable (W' : Valuation τ sig (Elt Ideal))

local notation "post1" => StableHlo.after (hostOps1 (F := Ideal)) W'

theorem keep_v58 : post1 (Proc.devRef .tc main_v58) = W' (Proc.devRef .tc main_v58) :=
  StableHlo.after_keep_from writes1 0 (by decide) W'
theorem keep_arg12 : post1 (Proc.devRef .tc main_arg12) = W' (Proc.devRef .tc main_arg12) :=
  StableHlo.after_keep_from writes1 0 (by decide) W'
theorem keep_v4 : post1 (Proc.devRef .tc main_v4) = W' (Proc.devRef .tc main_v4) :=
  StableHlo.after_keep_from writes1 0 (by decide) W'

theorem rd_v59 : post1 (Proc.devRef .tc main_v59)
    = fun j => (rfl : main_v58.ty.elt = main_v59.ty.elt) ▸ shapeCast main_v59.ty.shape (post1 (Proc.devRef .tc main_v58)) shapeCasts_S98x1x8192_S802816 j :=
  StableHlo.read_reshape writes1 0 W' rfl (by decide) (by decide)
theorem rd_v60 : post1 (Proc.devRef .tc main_v60)
    = extractStridedSlice S800000 ![0] (post1 (Proc.devRef .tc main_v59)) slices_S802816_S800000_0 :=
  StableHlo.read_unary writes1 1 W' rfl (by decide) (by decide)
theorem rd_v61 : post1 (Proc.devRef .tc main_v61)
    = fun j => (rfl : main_v60.ty.elt = main_v61.ty.elt) ▸ shapeCast main_v61.ty.shape (post1 (Proc.devRef .tc main_v60)) shapeCasts_S800000_S800000x1 j :=
  StableHlo.read_reshape writes1 2 W' rfl (by decide) (by decide)
theorem rd_cst : post1 (Proc.devRef .tc main_cst) = constant (F := Ideal) S_ .f32 0x3F800000#32 :=
  StableHlo.read_nullary writes1 3 W' rfl (by decide)
theorem rd_v62 : post1 (Proc.devRef .tc main_v62)
    = broadcastInDim S800000x1 ![] bcast_S_S800000x1 (post1 (Proc.devRef .tc main_cst)) :=
  StableHlo.read_unary writes1 4 W' rfl (by decide) (by decide)
theorem rd_v63 : post1 (Proc.devRef .tc main_v63)
    = concatenate S800000x2 1 [⟨S800000x1, post1 (Proc.devRef .tc main_v61)⟩, ⟨S800000x1, post1 (Proc.devRef .tc main_v62)⟩]
        concatenates_S800000x1_S800000x1_S800000x2_d1 :=
  StableHlo.read_binary writes1 5 W' rfl (by decide) (by decide) (by decide)
theorem rd_cst_4 : post1 (Proc.devRef .tc main_cst_4) = constant (F := Ideal) S_ .f32 0x00000000#32 :=
  StableHlo.read_nullary writes1 6 W' rfl (by decide)
theorem rd_v64 : post1 (Proc.devRef .tc main_v64)
    = broadcastInDim S50000x2 ![] bcast_S_S50000x2 (post1 (Proc.devRef .tc main_cst_4)) :=
  StableHlo.read_unary writes1 7 W' rfl (by decide) (by decide)
theorem rd_v65 : post1 (Proc.devRef .tc main_v65)
    = broadcastInDim S800000x1 ![0] bcast_S800000_S800000x1_0 (post1 (Proc.devRef .tc main_arg12)) :=
  StableHlo.read_unary writes1 8 W' rfl (by decide) (by decide)
theorem rd_v66 : post1 (Proc.devRef .tc main_v66)
    = Host.scatterAdd (F := Ideal) (s := S50000x2) (φ := .f32) scatter_S50000x2_S800000x1_S800000x2_1_0_0_1
        (post1 (Proc.devRef .tc main_v64)) (post1 (Proc.devRef .tc main_v65)) (post1 (Proc.devRef .tc main_v63)) :=
  StableHlo.read_ternary writes1 9 W' rfl (by decide) (by decide) (by decide) (by decide)
theorem rd_v67 : post1 (Proc.devRef .tc main_v67)
    = extractStridedSlice S50000x1 ![0, 0] (post1 (Proc.devRef .tc main_v66)) slices_S50000x2_S50000x1_0_0 :=
  StableHlo.read_unary writes1 10 W' rfl (by decide) (by decide)
theorem rd_v68 : post1 (Proc.devRef .tc main_v68)
    = extractStridedSlice S50000x1 ![0, 1] (post1 (Proc.devRef .tc main_v66)) slices_S50000x2_S50000x1_0_1 :=
  StableHlo.read_unary writes1 11 W' rfl (by decide) (by decide)
theorem rd_cst_5 : post1 (Proc.devRef .tc main_cst_5) = constant (F := Ideal) S_ .f32 0x3F800000#32 :=
  StableHlo.read_nullary writes1 12 W' rfl (by decide)
theorem rd_v69 : post1 (Proc.devRef .tc main_v69)
    = broadcastInDim S50000x1 ![] bcast_S_S50000x1 (post1 (Proc.devRef .tc main_cst_5)) :=
  StableHlo.read_unary writes1 13 W' rfl (by decide) (by decide)
theorem rd_v70 : post1 (Proc.devRef .tc main_v70)
    = maximumf (F := Ideal) (s := S50000x1) (φ := .f32) (post1 (Proc.devRef .tc main_v68)) (post1 (Proc.devRef .tc main_v69)) :=
  StableHlo.read_binary writes1 14 W' rfl (by decide) (by decide) (by decide)
theorem rd_v71 : post1 (Proc.devRef .tc main_v71)
    = Host.divf (F := Ideal) (s := S50000x1) (φ := .f32) (post1 (Proc.devRef .tc main_v67)) (post1 (Proc.devRef .tc main_v70)) :=
  StableHlo.read_binary writes1 15 W' rfl (by decide) (by decide) (by decide)

/-- after the tail the message column's buffer holds the message column of the region's output -/
theorem st_msg : post1 (Proc.devRef .tc main_v61) = msgCol (W' (Proc.devRef .tc main_v58)) := by
  rw [rd_v61, rd_v60, rd_v59, keep_v58]
  rfl

/-- … the updates' buffer the updates -/
theorem st_upd : post1 (Proc.devRef .tc main_v63) = updCols (W' (Proc.devRef .tc main_v58)) := by
  rw [rd_v63, st_msg, rd_v62, rd_cst]
  rfl

/-- … the index column's buffer the raw target column -/
theorem st_raw : post1 (Proc.devRef .tc main_v65) = rawCol (W' (Proc.devRef .tc main_arg12)) := by
  rw [rd_v65, keep_arg12]
  rfl

/-- … and the scatter's buffer the table -/
theorem st_table :
    post1 (Proc.devRef .tc main_v66) = table (W' (Proc.devRef .tc main_v58)) (W' (Proc.devRef .tc main_arg12)) := by
  rw [rd_v66, rd_v64, rd_cst_4, st_raw, st_upd]
  rfl

/-- the tail's result buffer holds the tail's term of the region's output and the target vector -/
theorem post_v71 :
    StableHlo.after (List.flatten [hostOps1 (F := Ideal)]) W' (Proc.devRef .tc main_v71)
      = tailTerm (W' (Proc.devRef .tc main_v58)) (W' (Proc.devRef .tc main_arg12)) := by
  rw [flat1, rd_v71, rd_v67, rd_v70, rd_v68, rd_v69, rd_cst_5, st_table]
  rfl

/-- AFTER THE TAIL the last buffer holds the edge network's torque of the messages the region left, aimed through the
    raw target column. -/
theorem tail_torque :
    StableHlo.after (List.flatten [hostOps1 (F := Ideal)]) W' (Proc.devRef .tc main_v71)
      = Cert.EdgeNet.torque (rawCol (W' (Proc.devRef .tc main_arg12))) (laneMsg (W' (Proc.devRef .tc main_v58))) :=
  (post_v71 W').trans (tailTerm_eq _ _)

/-- no line of the tail writes the velocities -/
theorem tail_velocity :
    StableHlo.after (List.flatten [hostOps1 (F := Ideal)]) W' (Proc.devRef .tc main_v4) = W' (Proc.devRef .tc main_v4) := by
  rw [flat1]
  exact keep_v4 W'

end Stages

end Cert.KernelIdeal.HostTail

end
-- ==== Proof.KernelValue.lean ====
/-
  THE KERNEL PROGRAM'S TWO RESULTS AS FUNCTIONS OF ITS ARGUMENTS, ON THE EXTENDED REALS.

  The region is handed the padded feature array (column e < 800000 holds the four features of edge e, the padding
  columns hold 0), the transposed weights and the bias columns; it leaves, at entry (t, 0, l) of its output array,
  the message of column 8192·t + l. The host lines after the region read the first 800000 entries of that array in
  row-major order — entry e sits at row e / 8192, lane e % 8192, which is column 8192·(e / 8192) + e % 8192 = e —, so
  the padding columns' messages are never read, and the scatter-mean is taken of the edges' own messages. With the
  transposed arrangement of the perceptron equal to EdgeNet's (Tile.tileMsg_eq_mlp), the torque the program returns
  is EdgeNet.torque of EdgeNet.msg, and the velocity is the host prefix's own term, which no later line touches.
-/
import proofs.«181314_j28269474742524_2_alg».proof.Proof.TileArray
import proofs.«181314_j28269474742524_2_alg».proof.Proof.KernelHostBefore
import proofs.«181314_j28269474742524_2_alg».proof.Proof.KernelHostAfter

set_option maxRecDepth 16384

noncomputable section

namespace Cert.KernelIdeal.Whole

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Launched

variable (m : (ℓ : Loc nD τ sig) → Buf (Elt Ideal) ℓ) (ρ : Dev nD → PrngReg)

/-- the message of edge e, of the arguments as launched on core c -/
abbrev edgeMsg (c : Dev nD) : Fin 800000 → EReal :=
  Cert.EdgeNet.msg (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
    (HostLines.srcCol (m ((c.tc : Thread nD τ).loc main_arg11))) (HostLines.srcCol (m ((c.tc : Thread nD τ).loc main_arg12)))

/-- Entry (e / 8192, 0, e % 8192) of the message array is the message of edge e. -/
theorem msgArr_edge (c : Dev nD) (e : Fin 800000) (h0 : e.val / 8192 < 98) (h2 : e.val % 8192 < 8192) :
    Region.msgArr m c (ix3 (⟨e.val / 8192, h0⟩ : Fin 98) (0 : Fin 1) (⟨e.val % 8192, h2⟩ : Fin 8192)) = edgeMsg m c e := by
  unfold Region.msgArr edgeMsg Cert.EdgeNet.msg
  rw [Tile.tileMsg_eq_mlp _ _ _ _ _ _ _ _ (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
    (fun j k => HostLines.pre_W0T (fun b => m (c, b)) j k) (fun j => HostLines.pre_b0 (fun b => m (c, b)) j)
    (fun j k => HostLines.pre_W1T (fun b => m (c, b)) j k) (fun j => HostLines.pre_b1 (fun b => m (c, b)) j)
    (fun j k => HostLines.pre_W2T (fun b => m (c, b)) j k) (fun j => HostLines.pre_b2 (fun b => m (c, b)) j)
    (fun k => HostLines.pre_W3T (fun b => m (c, b)) k) (HostLines.pre_b3 (fun b => m (c, b)))]
  congr 1
  funext k
  have he : e.val / 8192 * 8192 + e.val % 8192 = e.val := Nat.div_add_mod' e.val 8192
  have hlt : e.val / 8192 * 8192 + e.val % 8192 < 800000 := by rw [he]; exact e.isLt
  refine (HostLines.pre_feat (fun b => m (c, b)) k _).trans ?_
  rw [dif_pos hlt]
  exact congrArg (fun e' => Cert.EdgeNet.feat _ _ _ _ e' k) (Fin.ext he)

/-- the buffers after the region, as the later host lines find them: the region's arrays at what the tiles wrote
    back, every other buffer as the region found it -/
abbrev afterRegion (c : Dev nD) : Valuation τ sig (Elt Ideal) :=
  Pipeline.withArrays spec0 c (V0 m c) fun w => (dats m 0 c).arrAt w cfg0.N

/-- the target vector is no array of the region and no earlier line writes it -/
theorem after_arg12 (c : Dev nD) : afterRegion m c (Proc.devRef .tc main_arg12) = m ((c.tc : Thread nD τ).loc main_arg12) :=
  (Pipeline.withArrays_of_ne _ c (V0 m c) _ main_arg12 (by exact (by decide : ∀ w, Pipeline.arrRef spec0 w ≠ main_arg12))).trans
    (V_main_arg12 m c)

/-- the region's output array is the message array -/
theorem after_v58 (c : Dev nD) : afterRegion m c (Proc.devRef .tc main_v58) = Region.msgArr m c :=
  (Pipeline.withArrays_arr spec0 launch0.win.arr_inj c _ _ 9).trans (Region.final m c)

/-- read in row-major order, its first 800000 entries are the edges' messages -/
theorem lane_edge (c : Dev nD) : HostTail.laneMsg (afterRegion m c (Proc.devRef .tc main_v58)) = edgeMsg m c :=
  funext fun e => (congrFun (after_v58 m c) _).trans (msgArr_edge m c e _ _)

/-- The torque the program returns: the scatter-mean, over the raw target column, of the edges' messages. -/
theorem torque_eq (c : Dev nD) :
    Pipeline.afterTail₀ cfgs (dats m) 0 (V0 m) [hostOps1] c main_v71
      = Cert.EdgeNet.torque (HostTail.rawCol (m ((c.tc : Thread nD τ).loc main_arg12))) (edgeMsg m c) :=
  (HostTail.tail_torque (afterRegion m c)).trans
    (congr (congrArg Cert.EdgeNet.torque (congrArg HostTail.rawCol (after_arg12 m c))) (lane_edge m c))

/-- The velocities the program returns: the host prefix's own term, which the region and the later lines leave alone. -/
theorem velocity_eq (c : Dev nD) :
    Pipeline.afterTail₀ cfgs (dats m) 0 (V0 m) [hostOps1] c main_v4
      = HostLines.velocityTerm (m ((c.tc : Thread nD τ).loc main_arg1)) (m ((c.tc : Thread nD τ).loc main_arg2)) :=
  (HostTail.tail_velocity (afterRegion m c)).trans
    ((Pipeline.withArrays_of_ne _ c (V0 m c) _ main_v4 (by exact (by decide : ∀ w, Pipeline.arrRef spec0 w ≠ main_v4))).trans
      (HostLines.pre_velocity (fun b => m (c, b))))

/-- Every weakly fair execution of the kernel program ends with the velocities at the program's own term and the torques
    at the edge network's, the thirteen arguments unchanged. -/
theorem run :
    θ_run defs (onTc (τ := τ) (main (F := Ideal))) ⟨m, fun _ => 0, ρ⟩ fun r => ∀ c : Dev nD,
      r.2.mem ((c.tc : Thread nD τ).loc main_v4) = HostLines.velocityTerm (m ((c.tc : Thread nD τ).loc main_arg1)) (m ((c.tc : Thread nD τ).loc main_arg2))
      ∧ r.2.mem ((c.tc : Thread nD τ).loc main_v71) = Cert.EdgeNet.torque (HostTail.rawCol (m ((c.tc : Thread nD τ).loc main_arg12))) (edgeMsg m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c => ⟨
    ((h c).2 main_v4 (Pipeline.mem_restRefs_of main_v4 (by decide) (by decide))).trans (velocity_eq m c),
    ((h c).2 main_v71 (Pipeline.mem_restRefs_of main_v71 (by decide) (by decide))).trans (torque_eq m c),
    ((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c),
    ((h c).2 main_arg2 (Pipeline.mem_restRefs_of main_arg2 (by decide) (by decide))).trans (W_main_arg2 m (dats m) c),
    ((h c).2 main_arg3 (Pipeline.mem_restRefs_of main_arg3 (by decide) (by decide))).trans (W_main_arg3 m (dats m) c),
    ((h c).2 main_arg4 (Pipeline.mem_restRefs_of main_arg4 (by decide) (by decide))).trans (W_main_arg4 m (dats m) c),
    ((h c).2 main_arg5 (Pipeline.mem_restRefs_of main_arg5 (by decide) (by decide))).trans (W_main_arg5 m (dats m) c),
    ((h c).2 main_arg6 (Pipeline.mem_restRefs_of main_arg6 (by decide) (by decide))).trans (W_main_arg6 m (dats m) c),
    ((h c).2 main_arg7 (Pipeline.mem_restRefs_of main_arg7 (by decide) (by decide))).trans (W_main_arg7 m (dats m) c),
    ((h c).2 main_arg8 (Pipeline.mem_restRefs_of main_arg8 (by decide) (by decide))).trans (W_main_arg8 m (dats m) c),
    ((h c).2 main_arg9 (Pipeline.mem_restRefs_of main_arg9 (by decide) (by decide))).trans (W_main_arg9 m (dats m) c),
    ((h c).2 main_arg10 (Pipeline.mem_restRefs_of main_arg10 (by decide) (by decide))).trans (W_main_arg10 m (dats m) c),
    ((h c).2 main_arg11 (Pipeline.mem_restRefs_of main_arg11 (by decide) (by decide))).trans (W_main_arg11 m (dats m) c),
    ((h c).2 main_arg12 (Pipeline.mem_restRefs_of main_arg12 (by decide) (by decide))).trans (W_main_arg12 m (dats m) c)⟩)
    (run_main m ρ)

end Cert.KernelIdeal.Whole

end
-- ==== Proof.ReferenceValue.lean ====
/-
  THE REFERENCE PROGRAM READ AS THE EDGE NETWORK.

  The reference computes, on the host, for every edge the rows of x and θ at its two endpoints (four gathers through
  index columns normalised the way the program normalises them: a negative index is moved up by 50000), the four
  features, a four-layer perceptron of them, and then adds the messages into the rows their target indices name
  (a scatter through the raw target column), counts them the same way, and divides. Read index by index on the
  extended reals this is the edge network's torque of the messages; the node velocities are kept as the program's own
  whole-array term.
-/
import proofs.«181314_j28269474742524_2_alg».proof.Proof.Gen.ReferenceIdeal.Read
import proofs.«181314_j28269474742524_2_alg».proof.Proof.EdgeNet
import proofs.«181314_j28269474742524_2_alg».proof.Proof.LibRowAggregate

noncomputable section

open scoped BigOperators
open Idealize.ShloMosaic Idealize.ShloMosaic.ValueIdx Idealize.ShloMosaic.TcCoe Idealize.SL.Sem Idealize.ShloMosaic.StableHlo

namespace Cert.ReferenceIdeal.RefValue

open Cert.ReferenceIdeal Cert.ReferenceIdeal.Gen Cert.ReferenceIdeal.Read
open Cert.Lib.RowAggregate (srcRow landing)

/-! ## The index columns -/

/-- the index column a gather reads through: an index below zero is moved up by 50000, then the vector is stood up as
    a column -/
def srcCol (a : IVec S800000 32) : IVec S800000x1 32 :=
  broadcastInDim S800000x1 ![0] bcast_S800000_S800000x1_0
    (select (cmpi .slt a (broadcastInDim S800000 ![] bcast_S_S800000 (constantI S_ 32 0#32)))
      (addi a (broadcastInDim S800000 ![] bcast_S_S800000 (constantI S_ 32 50000#32))) a)

/-- the index column the scatters aim through: the target vector stood up as a column, unchanged -/
def rawCol (a : IVec S800000 32) : IVec S800000x1 32 :=
  broadcastInDim S800000x1 ![0] bcast_S800000_S800000x1_0 a

theorem srcCol_v10 (a : IVec S800000 32) : val_main_v10 (F := Ideal) a = srcCol a := rfl
theorem srcCol_v17 (a : IVec S800000 32) : val_main_v17 (F := Ideal) a = srcCol a := rfl
theorem srcCol_v24 (a : IVec S800000 32) : val_main_v24 (F := Ideal) a = srcCol a := rfl
theorem srcCol_v31 (a : IVec S800000 32) : val_main_v31 (F := Ideal) a = srcCol a := rfl
theorem rawCol_v71 (a : IVec S800000 32) : val_main_v71 (F := Ideal) a = rawCol a := rfl
theorem rawCol_v75 (a : IVec S800000 32) : val_main_v75 (F := Ideal) a = rawCol a := rfl

/-! ## The node velocities -/

/-- the velocities as one whole-array term: the speed times the row (cos θ, sin θ) -/
def velocityTerm (th : FVec Ideal S50000x1 .f32) (v : FVec Ideal S_ .f32) : FVec Ideal S50000x2 .f32 :=
  mulf (broadcastInDim S50000x2 ![] bcast_S_S50000x2 v)
    (concatenate S50000x2 1 [⟨S50000x1, Host.cos (F := Ideal) th⟩, ⟨S50000x1, Host.sin (F := Ideal) th⟩]
      concatenates_S50000x1_S50000x1_S50000x2_d1)

theorem ref_velocity (x1 : FVec Ideal S50000x1 .f32) (x2 : FVec Ideal S_ .f32) :
    val_main_v4 (F := Ideal) x1 x2 = velocityTerm x1 x2 := rfl

/-! ## The four gathers: the rows of x and θ at an edge's source and target -/

theorem x_src_apply (x0 : FVec Ideal S50000x2 .f32) (a : IVec S800000 32) (e : Fin 800000) (d : Fin 2) :
    val_main_v11 (F := Ideal) x0 a (ix2 e d) = x0 (ix2 (Cert.EdgeNet.row (srcCol a) e) d) := by
  unfold val_main_v11
  rw [srcCol_v10]
  exact Cert.Lib.RowAggregate.gather_row_apply' (N := 50000) (E := 800000) (D := 2) (w := 32) (by decide)
    gather_S50000x2_S800000x1_S800000x2_1_0_n_n_0_1_12 gather_S50000x2_S800000x1_S800000x2_1_0_n_n_0_1_12_wf rfl
    x0 (srcCol a) e d

theorem x_dst_apply (x0 : FVec Ideal S50000x2 .f32) (a : IVec S800000 32) (e : Fin 800000) (d : Fin 2) :
    val_main_v18 (F := Ideal) x0 a (ix2 e d) = x0 (ix2 (Cert.EdgeNet.row (srcCol a) e) d) := by
  unfold val_main_v18
  rw [srcCol_v17]
  exact Cert.Lib.RowAggregate.gather_row_apply' (N := 50000) (E := 800000) (D := 2) (w := 32) (by decide)
    gather_S50000x2_S800000x1_S800000x2_1_0_n_n_0_1_12 gather_S50000x2_S800000x1_S800000x2_1_0_n_n_0_1_12_wf rfl
    x0 (srcCol a) e d

theorem th_src_apply (x1 : FVec Ideal S50000x1 .f32) (a : IVec S800000 32) (e : Fin 800000) (d : Fin 1) :
    val_main_v25 (F := Ideal) x1 a (ix2 e d) = x1 (ix2 (Cert.EdgeNet.row (srcCol a) e) d) := by
  unfold val_main_v25
  rw [srcCol_v24]
  exact Cert.Lib.RowAggregate.gather_row_apply' (N := 50000) (E := 800000) (D := 1) (w := 32) (by decide)
    gather_S50000x1_S800000x1_S800000x1_1_0_n_n_0_1_11 gather_S50000x1_S800000x1_S800000x1_1_0_n_n_0_1_11_wf rfl
    x1 (srcCol a) e d

theorem th_dst_apply (x1 : FVec Ideal S50000x1 .f32) (a : IVec S800000 32) (e : Fin 800000) (d : Fin 1) :
    val_main_v32 (F := Ideal) x1 a (ix2 e d) = x1 (ix2 (Cert.EdgeNet.row (srcCol a) e) d) := by
  unfold val_main_v32
  rw [srcCol_v31]
  exact Cert.Lib.RowAggregate.gather_row_apply' (N := 50000) (E := 800000) (D := 1) (w := 32) (by decide)
    gather_S50000x1_S800000x1_S800000x1_1_0_n_n_0_1_11 gather_S50000x1_S800000x1_S800000x1_1_0_n_n_0_1_11_wf rfl
    x1 (srcCol a) e d

/-! ## The four features of an edge -/

/-- the displacement from the source's row to the target's row -/
theorem dr_apply (x0 : FVec Ideal S50000x2 .f32) (a b : IVec S800000 32) (e : Fin 800000) (d : Fin 2) :
    val_main_v33 (F := Ideal) x0 a b (ix2 e d)
      = x0 (ix2 (Cert.EdgeNet.row (srcCol b) e) d) - x0 (ix2 (Cert.EdgeNet.row (srcCol a) e) d) := by
  rw [val_main_v33_apply, x_dst_apply, x_src_apply]
  rfl

/-- the angle difference, target minus source -/
theorem dth_apply (x1 : FVec Ideal S50000x1 .f32) (a b : IVec S800000 32) (e : Fin 800000) :
    val_main_v34 (F := Ideal) x1 a b (ix2 e (0 : Fin 1))
      = x1 (ix2 (Cert.EdgeNet.row (srcCol b) e) (0 : Fin 1)) - x1 (ix2 (Cert.EdgeNet.row (srcCol a) e) (0 : Fin 1)) := by
  rw [val_main_v34_apply, th_dst_apply, th_src_apply]
  rfl

theorem idx39 (e : Fin 800000) : idx_main_v39 (ix2 e (0 : Fin 1)) = ix2 e (0 : Fin 2) :=
  funext fun a => Fin.ext (by match a with | ⟨0, _⟩ => rfl | ⟨1, _⟩ => rfl)
theorem idx41 (e : Fin 800000) : idx_main_v41 (ix2 e (0 : Fin 1)) = ix2 e (1 : Fin 2) :=
  funext fun a => Fin.ext (by match a with | ⟨0, _⟩ => rfl | ⟨1, _⟩ => rfl)
theorem idx44 (e : Fin 800000) : idx_main_v44 (ix2 e (0 : Fin 1)) = ix2 e (0 : Fin 2) :=
  funext fun a => Fin.ext (by match a with | ⟨0, _⟩ => rfl | ⟨1, _⟩ => rfl)
theorem idx47 (e : Fin 800000) : idx_main_v47 (ix2 e (0 : Fin 1)) = ix2 e (1 : Fin 2) :=
  funext fun a => Fin.ext (by match a with | ⟨0, _⟩ => rfl | ⟨1, _⟩ => rfl)

/-- the first feature: the displacement's component along the source's polarity -/
theorem dx_apply (x0 : FVec Ideal S50000x2 .f32) (x1 : FVec Ideal S50000x1 .f32) (a b : IVec S800000 32) (e : Fin 800000) :
    val_main_v43 (F := Ideal) x0 x1 a b (ix2 e (0 : Fin 1)) = Cert.EdgeNet.feat x0 x1 (srcCol a) (srcCol b) e 0 := by
  rw [val_main_v43_apply, val_main_v40_apply, val_main_v42_apply, val_main_v39_apply, val_main_v41_apply,
    val_main_v37_apply, val_main_v38_apply, idx39, idx41, dr_apply, dr_apply, th_src_apply]
  rfl

/-- the second feature: the displacement's component across the source's polarity -/
theorem dy_apply (x0 : FVec Ideal S50000x2 .f32) (x1 : FVec Ideal S50000x1 .f32) (a b : IVec S800000 32) (e : Fin 800000) :
    val_main_v49 (F := Ideal) x0 x1 a b (ix2 e (0 : Fin 1)) = Cert.EdgeNet.feat x0 x1 (srcCol a) (srcCol b) e 1 := by
  rw [val_main_v49_apply, val_main_v46_apply, val_main_v48_apply, val_main_v45_apply, val_main_v44_apply,
    val_main_v47_apply, val_main_v37_apply, val_main_v38_apply, idx44, idx47, dr_apply, dr_apply, th_src_apply]
  rfl

/-- the third feature: the cosine of the angle difference -/
theorem c_apply (x1 : FVec Ideal S50000x1 .f32) (a b : IVec S800000 32) (e : Fin 800000) :
    val_main_v35 (F := Ideal) x1 a b (ix2 e (0 : Fin 1))
      = Ideal.cos (x1 (ix2 (Cert.EdgeNet.row (srcCol b) e) (0 : Fin 1)) - x1 (ix2 (Cert.EdgeNet.row (srcCol a) e) (0 : Fin 1))) := by
  rw [val_main_v35_apply, dth_apply]
  rfl

/-- the fourth feature: the sine of the angle difference -/
theorem s_apply (x1 : FVec Ideal S50000x1 .f32) (a b : IVec S800000 32) (e : Fin 800000) :
    val_main_v36 (F := Ideal) x1 a b (ix2 e (0 : Fin 1))
      = Ideal.sin (x1 (ix2 (Cert.EdgeNet.row (srcCol b) e) (0 : Fin 1)) - x1 (ix2 (Cert.EdgeNet.row (srcCol a) e) (0 : Fin 1))) := by
  rw [val_main_v36_apply, dth_apply]
  rfl

/-! ## The feature matrix: four columns laid side by side -/

section Concat4
variable (A0 A1 A2 A3 : FVec Ideal S800000x1 .f32)
  (h : Shape.Concatenates (([⟨S800000x1, A0⟩, ⟨S800000x1, A1⟩, ⟨S800000x1, A2⟩, ⟨S800000x1, A3⟩] :
      List ((s : Shape) × (s.Idx → Ideal .f32))).map (·.1)) S800000x4 1)
  (e : Fin 800000)

theorem concat4_col0 :
    concatenate S800000x4 1 [⟨S800000x1, A0⟩, ⟨S800000x1, A1⟩, ⟨S800000x1, A2⟩, ⟨S800000x1, A3⟩] h (ix2 e (0 : Fin 4))
      = A0 (ix2 e (0 : Fin 1)) := by
  refine concatenate_apply_piece (t := S800000x4) 1 [⟨S800000x1, A0⟩, ⟨S800000x1, A1⟩, ⟨S800000x1, A2⟩, ⟨S800000x1, A3⟩] h _ 0
    (by show 0 < 4; omega) S800000x1 A0 rfl rfl 0 ?_ (ix2 e (0 : Fin 1)) ?_ ?_
  · simp
  · intro b hb
    match b with
    | ⟨0, _⟩ => rfl
    | ⟨1, _⟩ => exact absurd rfl hb
  · rfl

theorem concat4_col1 :
    concatenate S800000x4 1 [⟨S800000x1, A0⟩, ⟨S800000x1, A1⟩, ⟨S800000x1, A2⟩, ⟨S800000x1, A3⟩] h (ix2 e (1 : Fin 4))
      = A1 (ix2 e (0 : Fin 1)) := by
  refine concatenate_apply_piece (t := S800000x4) 1 [⟨S800000x1, A0⟩, ⟨S800000x1, A1⟩, ⟨S800000x1, A2⟩, ⟨S800000x1, A3⟩] h _ 1
    (by show 1 < 4; omega) S800000x1 A1 rfl rfl 1 ?_ (ix2 e (0 : Fin 1)) ?_ ?_
  · simp
  · intro b hb
    match b with
    | ⟨0, _⟩ => rfl
    | ⟨1, _⟩ => exact absurd rfl hb
  · rfl

theorem concat4_col2 :
    concatenate S800000x4 1 [⟨S800000x1, A0⟩, ⟨S800000x1, A1⟩, ⟨S800000x1, A2⟩, ⟨S800000x1, A3⟩] h (ix2 e (2 : Fin 4))
      = A2 (ix2 e (0 : Fin 1)) := by
  refine concatenate_apply_piece (t := S800000x4) 1 [⟨S800000x1, A0⟩, ⟨S800000x1, A1⟩, ⟨S800000x1, A2⟩, ⟨S800000x1, A3⟩] h _ 2
    (by show 2 < 4; omega) S800000x1 A2 rfl rfl 2 ?_ (ix2 e (0 : Fin 1)) ?_ ?_
  · simp
  · intro b hb
    match b with
    | ⟨0, _⟩ => rfl
    | ⟨1, _⟩ => exact absurd rfl hb
  · rfl

theorem concat4_col3 :
    concatenate S800000x4 1 [⟨S800000x1, A0⟩, ⟨S800000x1, A1⟩, ⟨S800000x1, A2⟩, ⟨S800000x1, A3⟩] h (ix2 e (3 : Fin 4))
      = A3 (ix2 e (0 : Fin 1)) := by
  refine concatenate_apply_piece (t := S800000x4) 1 [⟨S800000x1, A0⟩, ⟨S800000x1, A1⟩, ⟨S800000x1, A2⟩, ⟨S800000x1, A3⟩] h _ 3
    (by show 3 < 4; omega) S800000x1 A3 rfl rfl 3 ?_ (ix2 e (0 : Fin 1)) ?_ ?_
  · simp
  · intro b hb
    match b with
    | ⟨0, _⟩ => rfl
    | ⟨1, _⟩ => exact absurd rfl hb
  · rfl

end Concat4

/-- row e of the feature matrix is the edge's feature vector -/
theorem featmat_apply (x0 : FVec Ideal S50000x2 .f32) (x1 : FVec Ideal S50000x1 .f32) (a b : IVec S800000 32)
    (e : Fin 800000) (k : Fin 4) :
    val_main_v50 (F := Ideal) x0 x1 a b (ix2 e k) = Cert.EdgeNet.feat x0 x1 (srcCol a) (srcCol b) e k := by
  unfold val_main_v50
  match k with
  | ⟨0, _⟩ => exact (concat4_col0 _ _ _ _ _ e).trans (dx_apply x0 x1 a b e)
  | ⟨1, _⟩ => exact (concat4_col1 _ _ _ _ _ e).trans (dy_apply x0 x1 a b e)
  | ⟨2, _⟩ => exact (concat4_col2 _ _ _ _ _ e).trans (c_apply x1 a b e)
  | ⟨3, _⟩ => exact (concat4_col3 _ _ _ _ _ e).trans (s_apply x1 a b e)

/-! ## Index equations of the contractions and the bias broadcasts -/

theorem lidx51 (e : Fin 800000) (j : Fin 128) (k : Fin 4) : lidx_main_v51 (ix2 e j) k = ix2 e k :=
  funext fun a => Fin.ext (by match a with | ⟨0, _⟩ => rfl | ⟨1, _⟩ => rfl)
theorem ridx51 (e : Fin 800000) (j : Fin 128) (k : Fin 4) : ridx_main_v51 (ix2 e j) k = ix2 k j :=
  funext fun a => Fin.ext (by match a with | ⟨0, _⟩ => rfl | ⟨1, _⟩ => rfl)
theorem bidx53 (e : Fin 800000) (j : Fin 128) : idx_main_v52 (idx_main_v53 (ix2 e j)) = ix1 j :=
  funext fun a => Fin.ext (by match a with | ⟨0, _⟩ => rfl)
theorem lidx56 (e : Fin 800000) (j k : Fin 128) : lidx_main_v56 (ix2 e j) k = ix2 e k :=
  funext fun a => Fin.ext (by match a with | ⟨0, _⟩ => rfl | ⟨1, _⟩ => rfl)
theorem ridx56 (e : Fin 800000) (j k : Fin 128) : ridx_main_v56 (ix2 e j) k = ix2 k j :=
  funext fun a => Fin.ext (by match a with | ⟨0, _⟩ => rfl | ⟨1, _⟩ => rfl)
theorem bidx58 (e : Fin 800000) (j : Fin 128) : idx_main_v57 (idx_main_v58 (ix2 e j)) = ix1 j :=
  funext fun a => Fin.ext (by match a with | ⟨0, _⟩ => rfl)
theorem lidx61 (e : Fin 800000) (j k : Fin 128) : lidx_main_v61 (ix2 e j) k = ix2 e k :=
  funext fun a => Fin.ext (by match a with | ⟨0, _⟩ => rfl | ⟨1, _⟩ => rfl)
theorem ridx61 (e : Fin 800000) (j k : Fin 128) : ridx_main_v61 (ix2 e j) k = ix2 k j :=
  funext fun a => Fin.ext (by match a with | ⟨0, _⟩ => rfl | ⟨1, _⟩ => rfl)
theorem bidx63 (e : Fin 800000) (j : Fin 128) : idx_main_v62 (idx_main_v63 (ix2 e j)) = ix1 j :=
  funext fun a => Fin.ext (by match a with | ⟨0, _⟩ => rfl)
theorem lidx66 (e : Fin 800000) (k : Fin 128) : lidx_main_v66 (ix2 e (0 : Fin 1)) k = ix2 e k :=
  funext fun a => Fin.ext (by match a with | ⟨0, _⟩ => rfl | ⟨1, _⟩ => rfl)
theorem ridx66 (e : Fin 800000) (k : Fin 128) : ridx_main_v66 (ix2 e (0 : Fin 1)) k = ix2 k (0 : Fin 1) :=
  funext fun a => Fin.ext (by match a with | ⟨0, _⟩ => rfl | ⟨1, _⟩ => rfl)
theorem bidx68 (e : Fin 800000) : idx_main_v67 (idx_main_v68 (ix2 e (0 : Fin 1))) = ix1 (0 : Fin 1) :=
  funext fun a => Fin.ext (by match a with | ⟨0, _⟩ => rfl)

/-! ## The perceptron, layer by layer -/

section Layers
variable (x0 : FVec Ideal S50000x2 .f32) (x1 : FVec Ideal S50000x1 .f32)
  (x3 : FVec Ideal S4x128 .f32) (x4 : FVec Ideal S128 .f32) (x5 : FVec Ideal S128x128 .f32) (x6 : FVec Ideal S128 .f32)
  (x7 : FVec Ideal S128x128 .f32) (x8 : FVec Ideal S128 .f32) (x9 : FVec Ideal S128x1 .f32) (x10 : FVec Ideal S1 .f32)
  (a b : IVec S800000 32)

/-- the first hidden layer of edge e -/
theorem layer1_apply (e : Fin 800000) (j : Fin 128) :
    val_main_v55 (F := Ideal) x0 x1 x3 x4 a b (ix2 e j)
      = Cert.EdgeNet.layer x3 x4 (Cert.EdgeNet.feat x0 x1 (srcCol a) (srcCol b) e) j := by
  rw [val_main_v55_apply, val_main_v54_apply, val_main_v51_apply, val_main_v53_apply, val_main_v52_apply,
    val_main_call0_v0_apply, val_main_call0_cst_apply, bidx53]
  simp only [lidx51, ridx51, featmat_apply, Ideal.ofBits_def, Ideal.ofBits_zero_f32]
  rfl

/-- the second hidden layer of edge e -/
theorem layer2_apply (e : Fin 800000) (j : Fin 128) :
    val_main_v60 (F := Ideal) x0 x1 x3 x4 x5 x6 a b (ix2 e j)
      = Cert.EdgeNet.layer x5 x6 (Cert.EdgeNet.layer x3 x4 (Cert.EdgeNet.feat x0 x1 (srcCol a) (srcCol b) e)) j := by
  rw [val_main_v60_apply, val_main_v59_apply, val_main_v56_apply, val_main_v58_apply, val_main_v57_apply,
    val_main_call1_v0_apply, val_main_call1_cst_apply, bidx58]
  simp only [lidx56, ridx56, layer1_apply, Ideal.ofBits_def, Ideal.ofBits_zero_f32]
  rfl

/-- the third hidden layer of edge e -/
theorem layer3_apply (e : Fin 800000) (j : Fin 128) :
    val_main_v65 (F := Ideal) x0 x1 x3 x4 x5 x6 x7 x8 a b (ix2 e j)
      = Cert.EdgeNet.layer x7 x8 (Cert.EdgeNet.layer x5 x6 (Cert.EdgeNet.layer x3 x4
          (Cert.EdgeNet.feat x0 x1 (srcCol a) (srcCol b) e))) j := by
  rw [val_main_v65_apply, val_main_v64_apply, val_main_v61_apply, val_main_v63_apply, val_main_v62_apply,
    val_main_call2_v0_apply, val_main_call2_cst_apply, bidx63]
  simp only [lidx61, ridx61, layer2_apply, Ideal.ofBits_def, Ideal.ofBits_zero_f32]
  rfl

/-- the message column: entry e is the message of edge e -/
theorem msg_apply (e : Fin 800000) :
    val_main_v69 (F := Ideal) x0 x1 x3 x4 x5 x6 x7 x8 x9 x10 a b (ix2 e (0 : Fin 1))
      = Cert.EdgeNet.msg x0 x1 x3 x4 x5 x6 x7 x8 x9 x10 (srcCol a) (srcCol b) e := by
  rw [val_main_v69_apply, val_main_v66_apply, val_main_v68_apply, val_main_v67_apply, bidx68]
  simp only [lidx66, ridx66, layer3_apply]
  rfl

/-! ## The two scatters and the mean -/

/-- the sums: row n holds the sum of the messages aimed at node n -/
theorem sums_apply (n : Fin 50000) :
    val_main_v72 (F := Ideal) x0 x1 x3 x4 x5 x6 x7 x8 x9 x10 a b (ix2 n (0 : Fin 1))
      = ∑ e ∈ landing (rawCol b) n, Cert.EdgeNet.msg x0 x1 x3 x4 x5 x6 x7 x8 x9 x10 (srcCol a) (srcCol b) e := by
  unfold val_main_v72
  rw [rawCol_v71]
  refine (Cert.Lib.RowAggregate.scatterAdd_row_apply (N := 50000) (E := 800000) (D := 1) (w := 32) (φ := .f32)
    scatter_S50000x1_S800000x1_S800000x1_1_0_0_1 scatter_S50000x1_S800000x1_S800000x1_1_0_0_1_wf rfl
    (val_main_v70 (F := Ideal)) (rawCol b) (val_main_v69 (F := Ideal) x0 x1 x3 x4 x5 x6 x7 x8 x9 x10 a b) n (0 : Fin 1)).trans ?_
  rw [val_main_v70_apply, val_main_cst_apply, Ideal.ofBits_def, Ideal.ofBits_zero_f32, zero_add]
  exact Finset.sum_congr rfl fun e _ => msg_apply x0 x1 x3 x4 x5 x6 x7 x8 x9 x10 a b e

/-- the counts: row n holds one unit per edge aimed at node n -/
theorem counts_apply (n : Fin 50000) :
    val_main_v76 (F := Ideal) b (ix2 n (0 : Fin 1)) = ∑ e ∈ landing (rawCol b) n, Cert.EdgeNet.one := by
  unfold val_main_v76
  rw [rawCol_v75]
  refine (Cert.Lib.RowAggregate.scatterAdd_row_apply (N := 50000) (E := 800000) (D := 1) (w := 32) (φ := .f32)
    scatter_S50000x1_S800000x1_S800000x1_1_0_0_1 scatter_S50000x1_S800000x1_S800000x1_1_0_0_1_wf rfl
    (val_main_v74 (F := Ideal)) (rawCol b) (val_main_v73 (F := Ideal)) n (0 : Fin 1)).trans ?_
  rw [val_main_v74_apply, val_main_cst_8_apply, Ideal.ofBits_def, Ideal.ofBits_zero_f32, zero_add]
  refine Finset.sum_congr rfl fun e _ => ?_
  rw [val_main_v73_apply, val_main_cst_7_apply]
  exact Ideal.ofBits_def (φ := .f32) _

/-- THE REFERENCE'S SECOND RESULT IS THE EDGE NETWORK'S TORQUE: each node's sum of the messages aimed at it over the
    larger of their number and one. -/
theorem ref_torque :
    val_main_v79 (F := Ideal) x0 x1 x3 x4 x5 x6 x7 x8 x9 x10 a b
      = Cert.EdgeNet.torque (rawCol b) (Cert.EdgeNet.msg x0 x1 x3 x4 x5 x6 x7 x8 x9 x10 (srcCol a) (srcCol b)) := by
  funext i
  obtain ⟨n, d, rfl⟩ : ∃ (n : Fin 50000) (d : Fin 1), i = ix2 n d := ⟨i 0, i 1, eq_ix2 i⟩
  obtain rfl : d = 0 := Subsingleton.elim _ _
  rw [val_main_v79_apply, val_main_v78_apply, sums_apply, counts_apply, val_main_v77_apply, val_main_cst_9_apply]
  rfl

end Layers

/-! ## The run, with both results named -/

/-- Every weakly fair execution of the reference ends with the velocities at the program's own term and the torques at
    the edge network's, the arguments unchanged. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v4)
        = velocityTerm (m ((c.tc : Thread nD τ).loc main_arg1)) (m ((c.tc : Thread nD τ).loc main_arg2))
      ∧ r.2.mem ((c.tc : Thread nD τ).loc main_v79)
        = Cert.EdgeNet.torque (rawCol (m ((c.tc : Thread nD τ).loc main_arg12)))
            (Cert.EdgeNet.msg (m ((c.tc : Thread nD τ).loc main_arg0)) (m ((c.tc : Thread nD τ).loc main_arg1))
              (m ((c.tc : Thread nD τ).loc main_arg3)) (m ((c.tc : Thread nD τ).loc main_arg4))
              (m ((c.tc : Thread nD τ).loc main_arg5)) (m ((c.tc : Thread nD τ).loc main_arg6))
              (m ((c.tc : Thread nD τ).loc main_arg7)) (m ((c.tc : Thread nD τ).loc main_arg8))
              (m ((c.tc : Thread nD τ).loc main_arg9)) (m ((c.tc : Thread nD τ).loc main_arg10))
              (srcCol (m ((c.tc : Thread nD τ).loc main_arg11))) (srcCol (m ((c.tc : Thread nD τ).loc main_arg12))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run Cert.ReferenceIdeal.defs _ _).mono
    (fun _ h c => ⟨(h c).1,
      (h c).2.1.trans ((val_main_v79_eq (F := Ideal) m c).trans (ref_torque _ _ _ _ _ _ _ _ _ _ _ _)),
      (h c).2.2⟩)
    (Cert.ReferenceIdeal.Value.run (F := Ideal) m ρ)

end Cert.ReferenceIdeal.RefValue

end
-- ==== Proof.lean ====
/-
  The certificate of the edge network: a graph network's per-edge perceptron computed in one tiled region (the kernel
  program) against the same network written in plain array operations (the reference).

  The three frames. Both kernel programs — read word by word and read on the extended reals — are the host lines before
  the region, the region over 98 tiles of 8192 edges, and the host lines after it; each tile's body loads its blocks
  whole and stores its row whole, so the launch theorem of the library applies with the region's arrays at what the tiles
  wrote back, and the argument arrays, which no line and no tile writes, end as launched (KernelLaunched, KernelIdealLaunched).
  The reference is host lines only: its frame is its run with the results dropped.

  The idealization rewrote nothing, so there is nothing to preserve.

  The value. On the extended reals both programs return the velocities v₀·(cos θ, sin θ) as the same array term, and the
  torques as EdgeNet.torque of EdgeNet.msg (EdgeNet): the kernel program by reading its host lines, its tiles and the
  transposed arrangement of the perceptron (Whole.run), the reference by reading its lines one by one (RefValue.ref_run).
  The two differ in how a layer's sum is arranged and in the order of each product's factors, which on the extended
  reals changes nothing, for any inputs: the precondition is not used.
-/
import proofs.«181314_j28269474742524_2_alg».proof.Defs
import proofs.«181314_j28269474742524_2_alg».proof.Proof.Gen.Kernel
import proofs.«181314_j28269474742524_2_alg».proof.Proof.Gen.KernelIdeal
import proofs.«181314_j28269474742524_2_alg».proof.Proof.Gen.ReferenceIdeal
import proofs.«181314_j28269474742524_2_alg».proof.Proof.Gen.Pre_finite_inputs
import proofs.«181314_j28269474742524_2_alg».proof.Proof.KernelLaunched
import proofs.«181314_j28269474742524_2_alg».proof.Proof.KernelValue
import proofs.«181314_j28269474742524_2_alg».proof.Proof.ReferenceValue

noncomputable section

namespace Cert.Proof

open Idealize.ShloMosaic Idealize.SL.Sem

theorem frame_k : Cert.frame_Kernel := fun m ρ _ => Cert.Kernel.Launched.frame m ρ

theorem frame_ki : Cert.frame_KernelIdeal := fun m ρ _ => Cert.KernelIdeal.Launched.frame m ρ

theorem frame_ri : Cert.frame_ReferenceIdeal := fun m ρ _ =>
  (θ_run Cert.ReferenceIdeal.defs _ _).mono (fun _ h c => (h c).2.2) (Cert.ReferenceIdeal.Value.run (F := Ideal) m ρ)

/-- Both programs' results are the same functions of the arguments: the velocities the same array term, the torques the
    edge network's; the index columns are the same terms of the same argument vectors. -/
theorem algebraic : Cert.algebraic_KernelIdeal_ReferenceIdeal := by
  intro m ρ m' ρ' _ hagree
  refine ⟨_, _, Cert.KernelIdeal.Whole.run m ρ, ?_⟩
  refine (θ_run Cert.ReferenceIdeal.defs _ _).mono (fun _ h c => ⟨(h c).1.trans ?_, (h c).2.1.trans ?_, (h c).2.2⟩)
    (Cert.ReferenceIdeal.RefValue.ref_run m' ρ')
  · obtain ⟨a0, a1, a2, a3, a4, a5, a6, a7, a8, a9, a10, a11, a12⟩ := hagree c
    rw [a1, a2]
    rfl
  · obtain ⟨a0, a1, a2, a3, a4, a5, a6, a7, a8, a9, a10, a11, a12⟩ := hagree c
    rw [a0, a1, a3, a4, a5, a6, a7, a8, a9, a10, a11, a12]
    rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
